-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2400000 : Shape := ⟨1, ![2400000]⟩
abbrev S150000x64 : Shape := ⟨2, ![150000, 64]⟩
abbrev S3x64x64 : Shape := ⟨3, ![3, 64, 64]⟩
abbrev S3x64 : Shape := ⟨2, ![3, 64]⟩
abbrev S_ : Shape := ⟨0, ![]⟩

class Facts : Prop where
  bcast_S_S2400000 : S_.BroadcastsInDim S2400000 (![] : Fin 0 → Fin S2400000.rank)
  reducesTo_S2400000_S_d0 : S2400000.ReducesTo [0] S_
  h_S_ : 0 < S_.numel
  bcast_S_S150000x64 : S_.BroadcastsInDim S150000x64 (![] : Fin 0 → Fin S150000x64.rank)
  reducesTo_S150000x64_S_d0_1 : S150000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg6 : FVec F S3x64x64 .f32) (main_arg7 : FVec F S3x64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64x64 .f32 := Host.absf main_arg6
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  main_v28

def fn {F : FTy → Type} [FloatOps F] (main_arg0 : IVec S2400000 32) (main_arg1 : IVec S2400000 32) (main_arg2 : FVec F S2400000 .f32) (main_arg3 : FVec F S150000x64 .f32) (main_arg4 : FVec F S3x64x64 .f32) (main_arg5 : FVec F S3x64 .f32) (main_arg6 : FVec F S3x64x64 .f32) (main_arg7 : FVec F S3x64 .f32) : IVec S_ 1 :=
  let main_v0 : FVec F S2400000 .f32 := Host.absf main_arg2
  let main_cst : FVec F S_ .f32 := constant S_ .f32 0x7F800000#32
  let main_v1 : FVec F S2400000 .f32 := broadcastInDim S2400000 ![] bcast_S_S2400000 main_cst
  let main_v2 : IVec S2400000 1 := cmpf .olt main_v0 main_v1
  let main_c : IVec S_ 1 := constantI S_ 1 1#1
  let main_v3 : IVec S_ 1 := (fun x v => Host.reduce IntOp.andi x v reducesTo_S2400000_S_d0 h_S_) main_v2 main_c
  let main_v4 : FVec F S150000x64 .f32 := Host.absf main_arg3
  let main_cst_0 : FVec F S_ .f32 := constant S_ .f32 0x7F800000#32
  let main_v5 : FVec F S150000x64 .f32 := broadcastInDim S150000x64 ![] bcast_S_S150000x64 main_cst_0
  let main_v6 : IVec S150000x64 1 := cmpf .olt main_v4 main_v5
  let main_c_1 : IVec S_ 1 := constantI S_ 1 1#1
  let main_v7 : IVec S_ 1 := (fun x v => Host.reduce IntOp.andi x v reducesTo_S150000x64_S_d0_1 h_S_) main_v6 main_c_1
  let main_v8 : IVec S_ 1 := andi main_v3 main_v7
  let main_v9 : FVec F S3x64x64 .f32 := Host.absf main_arg4
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_v13 main_v16
-- ==== Kernel.lean ====
abbrev S2400000 : Shape := ⟨1, ![2400000]⟩
abbrev S150000x64 : Shape := ⟨2, ![150000, 64]⟩
abbrev S3x64x64 : Shape := ⟨3, ![3, 64, 64]⟩
abbrev S3x64 : Shape := ⟨2, ![3, 64]⟩
abbrev S2400000x1 : Shape := ⟨2, ![2400000, 1]⟩
abbrev S_ : Shape := ⟨0, ![]⟩
abbrev S2400000x64 : Shape := ⟨2, ![2400000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S3000x64 : Shape := ⟨2, ![3000, 64]⟩
abbrev S3000 : Shape := ⟨1, ![3000]⟩
abbrev S3000x1 : Shape := ⟨2, ![3000, 1]⟩
abbrev S150000x256 : Shape := ⟨2, ![150000, 256]⟩
abbrev S50000x256 : Shape := ⟨2, ![50000, 256]⟩
abbrev S100000x256 : Shape := ⟨2, ![100000, 256]⟩

abbrev nBuf : Space → Nat
  | .hbm => 101
  | .vmem => 36
  | .smem => 0
  | _ => 0

abbrev bufTy : (tb : Table) → Fin (tcTables nBuf tb) → BufTy
  | .hbm, ⟨0, _⟩ => ⟨S2400000, .i32⟩
  | .hbm, ⟨1, _⟩ => ⟨S2400000, .i32⟩
  | .hbm, ⟨2, _⟩ => ⟨S2400000, .f32⟩
  | .hbm, ⟨3, _⟩ => ⟨S150000x64, .f32⟩
  | .hbm, ⟨4, _⟩ => ⟨S3x64x64, .f32⟩
  | .hbm, ⟨5, _⟩ => ⟨S3x64, .f32⟩
  | .hbm, ⟨6, _⟩ => ⟨S3x64x64, .f32⟩
  | .hbm, ⟨7, _⟩ => ⟨S3x64, .f32⟩
  | .hbm, ⟨8, _⟩ => ⟨S2400000x1, .f32⟩
  | .hbm, ⟨9, _⟩ => ⟨S_, .i32⟩
  | .hbm, ⟨10, _⟩ => ⟨S2400000, .i32⟩
  | .hbm, ⟨11, _⟩ => ⟨S2400000, .i1⟩
  | .hbm, ⟨12, _⟩ => ⟨S_, .i32⟩
  | .hbm, ⟨13, _⟩ => ⟨S2400000, .i32⟩
  | .hbm, ⟨14, _⟩ => ⟨S2400000, .i32⟩
  | .hbm, ⟨15, _⟩ => ⟨S2400000, .i32⟩
  | .hbm, ⟨16, _⟩ => ⟨S2400000x1, .i32⟩
  | .hbm, ⟨17, _⟩ => ⟨S2400000x64, .f32⟩
  | .hbm, ⟨18, _⟩ => ⟨S2400000x64, .f32⟩
  | .hbm, ⟨19, _⟩ => ⟨S2400000x64, .f32⟩
  | .hbm, ⟨20, _⟩ => ⟨S_, .f32⟩
  | .hbm, ⟨21, _⟩ => ⟨S150000x64, .f32⟩
  | .hbm, ⟨22, _⟩ => ⟨S2400000x1, .i32⟩
  | .hbm, ⟨23, _⟩ => ⟨S150000x64, .f32⟩
  | .hbm, ⟨24, _⟩ => ⟨S1x64x64, .f32⟩
  | .hbm, ⟨25, _⟩ => ⟨S64x64, .f32⟩
  | .hbm, ⟨26, _⟩ => ⟨S1x64, .f32⟩
  | .hbm, ⟨27, _⟩ => ⟨S64, .f32⟩
  | .hbm, ⟨28, _⟩ => ⟨S1x64x64, .f32⟩
  | .hbm, ⟨29, _⟩ => ⟨S64x64, .f32⟩
  | .hbm, ⟨30, _⟩ => ⟨S1x64, .f32⟩
  | .hbm, ⟨31, _⟩ => ⟨S64, .f32⟩
  | .hbm, ⟨32, _⟩ => ⟨S64x64, .f32⟩
  | .hbm, ⟨33, _⟩ => ⟨S64x64, .f32⟩
  | .hbm, ⟨34, _⟩ => ⟨S1x64, .f32⟩
  | .hbm, ⟨35, _⟩ => ⟨S1x64, .f32⟩
  | .hbm, ⟨36, _⟩ => ⟨S150000x64, .f32⟩
  | .hbm, ⟨37, _⟩ => ⟨S150000x64, .f32⟩
  | .hbm, ⟨38, _⟩ => ⟨S2400000x1, .f32⟩
  | .hbm, ⟨39, _⟩ => ⟨S_, .i32⟩
  | .hbm, ⟨40, _⟩ => ⟨S2400000, .i32⟩
  | .hbm, ⟨41, _⟩ => ⟨S2400000, .i1⟩
  | .hbm, ⟨42, _⟩ => ⟨S_, .i32⟩
  | .hbm, ⟨43, _⟩ => ⟨S2400000, .i32⟩
  | .hbm, ⟨44, _⟩ => ⟨S2400000, .i32⟩
  | .hbm, ⟨45, _⟩ => ⟨S2400000, .i32⟩
  | .hbm, ⟨46, _⟩ => ⟨S2400000x1, .i32⟩
  | .hbm, ⟨47, _⟩ => ⟨S2400000x64, .f32⟩
  | .hbm, ⟨48, _⟩ => ⟨S2400000x64, .f32⟩
  | .hbm, ⟨49, _⟩ => ⟨S2400000x64, .f32⟩
  | .hbm, ⟨50, _⟩ => ⟨S_, .f32⟩
  | .hbm, ⟨51, _⟩ => ⟨S150000x64, .f32⟩
  | .hbm, ⟨52, _⟩ => ⟨S2400000x1, .i32⟩
  | .hbm, ⟨53, _⟩ => ⟨S150000x64, .f32⟩
  | .hbm, ⟨54, _⟩ => ⟨S1x64x64, .f32⟩
  | .hbm, ⟨55, _⟩ => ⟨S64x64, .f32⟩
  | .hbm, ⟨56, _⟩ => ⟨S1x64, .f32⟩
  | .hbm, ⟨57, _⟩ => ⟨S64, .f32⟩
  | .hbm, ⟨58, _⟩ => ⟨S1x64x64, .f32⟩
  | .hbm, ⟨59, _⟩ => ⟨S64x64, .f32⟩
  | .hbm, ⟨60, _⟩ => ⟨S1x64, .f32⟩
  | .hbm, ⟨61, _⟩ => ⟨S64, .f32⟩
  | .hbm, ⟨62, _⟩ => ⟨S64x64, .f32⟩
  | .hbm, ⟨63, _⟩ => ⟨S64x64, .f32⟩
  | .hbm, ⟨64, _⟩ => ⟨S1x64, .f32⟩
  | .hbm, ⟨65, _⟩ => ⟨S1x64, .f32⟩
  | .hbm, ⟨66, _⟩ => ⟨S150000x64, .f32⟩
  | .hbm, ⟨67, _⟩ => ⟨S150000x64, .f32⟩
  | .hbm, ⟨68, _⟩ => ⟨S2400000x1, .f32⟩
  | .hbm, ⟨69, _⟩ => ⟨S_, .i32⟩
  | .hbm, ⟨70, _⟩ => ⟨S2400000, .i32⟩
  | .hbm, ⟨71, _⟩ => ⟨S2400000, .i1⟩
  | .hbm, ⟨72, _⟩ => ⟨S_, .i32⟩
  | .hbm, ⟨73, _⟩ => ⟨S2400000, .i32⟩
  | .hbm, ⟨74, _⟩ => ⟨S2400000, .i32⟩
  | .hbm, ⟨75, _⟩ => ⟨S2400000, .i32⟩
  | .hbm, ⟨76, _⟩ => ⟨S2400000x1, .i32⟩
  | .hbm, ⟨77, _⟩ => ⟨S2400000x64, .f32⟩
  | .hbm, ⟨78, _⟩ => ⟨S2400000x64, .f32⟩
  | .hbm, ⟨79, _⟩ => ⟨S2400000x64, .f32⟩
  | .hbm, ⟨80, _⟩ => ⟨S_, .f32⟩
  | .hbm, ⟨81, _⟩ => ⟨S150000x64, .f32⟩
  | .hbm, ⟨82, _⟩ => ⟨S2400000x1, .i32⟩
  | .hbm, ⟨83, _⟩ => ⟨S150000x64, .f32⟩
  | .hbm, ⟨84, _⟩ => ⟨S1x64x64, .f32⟩
  | .hbm, ⟨85, _⟩ => ⟨S64x64, .f32⟩
  | .hbm, ⟨86, _⟩ => ⟨S1x64, .f32⟩
  | .hbm, ⟨87, _⟩ => ⟨S64, .f32⟩
  | .hbm, ⟨88, _⟩ => ⟨S1x64x64, .f32⟩
  | .hbm, ⟨89, _⟩ => ⟨S64x64, .f32⟩
  | .hbm, ⟨90, _⟩ => ⟨S1x64, .f32⟩
  | .hbm, ⟨91, _⟩ => ⟨S64, .f32⟩
  | .hbm, ⟨92, _⟩ => ⟨S64x64, .f32⟩
  | .hbm, ⟨93, _⟩ => ⟨S64x64, .f32⟩
  | .hbm, ⟨94, _⟩ => ⟨S1x64, .f32⟩
  | .hbm, ⟨95, _⟩ => ⟨S1x64, .f32⟩
  | .hbm, ⟨96, _⟩ => ⟨S150000x64, .f32⟩
  | .hbm, ⟨97, _⟩ => ⟨S150000x64, .f32⟩
  | .hbm, ⟨98, _⟩ => ⟨S150000x256, .f32⟩
  | .hbm, ⟨99, _⟩ => ⟨S50000x256, .f32⟩
  | .hbm, ⟨100, _⟩ => ⟨S100000x256, .f32⟩
  | .local _ .vmem, ⟨0, _⟩ => ⟨S3000x64, .f32⟩
  | .local _ .vmem, ⟨1, _⟩ => ⟨S3000x64, .f32⟩
  | .local _ .vmem, ⟨2, _⟩ => ⟨S3000x64, .f32⟩
  | .local _ .vmem, ⟨3, _⟩ => ⟨S3000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S3000x64, .f32⟩
  | .local _ .vmem, ⟨9, _⟩ => ⟨S3000x64, .f32⟩
  | .local _ .vmem, ⟨10, _⟩ => ⟨S3000x64, .f32⟩
  | .local _ .vmem, ⟨11, _⟩ => ⟨S3000x64, .f32⟩
  | .local _ .vmem, ⟨12, _⟩ => ⟨S3000x64, .f32⟩
  | .local _ .vmem, ⟨13, _⟩ => ⟨S3000x64, .f32⟩
  | .local _ .vmem, ⟨14, _⟩ => ⟨S3000x64, .f32⟩
  | .local _ .vmem, ⟨15, _⟩ => ⟨S3000x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S3000x64, .f32⟩
  | .local _ .vmem, ⟨21, _⟩ => ⟨S3000x64, .f32⟩
  | .local _ .vmem, ⟨22, _⟩ => ⟨S3000x64, .f32⟩
  | .local _ .vmem, ⟨23, _⟩ => ⟨S3000x64, .f32⟩
  | .local _ .vmem, ⟨24, _⟩ => ⟨S3000x64, .f32⟩
  | .local _ .vmem, ⟨25, _⟩ => ⟨S3000x64, .f32⟩
  | .local _ .vmem, ⟨26, _⟩ => ⟨S3000x64, .f32⟩
  | .local _ .vmem, ⟨27, _⟩ => ⟨S3000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S3000x64, .f32⟩
  | .local _ .vmem, ⟨33, _⟩ => ⟨S3000x64, .f32⟩
  | .local _ .vmem, ⟨34, _⟩ => ⟨S3000x64, .f32⟩
  | .local _ .vmem, ⟨35, _⟩ => ⟨S3000x64, .f32⟩
  | _, _ => ⟨S2400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v26 : Ref sig .tc := ⟨.hbm, 38, rfl⟩
abbrev main_c_1 : Ref sig .tc := ⟨.hbm, 39, rfl⟩
abbrev main_v27 : Ref sig .tc := ⟨.hbm, 40, rfl⟩
abbrev main_v28 : Ref sig .tc := ⟨.hbm, 41, rfl⟩
abbrev main_c_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51_0 : Ref sig .tc := ⟨.hbm, 66, rfl⟩
abbrev main_v51_1 : Ref sig .tc := ⟨.hbm, 67, rfl⟩
abbrev main_v52 : Ref sig .tc := ⟨.hbm, 68, rfl⟩
abbrev main_c_4 : Ref sig .tc := ⟨.hbm, 69, rfl⟩
abbrev main_v53 : Ref sig .tc := ⟨.hbm, 70, rfl⟩
abbrev main_v54 : Ref sig .tc := ⟨.hbm, 71, rfl⟩
abbrev main_c_5 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_6 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77_0 : Ref sig .tc := ⟨.hbm, 96, rfl⟩
abbrev main_v77_1 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S3000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S3000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S3000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S3000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  transposes_S64x64_S64x64_1_0 : S64x64.Transposes [1, 0] S64x64
  shapeCasts_S64_S1x64 : S64.ShapeCasts S1x64
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3000x64 : S1x64.Broadcasts S3000x64
  reduces_S3000x64_S3000 : S3000x64.Reduces [1] S3000
  shapeCasts_S3000_S3000x1 : S3000.ShapeCasts S3000x1
  broadcasts_S3000x1_S3000x64 : S3000x1.Broadcasts S3000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S150000x64_S150000x64_S150000x64_S150000x64_S150000x256_d1 : Shape.Concatenates [S150000x64, S150000x64, S150000x64, S150000x64] S150000x256 1
  slices_S150000x256_S50000x256_0_0 : S150000x256.Slices ![0, 0] S50000x256
  slices_S150000x256_S100000x256_50000_0 : S150000x256.Slices ![50000, 0] S100000x256
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S3000x64_S64x64_S3000x64_1_0_0_1_n_n_wf : DotDims.WF S3000x64 S64x64 S3000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S150000x64.size a
  hwx0_0 : ∀ i : grid0.Coords, EltTy.bits .f32 = 32 ∨ (Rect.block (s := S150000x64) S3000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x64.size a ≤ S150000x64.size a
  hwx0_1 : ∀ i : grid0.Coords, EltTy.bits .f32 = 32 ∨ (Rect.block (s := S150000x64) S3000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3000x64.size a ≤ S150000x64.size a
  hwx0_6 : ∀ i : grid0.Coords, EltTy.bits .f32 = 32 ∨ (Rect.block (s := S150000x64) S3000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3000x64.size a ≤ S150000x64.size a
  hwx0_7 : ∀ i : grid0.Coords, EltTy.bits .f32 = 32 ∨ (Rect.block (s := S150000x64) S3000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x64.size a ≤ S150000x64.size a
  hwx1_0 : ∀ i : grid1.Coords, EltTy.bits .f32 = 32 ∨ (Rect.block (s := S150000x64) S3000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x64.size a ≤ S150000x64.size a
  hwx1_1 : ∀ i : grid1.Coords, EltTy.bits .f32 = 32 ∨ (Rect.block (s := S150000x64) S3000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S3000x64.size a ≤ S150000x64.size a
  hwx1_6 : ∀ i : grid1.Coords, EltTy.bits .f32 = 32 ∨ (Rect.block (s := S150000x64) S3000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S3000x64.size a ≤ S150000x64.size a
  hwx1_7 : ∀ i : grid1.Coords, EltTy.bits .f32 = 32 ∨ (Rect.block (s := S150000x64) S3000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x64.size a ≤ S150000x64.size a
  hwx2_0 : ∀ i : grid2.Coords, EltTy.bits .f32 = 32 ∨ (Rect.block (s := S150000x64) S3000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x64.size a ≤ S150000x64.size a
  hwx2_1 : ∀ i : grid2.Coords, EltTy.bits .f32 = 32 ∨ (Rect.block (s := S150000x64) S3000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S3000x64.size a ≤ S150000x64.size a
  hwx2_6 : ∀ i : grid2.Coords, EltTy.bits .f32 = 32 ∨ (Rect.block (s := S150000x64) S3000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S3000x64.size a ≤ S150000x64.size a
  hwx2_7 : ∀ i : grid2.Coords, EltTy.bits .f32 = 32 ∨ (Rect.block (s := S150000x64) S3000x64.size (cc2_transform_7 i) (hinb2_7 i)).WholeWords (EltTy.packing .f32)

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S3000x64_S64x64_S3000x64_1_0_0_1_n_n : DotDims S3000x64 S64x64 S3000x64 where
  lhsContracting := [1]
  rhsContracting := [0]
  lhsNonContracting := [0]
  rhsNonContracting := [1]
  lhsBatch := []
  rhsBatch := []
  wf := dot_S3000x64_S64x64_S3000x64_1_0_0_1_n_n_wf

abbrev win0_0 : Pipeline.Window sig grid0 :=
  Pipeline.Window.ofSpec (Memref.whole main_arg3) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S3000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25_0) S3000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v25_1) S3000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v25_0) S3000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S3000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51_0) S3000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v51_1) S3000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v51_0) S3000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S3000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v73) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v74) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v76) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v77_0) S3000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v77_1) S3000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S2400000 : Shape := ⟨1, ![2400000]⟩
abbrev S150000x64 : Shape := ⟨2, ![150000, 64]⟩
abbrev S3x64x64 : Shape := ⟨3, ![3, 64, 64]⟩
abbrev S3x64 : Shape := ⟨2, ![3, 64]⟩
abbrev S2400000x1 : Shape := ⟨2, ![2400000, 1]⟩
abbrev S_ : Shape := ⟨0, ![]⟩
abbrev S2400000x64 : Shape := ⟨2, ![2400000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S150000 : Shape := ⟨1, ![150000]⟩
abbrev S150000x1 : Shape := ⟨2, ![150000, 1]⟩
abbrev S150000x256 : Shape := ⟨2, ![150000, 256]⟩
abbrev S50000x256 : Shape := ⟨2, ![50000, 256]⟩
abbrev S100000x256 : Shape := ⟨2, ![100000, 256]⟩

abbrev nBuf : Space → Nat
  | .hbm => 200
  | .vmem => 0
  | .smem => 0
  | _ => 0

abbrev hbmTy0_0 (i : Nat) : BufTy := match i % 128 with
  | 0 => ⟨S2400000, .i32⟩
  | 1 => ⟨S2400000, .i32⟩
  | 2 => ⟨S2400000, .f32⟩
  | 3 => ⟨S150000x64, .f32⟩
  | 4 => ⟨S3x64x64, .f32⟩
  | 5 => ⟨S3x64, .f32⟩
  | 6 => ⟨S3x64x64, .f32⟩
  | 7 => ⟨S3x64, .f32⟩
  | 8 => ⟨S2400000x1, .f32⟩
  | 9 => ⟨S_, .i32⟩
  | 10 => ⟨S2400000, .i32⟩
  | 11 => ⟨S2400000, .i1⟩
  | 12 => ⟨S_, .i32⟩
  | 13 => ⟨S2400000, .i32⟩
  | 14 => ⟨S2400000, .i32⟩
  | 15 => ⟨S2400000, .i32⟩
  | 16 => ⟨S2400000x1, .i32⟩
  | 17 => ⟨S2400000x64, .f32⟩
  | 18 => ⟨S2400000x64, .f32⟩
  | 19 => ⟨S2400000x64, .f32⟩
  | 20 => ⟨S_, .f32⟩
  | 21 => ⟨S150000x64, .f32⟩
  | 22 => ⟨S2400000x1, .i32⟩
  | 23 => ⟨S150000x64, .f32⟩
  | 24 => ⟨S150000x64, .f32⟩
  | 25 => ⟨S1x64x64, .f32⟩
  | 26 => ⟨S64x64, .f32⟩
  | 27 => ⟨S64x64, .f32⟩
  | 28 => ⟨S150000x64, .f32⟩
  | 29 => ⟨S1x64, .f32⟩
  | 30 => ⟨S64, .f32⟩
  | 31 => ⟨S1x64, .f32⟩
  | 32 => ⟨S150000x64, .f32⟩
  | 33 => ⟨S150000x64, .f32⟩
  | 34 => ⟨S_, .f32⟩
  | 35 => ⟨S_, .f32⟩
  | 36 => ⟨S150000x64, .f32⟩
  | 37 => ⟨S150000x64, .i1⟩
  | 38 => ⟨S_, .f32⟩
  | 39 => ⟨S150000x64, .f32⟩
  | 40 => ⟨S150000x64, .f32⟩
  | 41 => ⟨S150000x64, .f32⟩
  | 42 => ⟨S150000x64, .f32⟩
  | 43 => ⟨S1x64x64, .f32⟩
  | 44 => ⟨S64x64, .f32⟩
  | 45 => ⟨S64x64, .f32⟩
  | 46 => ⟨S150000x64, .f32⟩
  | 47 => ⟨S1x64, .f32⟩
  | 48 => ⟨S64, .f32⟩
  | 49 => ⟨S1x64, .f32⟩
  | 50 => ⟨S150000x64, .f32⟩
  | 51 => ⟨S150000x64, .f32⟩
  | 52 => ⟨S_, .f32⟩
  | 53 => ⟨S_, .f32⟩
  | 54 => ⟨S150000x64, .f32⟩
  | 55 => ⟨S150000x64, .i1⟩
  | 56 => ⟨S_, .f32⟩
  | 57 => ⟨S150000x64, .f32⟩
  | 58 => ⟨S150000x64, .f32⟩
  | 59 => ⟨S150000x64, .f32⟩
  | 60 => ⟨S150000x64, .f32⟩
  | 61 => ⟨S150000x64, .f32⟩
  | 62 => ⟨S_, .f32⟩
  | 63 => ⟨S150000, .f32⟩
  | 64 => ⟨S150000x1, .f32⟩
  | 65 => ⟨S150000x1, .f32⟩
  | 66 => ⟨S_, .f32⟩
  | 67 => ⟨S150000x1, .f32⟩
  | 68 => ⟨S150000x1, .f32⟩
  | 69 => ⟨S150000x64, .f32⟩
  | 70 => ⟨S150000x64, .f32⟩
  | 71 => ⟨S2400000x1, .f32⟩
  | 72 => ⟨S_, .i32⟩
  | 73 => ⟨S2400000, .i32⟩
  | 74 => ⟨S2400000, .i1⟩
  | 75 => ⟨S_, .i32⟩
  | 76 => ⟨S2400000, .i32⟩
  | 77 => ⟨S2400000, .i32⟩
  | 78 => ⟨S2400000, .i32⟩
  | 79 => ⟨S2400000x1, .i32⟩
  | 80 => ⟨S2400000x64, .f32⟩
  | 81 => ⟨S2400000x64, .f32⟩
  | 82 => ⟨S2400000x64, .f32⟩
  | 83 => ⟨S_, .f32⟩
  | 84 => ⟨S150000x64, .f32⟩
  | 85 => ⟨S2400000x1, .i32⟩
  | 86 => ⟨S150000x64, .f32⟩
  | 87 => ⟨S150000x64, .f32⟩
  | 88 => ⟨S1x64x64, .f32⟩
  | 89 => ⟨S64x64, .f32⟩
  | 90 => ⟨S64x64, .f32⟩
  | 91 => ⟨S150000x64, .f32⟩
  | 92 => ⟨S1x64, .f32⟩
  | 93 => ⟨S64, .f32⟩
  | 94 => ⟨S1x64, .f32⟩
  | 95 => ⟨S150000x64, .f32⟩
  | 96 => ⟨S150000x64, .f32⟩
  | 97 => ⟨S_, .f32⟩
  | 98 => ⟨S_, .f32⟩
  | 99 => ⟨S150000x64, .f32⟩
  | 100 => ⟨S150000x64, .i1⟩
  | 101 => ⟨S_, .f32⟩
  | 102 => ⟨S150000x64, .f32⟩
  | 103 => ⟨S150000x64, .f32⟩
  | 104 => ⟨S150000x64, .f32⟩
  | 105 => ⟨S150000x64, .f32⟩
  | 106 => ⟨S1x64x64, .f32⟩
  | 107 => ⟨S64x64, .f32⟩
  | 108 => ⟨S64x64, .f32⟩
  | 109 => ⟨S150000x64, .f32⟩
  | 110 => ⟨S1x64, .f32⟩
  | 111 => ⟨S64, .f32⟩
  | 112 => ⟨S1x64, .f32⟩
  | 113 => ⟨S150000x64, .f32⟩
  | 114 => ⟨S150000x64, .f32⟩
  | 115 => ⟨S_, .f32⟩
  | 116 => ⟨S_, .f32⟩
  | 117 => ⟨S150000x64, .f32⟩
  | 118 => ⟨S150000x64, .i1⟩
  | 119 => ⟨S_, .f32⟩
  | 120 => ⟨S150000x64, .f32⟩
  | 121 => ⟨S150000x64, .f32⟩
  | 122 => ⟨S150000x64, .f32⟩
  | 123 => ⟨S150000x64, .f32⟩
  | 124 => ⟨S150000x64, .f32⟩
  | 125 => ⟨S_, .f32⟩
  | 126 => ⟨S150000, .f32⟩
  | 127 => ⟨S150000x1, .f32⟩
  | _ => ⟨S2400000, .i32⟩

abbrev hbmTy0_1 (i : Nat) : BufTy := match i % 128 with
  | 0 => ⟨S150000x1, .f32⟩
  | 1 => ⟨S_, .f32⟩
  | 2 => ⟨S150000x1, .f32⟩
  | 3 => ⟨S150000x1, .f32⟩
  | 4 => ⟨S150000x64, .f32⟩
  | 5 => ⟨S150000x64, .f32⟩
  | 6 => ⟨S2400000x1, .f32⟩
  | 7 => ⟨S_, .i32⟩
  | 8 => ⟨S2400000, .i32⟩
  | 9 => ⟨S2400000, .i1⟩
  | 10 => ⟨S_, .i32⟩
  | 11 => ⟨S2400000, .i32⟩
  | 12 => ⟨S2400000, .i32⟩
  | 13 => ⟨S2400000, .i32⟩
  | 14 => ⟨S2400000x1, .i32⟩
  | 15 => ⟨S2400000x64, .f32⟩
  | 16 => ⟨S2400000x64, .f32⟩
  | 17 => ⟨S2400000x64, .f32⟩
  | 18 => ⟨S_, .f32⟩
  | 19 => ⟨S150000x64, .f32⟩
  | 20 => ⟨S2400000x1, .i32⟩
  | 21 => ⟨S150000x64, .f32⟩
  | 22 => ⟨S150000x64, .f32⟩
  | 23 => ⟨S1x64x64, .f32⟩
  | 24 => ⟨S64x64, .f32⟩
  | 25 => ⟨S64x64, .f32⟩
  | 26 => ⟨S150000x64, .f32⟩
  | 27 => ⟨S1x64, .f32⟩
  | 28 => ⟨S64, .f32⟩
  | 29 => ⟨S1x64, .f32⟩
  | 30 => ⟨S150000x64, .f32⟩
  | 31 => ⟨S150000x64, .f32⟩
  | 32 => ⟨S_, .f32⟩
  | 33 => ⟨S_, .f32⟩
  | 34 => ⟨S150000x64, .f32⟩
  | 35 => ⟨S150000x64, .i1⟩
  | 36 => ⟨S_, .f32⟩
  | 37 => ⟨S150000x64, .f32⟩
  | 38 => ⟨S150000x64, .f32⟩
  | 39 => ⟨S150000x64, .f32⟩
  | 40 => ⟨S150000x64, .f32⟩
  | 41 => ⟨S1x64x64, .f32⟩
  | 42 => ⟨S64x64, .f32⟩
  | 43 => ⟨S64x64, .f32⟩
  | 44 => ⟨S150000x64, .f32⟩
  | 45 => ⟨S1x64, .f32⟩
  | 46 => ⟨S64, .f32⟩
  | 47 => ⟨S1x64, .f32⟩
  | 48 => ⟨S150000x64, .f32⟩
  | 49 => ⟨S150000x64, .f32⟩
  | 50 => ⟨S_, .f32⟩
  | 51 => ⟨S_, .f32⟩
  | 52 => ⟨S150000x64, .f32⟩
  | 53 => ⟨S150000x64, .i1⟩
  | 54 => ⟨S_, .f32⟩
  | 55 => ⟨S150000x64, .f32⟩
  | 56 => ⟨S150000x64, .f32⟩
  | 57 => ⟨S150000x64, .f32⟩
  | 58 => ⟨S150000x64, .f32⟩
  | 59 => ⟨S150000x64, .f32⟩
  | 60 => ⟨S_, .f32⟩
  | 61 => ⟨S150000, .f32⟩
  | 62 => ⟨S150000x1, .f32⟩
  | 63 => ⟨S150000x1, .f32⟩
  | 64 => ⟨S_, .f32⟩
  | 65 => ⟨S150000x1, .f32⟩
  | 66 => ⟨S150000x1, .f32⟩
  | 67 => ⟨S150000x64, .f32⟩
  | 68 => ⟨S150000x64, .f32⟩
  | 69 => ⟨S150000x256, .f32⟩
  | 70 => ⟨S50000x256, .f32⟩
  | 71 => ⟨S100000x256, .f32⟩
  | _ => ⟨S2400000, .i32⟩

abbrev hbmTy (i : Nat) : BufTy := match i / 128 with
  | 0 => hbmTy0_0 i
  | 1 => hbmTy0_1 i
  | _ => ⟨S2400000, .i32⟩

abbrev bufTy : (tb : Table) → Fin (tcTables nBuf tb) → BufTy
  | .hbm, ⟨i, _⟩ => hbmTy i
  | _, _ => ⟨S2400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_2 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v34 : Ref sig .tc := ⟨.hbm, 59, rfl⟩
abbrev main_v35 : Ref sig .tc := ⟨.hbm, 60, rfl⟩
abbrev main_call2_v0 : Ref sig .tc := ⟨.hbm, 61, rfl⟩
abbrev main_call2_cst : Ref sig .tc := ⟨.hbm, 62, rfl⟩
abbrev main_call2_v1 : Ref sig .tc := ⟨.hbm, 63, rfl⟩
abbrev main_call2_v2 : Ref sig .tc := ⟨.hbm, 64, rfl⟩
abbrev main_v36 : Ref sig .tc := ⟨.hbm, 65, rfl⟩
abbrev main_cst_3 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_4 : Ref sig .tc := ⟨.hbm, 72, rfl⟩
abbrev main_v42 : Ref sig .tc := ⟨.hbm, 73, rfl⟩
abbrev main_v43 : Ref sig .tc := ⟨.hbm, 74, rfl⟩
abbrev main_c_5 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_6 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_7 : Ref sig .tc := ⟨.hbm, 97, rfl⟩
abbrev main_call3_cst : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_8 : Ref sig .tc := ⟨.hbm, 115, rfl⟩
abbrev main_call4_cst : Ref sig .tc := ⟨.hbm, 116, rfl⟩
abbrev main_call4_v0 : Ref sig .tc := ⟨.hbm, 117, rfl⟩
abbrev main_call4_v1 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_v75 : Ref sig .tc := ⟨.hbm, 122, rfl⟩
abbrev main_v76 : Ref sig .tc := ⟨.hbm, 123, rfl⟩
abbrev main_call5_v0 : Ref sig .tc := ⟨.hbm, 124, rfl⟩
abbrev main_call5_cst : Ref sig .tc := ⟨.hbm, 125, rfl⟩
abbrev main_call5_v1 : Ref sig .tc := ⟨.hbm, 126, rfl⟩
abbrev main_call5_v2 : Ref sig .tc := ⟨.hbm, 127, rfl⟩
abbrev main_v77 : Ref sig .tc := ⟨.hbm, 128, rfl⟩
abbrev main_cst_9 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_c_10 : Ref sig .tc := ⟨.hbm, 135, rfl⟩
abbrev main_v83 : Ref sig .tc := ⟨.hbm, 136, rfl⟩
abbrev main_v84 : Ref sig .tc := ⟨.hbm, 137, rfl⟩
abbrev main_c_11 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_cst_12 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_cst_13 : Ref sig .tc := ⟨.hbm, 160, rfl⟩
abbrev main_call6_cst : Ref sig .tc := ⟨.hbm, 161, rfl⟩
abbrev main_call6_v0 : Ref sig .tc := ⟨.hbm, 162, rfl⟩
abbrev main_call6_v1 : Ref sig .tc := ⟨.hbm, 163, rfl⟩
abbrev main_call6_v2 : Ref sig .tc := ⟨.hbm, 164, rfl⟩
abbrev main_call6_v3 : Ref sig .tc := ⟨.hbm, 165, rfl⟩
abbrev main_call6_v4 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_cst_14 : Ref sig .tc := ⟨.hbm, 178, rfl⟩
abbrev main_call7_cst : Ref sig .tc := ⟨.hbm, 179, rfl⟩
abbrev main_call7_v0 : Ref sig .tc := ⟨.hbm, 180, rfl⟩
abbrev main_call7_v1 : Ref sig .tc := ⟨.hbm, 181, rfl⟩
abbrev main_call7_v2 : Ref sig .tc := ⟨.hbm, 182, rfl⟩
abbrev main_call7_v3 : Ref sig .tc := ⟨.hbm, 183, rfl⟩
abbrev main_call7_v4 : Ref sig .tc := ⟨.hbm, 184, rfl⟩
abbrev main_v116 : Ref sig .tc := ⟨.hbm, 185, rfl⟩
abbrev main_v117 : Ref sig .tc := ⟨.hbm, 186, rfl⟩
abbrev main_call8_v0 : Ref sig .tc := ⟨.hbm, 187, rfl⟩
abbrev main_call8_cst : Ref sig .tc := ⟨.hbm, 188, rfl⟩
abbrev main_call8_v1 : Ref sig .tc := ⟨.hbm, 189, rfl⟩
abbrev main_call8_v2 : Ref sig .tc := ⟨.hbm, 190, rfl⟩
abbrev main_v118 : Ref sig .tc := ⟨.hbm, 191, rfl⟩
abbrev main_cst_15 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩

abbrev nD : Nat := 1
abbrev τ : Topo := Topo.v7x

variable {F : FTy → Type} [FloatOps F]

class Facts₀ : Prop where
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S150000x64_S150000x64_S150000x64_S150000x64_S150000x256_d1 : Shape.Concatenates [S150000x64, S150000x64, S150000x64, S150000x64] S150000x256 1
  slices_S150000x256_S50000x256_0_0 : S150000x256.Slices ![0, 0] S50000x256
  slices_S150000x256_S100000x256_50000_0 : S150000x256.Slices ![50000, 0] S100000x256
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S150000x64_S64x64_S150000x64_1_0_0_1_n_n_wf : DotDims.WF S150000x64 S64x64 S150000x64 [1] [0] [0] [1] [] []

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf

class Facts : Prop extends Facts₀ where

variable [Facts]
-- ==== Proof.WordRegion0.lean ====
/-
  The first layer's aggregation region of the program, at any float instance, stated at a PARAMETER `V`: the contents
  of the core's buffers when the region is entered. A grid point `t` handles rows 3000·t … 3000·t + 2999. Its body reads
  six blocks — the embedding rows and the neighbourhood-sum rows of the point (3000 × 64 each), the two transposed
  weight matrices (64 × 64) and the two bias rows (1 × 64), the last four the same at every point — and writes two
  3000 × 64 blocks: the new embedding rows  leaky((x + s)·W₁ᵀ + b₁) + leaky((x ⊙ s)·W₂ᵀ + b₂)  and those rows divided by
  max(‖row‖₂, ε). Both outputs are stored whole, so after the body each output buffer is exactly the stored value
  (`ego0`, `nrm0`), a pure function of the six input blocks; nothing is carried from one point to the next.
  From this: the body's triple, the region's proof data and its body obligation at every point.
-/
import proofs.«180967_j19731079758337_1_alg».proof.Proof.Gen.Kernel.Launch
import proofs.«180967_j19731079758337_1_alg».proof.Proof.Gen.Kernel.Skeleton
import proofs.«180967_j19731079758337_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block of the entry array at every grid point, whether that point
    fetches it or not (an unfetched point has the same block index as the one before it). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block of the entry array at every grid point, whether that point
    fetches it or not (an unfetched point has the same block index as the one before it). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block of the entry array at every grid point, whether that point
    fetches it or not (an unfetched point has the same block index as the one before it). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block of the entry array at every grid point, whether that point
    fetches it or not (an unfetched point has the same block index as the one before it). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block of the entry array at every grid point, whether that point
    fetches it or not (an unfetched point has the same block index as the one before it). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block of the entry array at every grid point, whether that point
    fetches it or not (an unfetched point has the same block index as the one before it). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

/-- The whole 3000 × 64 block, the whole 64 × 64 matrix, the whole 1 × 64 row: every access of the body is one of these. -/
abbrev rows0 : Rect S3000x64 := Rect.unit (s := S3000x64) ![0, 0] S3000x64.size inb_S3000x64_S3000x64_0_0
abbrev mat0 : Rect S64x64 := Rect.unit (s := S64x64) ![0, 0] S64x64.size inb_S64x64_S64x64_0_0
abbrev bias0 : Rect S1x64 := Rect.unit (s := S1x64) ![0, 0] S1x64.size inb_S1x64_S1x64_0_0

/-- The new embedding rows of a point, from its six input blocks (embedding, side, W₁ᵀ, b₁, W₂ᵀ, b₂ in window order). -/
def ego0 (x0 : Vec F S3000x64 .f32) (x1 : Vec F S3000x64 .f32) (x2 : Vec F S64x64 .f32) (x3 : Vec F S1x64 .f32) (x4 : Vec F S64x64 .f32) (x5 : Vec F S1x64 .f32) : FVec F S3000x64 .f32 :=
  k0_pay2 (View.ld x0 rows0) (View.ld x1 rows0) (View.ld x2 mat0) (View.ld x4 mat0) (View.ld x3 bias0) (View.ld x5 bias0)

/-- Those rows, each divided by the larger of its Euclidean norm and ε. -/
def nrm0 (x0 : Vec F S3000x64 .f32) (x1 : Vec F S3000x64 .f32) (x2 : Vec F S64x64 .f32) (x3 : Vec F S1x64 .f32) (x4 : Vec F S64x64 .f32) (x5 : Vec F S1x64 .f32) : FVec F S3000x64 .f32 :=
  k0_pay1 (ego0 x0 x1 x2 x3 x4 x5)
    (k0_pay3 (View.ld x0 rows0) (View.ld x1 rows0) (View.ld x2 mat0) (View.ld x4 mat0) (View.ld x3 bias0) (View.ld x5 bias0)) (k0_pay4 (F := F))

/-- The first output's buffer after the body: its one store, of the new embedding rows, over the whole block. -/
def out0_6 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rows0, ego0 x0 x1 x2 x3 x4 x5⟩]

/-- The second output's buffer after the body: its one store, of the normalized rows, over the whole block. -/
def out0_7 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rows0, nrm0 x0 x1 x2 x3 x4 x5⟩]

/-- One store over the whole block covers the block. -/
theorem cover0 (p0 : Vec F S3000x64 .f32) (y : S3000x64.Idx) :
    ∃ pc ∈ ([⟨rows0, p0⟩] : List (View.Piece (Elt F) S3000x64 .f32)), y ∈ pc.1.set :=
  View.cover_of_tiled [⟨rows0, p0⟩] S3000x64.size (by rfl) y

/-! ## The body's triple -/

set_option maxHeartbeats 4000000 in
/-- The body on whole staging buffers — the six inputs' at known contents, the two outputs' at anything — runs to its end
    leaving the inputs as they were and the outputs at `out0_6`, `out0_7` of the inputs. -/
theorem sound_kernel0 (c : Dev nD) (E : Set ℕ) (i : grid0.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole) (arg8 : Memref sig .tc .vmem S3000x64 .f32) (harg8 : arg8.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__agg_kernel i arg1 harg1 arg2 harg2 arg3 harg3 arg4 harg4 arg5 harg5 arg6 harg6 arg7 harg7 arg8 harg8) K := by
  simp only [cc0__agg_kernel_eq_skeleton]; unfold cc0__agg_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover0 _)
  iexists _; isplitr
  swap; · iexact H7
  ipureintro
  try dsimp only
  exact View.read_writes_eq_canon _ _ _ (cover0 _)

/-! ## The region's proof data -/

/-- The region's proof data on core `c`: the arrays as the region finds them; after the body at point `t` each input's
    buffer still at its block, each output's at the stored value of the point's input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The region's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Agg

end
-- ==== Proof.WordRegion1.lean ====
/-
  The second layer's aggregation region of the program, at any float instance, stated at a PARAMETER `V`: the contents
  of the core's buffers when the region is entered. A grid point `t` handles rows 3000·t … 3000·t + 2999. Its body reads
  six blocks — the embedding rows and the neighbourhood-sum rows of the point (3000 × 64 each), the two transposed
  weight matrices (64 × 64) and the two bias rows (1 × 64), the last four the same at every point — and writes two
  3000 × 64 blocks: the new embedding rows  leaky((x + s)·W₁ᵀ + b₁) + leaky((x ⊙ s)·W₂ᵀ + b₂)  and those rows divided by
  max(‖row‖₂, ε). Both outputs are stored whole, so after the body each output buffer is exactly the stored value
  (`ego1`, `nrm1`), a pure function of the six input blocks; nothing is carried from one point to the next.
  From this: the body's triple, the region's proof data and its body obligation at every point.
-/
import proofs.«180967_j19731079758337_1_alg».proof.Proof.Gen.Kernel.Launch
import proofs.«180967_j19731079758337_1_alg».proof.Proof.Gen.Kernel.Skeleton
import proofs.«180967_j19731079758337_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block of the entry array at every grid point, whether that point
    fetches it or not (an unfetched point has the same block index as the one before it). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block of the entry array at every grid point, whether that point
    fetches it or not (an unfetched point has the same block index as the one before it). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block of the entry array at every grid point, whether that point
    fetches it or not (an unfetched point has the same block index as the one before it). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block of the entry array at every grid point, whether that point
    fetches it or not (an unfetched point has the same block index as the one before it). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block of the entry array at every grid point, whether that point
    fetches it or not (an unfetched point has the same block index as the one before it). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block of the entry array at every grid point, whether that point
    fetches it or not (an unfetched point has the same block index as the one before it). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the body stores -/

/-- The whole 3000 × 64 block, the whole 64 × 64 matrix, the whole 1 × 64 row: every access of the body is one of these. -/
abbrev rows1 : Rect S3000x64 := Rect.unit (s := S3000x64) ![0, 0] S3000x64.size inb_S3000x64_S3000x64_0_0
abbrev mat1 : Rect S64x64 := Rect.unit (s := S64x64) ![0, 0] S64x64.size inb_S64x64_S64x64_0_0
abbrev bias1 : Rect S1x64 := Rect.unit (s := S1x64) ![0, 0] S1x64.size inb_S1x64_S1x64_0_0

/-- The new embedding rows of a point, from its six input blocks (embedding, side, W₁ᵀ, b₁, W₂ᵀ, b₂ in window order). -/
def ego1 (x0 : Vec F S3000x64 .f32) (x1 : Vec F S3000x64 .f32) (x2 : Vec F S64x64 .f32) (x3 : Vec F S1x64 .f32) (x4 : Vec F S64x64 .f32) (x5 : Vec F S1x64 .f32) : FVec F S3000x64 .f32 :=
  k1_pay2 (View.ld x0 rows1) (View.ld x1 rows1) (View.ld x2 mat1) (View.ld x4 mat1) (View.ld x3 bias1) (View.ld x5 bias1)

/-- Those rows, each divided by the larger of its Euclidean norm and ε. -/
def nrm1 (x0 : Vec F S3000x64 .f32) (x1 : Vec F S3000x64 .f32) (x2 : Vec F S64x64 .f32) (x3 : Vec F S1x64 .f32) (x4 : Vec F S64x64 .f32) (x5 : Vec F S1x64 .f32) : FVec F S3000x64 .f32 :=
  k1_pay1 (ego1 x0 x1 x2 x3 x4 x5)
    (k1_pay3 (View.ld x0 rows1) (View.ld x1 rows1) (View.ld x2 mat1) (View.ld x4 mat1) (View.ld x3 bias1) (View.ld x5 bias1)) (Scalar.ofBits .f32 0x2B8CBCCC#32 : F .f32)

/-- The first output's buffer after the body: its one store, of the new embedding rows, over the whole block. -/
def out1_6 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rows1, ego1 x0 x1 x2 x3 x4 x5⟩]

/-- The second output's buffer after the body: its one store, of the normalized rows, over the whole block. -/
def out1_7 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rows1, nrm1 x0 x1 x2 x3 x4 x5⟩]

/-- One store over the whole block covers the block. -/
theorem cover1 (p0 : Vec F S3000x64 .f32) (y : S3000x64.Idx) :
    ∃ pc ∈ ([⟨rows1, p0⟩] : List (View.Piece (Elt F) S3000x64 .f32)), y ∈ pc.1.set :=
  View.cover_of_tiled [⟨rows1, p0⟩] S3000x64.size (by rfl) y

/-! ## The body's triple -/

set_option maxHeartbeats 4000000 in
/-- The body on whole staging buffers — the six inputs' at known contents, the two outputs' at anything — runs to its end
    leaving the inputs as they were and the outputs at `out1_6`, `out1_7` of the inputs. -/
theorem sound_kernel1 (c : Dev nD) (E : Set ℕ) (i : grid1.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole) (arg8 : Memref sig .tc .vmem S3000x64 .f32) (harg8 : arg8.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__agg_kernel i arg1 harg1 arg2 harg2 arg3 harg3 arg4 harg4 arg5 harg5 arg6 harg6 arg7 harg7 arg8 harg8) K := by
  simp only [cc1__agg_kernel_eq_skeleton]; unfold cc1__agg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover1 _)
  iexists _; isplitr
  swap; · iexact H7
  ipureintro
  try dsimp only
  exact View.read_writes_eq_canon _ _ _ (cover1 _)

/-! ## The region's proof data -/

/-- The region's proof data on core `c`: the arrays as the region finds them; after the body at point `t` each input's
    buffer still at its block, each output's at the stored value of the point's input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Agg

end
-- ==== Proof.WordRegion2.lean ====
/-
  The third layer's aggregation region of the program, at any float instance, stated at a PARAMETER `V`: the contents
  of the core's buffers when the region is entered. A grid point `t` handles rows 3000·t … 3000·t + 2999. Its body reads
  six blocks — the embedding rows and the neighbourhood-sum rows of the point (3000 × 64 each), the two transposed
  weight matrices (64 × 64) and the two bias rows (1 × 64), the last four the same at every point — and writes two
  3000 × 64 blocks: the new embedding rows  leaky((x + s)·W₁ᵀ + b₁) + leaky((x ⊙ s)·W₂ᵀ + b₂)  and those rows divided by
  max(‖row‖₂, ε). Both outputs are stored whole, so after the body each output buffer is exactly the stored value
  (`ego2`, `nrm2`), a pure function of the six input blocks; nothing is carried from one point to the next.
  From this: the body's triple, the region's proof data and its body obligation at every point.
-/
import proofs.«180967_j19731079758337_1_alg».proof.Proof.Gen.Kernel.Launch
import proofs.«180967_j19731079758337_1_alg».proof.Proof.Gen.Kernel.Skeleton
import proofs.«180967_j19731079758337_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block of the entry array at every grid point, whether that point
    fetches it or not (an unfetched point has the same block index as the one before it). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block of the entry array at every grid point, whether that point
    fetches it or not (an unfetched point has the same block index as the one before it). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block of the entry array at every grid point, whether that point
    fetches it or not (an unfetched point has the same block index as the one before it). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block of the entry array at every grid point, whether that point
    fetches it or not (an unfetched point has the same block index as the one before it). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block of the entry array at every grid point, whether that point
    fetches it or not (an unfetched point has the same block index as the one before it). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block of the entry array at every grid point, whether that point
    fetches it or not (an unfetched point has the same block index as the one before it). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What the body stores -/

/-- The whole 3000 × 64 block, the whole 64 × 64 matrix, the whole 1 × 64 row: every access of the body is one of these. -/
abbrev rows2 : Rect S3000x64 := Rect.unit (s := S3000x64) ![0, 0] S3000x64.size inb_S3000x64_S3000x64_0_0
abbrev mat2 : Rect S64x64 := Rect.unit (s := S64x64) ![0, 0] S64x64.size inb_S64x64_S64x64_0_0
abbrev bias2 : Rect S1x64 := Rect.unit (s := S1x64) ![0, 0] S1x64.size inb_S1x64_S1x64_0_0

/-- The new embedding rows of a point, from its six input blocks (embedding, side, W₁ᵀ, b₁, W₂ᵀ, b₂ in window order). -/
def ego2 (x0 : Vec F S3000x64 .f32) (x1 : Vec F S3000x64 .f32) (x2 : Vec F S64x64 .f32) (x3 : Vec F S1x64 .f32) (x4 : Vec F S64x64 .f32) (x5 : Vec F S1x64 .f32) : FVec F S3000x64 .f32 :=
  k2_pay2 (View.ld x0 rows2) (View.ld x1 rows2) (View.ld x2 mat2) (View.ld x4 mat2) (View.ld x3 bias2) (View.ld x5 bias2)

/-- Those rows, each divided by the larger of its Euclidean norm and ε. -/
def nrm2 (x0 : Vec F S3000x64 .f32) (x1 : Vec F S3000x64 .f32) (x2 : Vec F S64x64 .f32) (x3 : Vec F S1x64 .f32) (x4 : Vec F S64x64 .f32) (x5 : Vec F S1x64 .f32) : FVec F S3000x64 .f32 :=
  k2_pay1 (ego2 x0 x1 x2 x3 x4 x5)
    (k2_pay3 (View.ld x0 rows2) (View.ld x1 rows2) (View.ld x2 mat2) (View.ld x4 mat2) (View.ld x3 bias2) (View.ld x5 bias2)) (Scalar.ofBits .f32 0x2B8CBCCC#32 : F .f32)

/-- The first output's buffer after the body: its one store, of the new embedding rows, over the whole block. -/
def out2_6 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rows2, ego2 x0 x1 x2 x3 x4 x5⟩]

/-- The second output's buffer after the body: its one store, of the normalized rows, over the whole block. -/
def out2_7 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rows2, nrm2 x0 x1 x2 x3 x4 x5⟩]

/-- One store over the whole block covers the block. -/
theorem cover2 (p0 : Vec F S3000x64 .f32) (y : S3000x64.Idx) :
    ∃ pc ∈ ([⟨rows2, p0⟩] : List (View.Piece (Elt F) S3000x64 .f32)), y ∈ pc.1.set :=
  View.cover_of_tiled [⟨rows2, p0⟩] S3000x64.size (by rfl) y

/-! ## The body's triple -/

set_option maxHeartbeats 4000000 in
/-- The body on whole staging buffers — the six inputs' at known contents, the two outputs' at anything — runs to its end
    leaving the inputs as they were and the outputs at `out2_6`, `out2_7` of the inputs. -/
theorem sound_kernel2 (c : Dev nD) (E : Set ℕ) (i : grid2.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole) (arg8 : Memref sig .tc .vmem S3000x64 .f32) (harg8 : arg8.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__agg_kernel i arg1 harg1 arg2 harg2 arg3 harg3 arg4 harg4 arg5 harg5 arg6 harg6 arg7 harg7 arg8 harg8) K := by
  simp only [cc2__agg_kernel_eq_skeleton]; unfold cc2__agg_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover2 _)
  iexists _; isplitr
  swap; · iexact H7
  ipureintro
  try dsimp only
  exact View.read_writes_eq_canon _ _ _ (cover2 _)

/-! ## The region's proof data -/

/-- The region's proof data on core `c`: the arrays as the region finds them; after the body at point `t` each input's
    buffer still at its block, each output's at the stored value of the point's input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The region's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Agg

end
-- ==== Proof.WordRun.lean ====
/-
  The whole program as a run, at any float instance: @main is four stretches of host operations with the three
  aggregation regions between them. The contents of a core's buffers at each of the eight boundaries are a fold from the
  launch memory: a host stretch applies its operations; a region leaves its input arrays as entered and each output
  array with every grid point's block written back. Every weakly fair execution terminates without a fault in a memory
  that holds, buffer by buffer, the last boundary's contents: the eight arguments as launched (no stretch writes one, no
  region's output is one) and the two results as the last stretch leaves them.
-/
import proofs.«180967_j19731079758337_1_alg».proof.Proof.WordRegion0
import proofs.«180967_j19731079758337_1_alg».proof.Proof.WordRegion1
import proofs.«180967_j19731079758337_1_alg».proof.Proof.WordRegion2
import proofs.«180967_j19731079758337_1_alg».proof.Proof.Gen.Kernel.Regions

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch `hostOps0` (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its eight arrays at what the pipeline leaves — an input as entered, an output with every point's
    block written back — and every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1` (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its eight arrays at what the pipeline leaves — an input as entered, an output with every point's
    block written back — and every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2` (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its eight arrays at what the pipeline leaves — an input as entered, an output with every point's
    block written back — and every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the core's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3` (the program's end). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-! ## The arguments end as launched -/

/-- `main_arg0` reaches the end as launched: no host stretch writes it and no region's output is it. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (r := main_arg0) (by decide)
    _ = W5 m ρ c (Proc.devRef .tc main_arg0) := W6_of_ne m ρ c main_arg0 (by decide)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl
/-- `main_arg1` reaches the end as launched: no host stretch writes it and no region's output is it. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (r := main_arg1) (by decide)
    _ = W5 m ρ c (Proc.devRef .tc main_arg1) := W6_of_ne m ρ c main_arg1 (by decide)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
/-- `main_arg2` reaches the end as launched: no host stretch writes it and no region's output is it. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (r := main_arg2) (by decide)
    _ = W5 m ρ c (Proc.devRef .tc main_arg2) := W6_of_ne m ρ c main_arg2 (by decide)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
/-- `main_arg3` reaches the end as launched: no host stretch writes it and no region's output is it (the first region reads it through an input window, which leaves it as entered). -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (r := main_arg3) (by decide)
    _ = W5 m ρ c (Proc.devRef .tc main_arg3) := W6_of_ne m ρ c main_arg3 (by decide)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := (W2_arr m ρ c 0).trans (((dat0 (V1 m ρ) c).arrAt_in 0 rfl _).trans (A_eq0 (V1 m ρ) c 0))
    _ = W0 m ρ c (Proc.devRef .tc main_arg3) := StableHlo.after_of_writes_sub hostOps0 _ hostOps0_writes (r := main_arg3) (by decide)
    _ = m ((c : Thread nD τ).loc main_arg3) := rfl
/-- `main_arg4` reaches the end as launched: no host stretch writes it and no region's output is it. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (r := main_arg4) (by decide)
    _ = W5 m ρ c (Proc.devRef .tc main_arg4) := W6_of_ne m ρ c main_arg4 (by decide)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
/-- `main_arg5` reaches the end as launched: no host stretch writes it and no region's output is it. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (r := main_arg5) (by decide)
    _ = W5 m ρ c (Proc.devRef .tc main_arg5) := W6_of_ne m ρ c main_arg5 (by decide)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl
/-- `main_arg6` reaches the end as launched: no host stretch writes it and no region's output is it. -/
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (r := main_arg6) (by decide)
    _ = W5 m ρ c (Proc.devRef .tc main_arg6) := W6_of_ne m ρ c main_arg6 (by decide)
    _ = W4 m ρ c (Proc.devRef .tc main_arg6) := StableHlo.after_of_writes_sub hostOps2 _ hostOps2_writes (r := main_arg6) (by decide)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl
/-- `main_arg7` reaches the end as launched: no host stretch writes it and no region's output is it. -/
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (r := main_arg7) (by decide)
    _ = W5 m ρ c (Proc.devRef .tc main_arg7) := W6_of_ne m ρ c main_arg7 (by decide)
    _ = W4 m ρ c (Proc.devRef .tc main_arg7) := StableHlo.after_of_writes_sub hostOps2 _ hostOps2_writes (r := main_arg7) (by decide)
    _ = W3 m ρ c (Proc.devRef .tc main_arg7) := W4_of_ne m ρ c main_arg7 (by decide)
    _ = W2 m ρ c (Proc.devRef .tc main_arg7) := StableHlo.after_of_writes_sub hostOps1 _ hostOps1_writes (r := main_arg7) (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- REGION 0 over the thread state: entered with every unscoped buffer at `W1`, left with them at `W2`. Its arrays are
    split out of the unscoped buffers at entry and put back, at the exit contents, at the end; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered with every unscoped buffer at `W3`, left with them at `W4`. Its arrays are
    split out of the unscoped buffers at entry and put back, at the exit contents, at the end; the generator register
    goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered with every unscoped buffer at `W5`, left with them at `W6`. Its arrays are
    split out of the unscoped buffers at entry and put back, at the exit contents, at the end; the generator register
    goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and the
    final memory holds the two results at the last boundary's contents and the eight arguments as launched. -/
theorem run : θ_run defs (onTc (τ := τ) (main (F := F))) ⟨m, fun _ => 0, ρ⟩ (fun r => ∀ c : Dev nD,
      r.2.mem ((c.tc : Thread nD τ).loc main_v79) = W7 m ρ c (Proc.devRef .tc main_v79)
      ∧ r.2.mem ((c.tc : Thread nD τ).loc main_v80) = W7 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v79 (by decide)), h c _ (mem_uc main_v80 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.Kernel.Agg

end
-- ==== Proof.AggRegion0.lean ====
/-
  The first layer's aggregation region of the program, at any float instance, stated at a PARAMETER `V`: the contents
  of the core's buffers when the region is entered. A grid point `t` handles rows 3000·t … 3000·t + 2999. Its body reads
  six blocks — the embedding rows and the neighbourhood-sum rows of the point (3000 × 64 each), the two transposed
  weight matrices (64 × 64) and the two bias rows (1 × 64), the last four the same at every point — and writes two
  3000 × 64 blocks: the new embedding rows  leaky((x + s)·W₁ᵀ + b₁) + leaky((x ⊙ s)·W₂ᵀ + b₂)  and those rows divided by
  max(‖row‖₂, ε). Both outputs are stored whole, so after the body each output buffer is exactly the stored value
  (`ego0`, `nrm0`), a pure function of the six input blocks; nothing is carried from one point to the next.
  From this: the body's triple, the region's proof data and its body obligation at every point.
-/
import proofs.«180967_j19731079758337_1_alg».proof.Proof.Gen.KernelIdeal.Launch
import proofs.«180967_j19731079758337_1_alg».proof.Proof.Gen.KernelIdeal.Skeleton
import proofs.«180967_j19731079758337_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block of the entry array at every grid point, whether that point
    fetches it or not (an unfetched point has the same block index as the one before it). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block of the entry array at every grid point, whether that point
    fetches it or not (an unfetched point has the same block index as the one before it). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block of the entry array at every grid point, whether that point
    fetches it or not (an unfetched point has the same block index as the one before it). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block of the entry array at every grid point, whether that point
    fetches it or not (an unfetched point has the same block index as the one before it). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block of the entry array at every grid point, whether that point
    fetches it or not (an unfetched point has the same block index as the one before it). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block of the entry array at every grid point, whether that point
    fetches it or not (an unfetched point has the same block index as the one before it). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

/-- The whole 3000 × 64 block, the whole 64 × 64 matrix, the whole 1 × 64 row: every access of the body is one of these. -/
abbrev rows0 : Rect S3000x64 := Rect.unit (s := S3000x64) ![0, 0] S3000x64.size inb_S3000x64_S3000x64_0_0
abbrev mat0 : Rect S64x64 := Rect.unit (s := S64x64) ![0, 0] S64x64.size inb_S64x64_S64x64_0_0
abbrev bias0 : Rect S1x64 := Rect.unit (s := S1x64) ![0, 0] S1x64.size inb_S1x64_S1x64_0_0

/-- The new embedding rows of a point, from its six input blocks (embedding, side, W₁ᵀ, b₁, W₂ᵀ, b₂ in window order). -/
def ego0 (x0 : Vec F S3000x64 .f32) (x1 : Vec F S3000x64 .f32) (x2 : Vec F S64x64 .f32) (x3 : Vec F S1x64 .f32) (x4 : Vec F S64x64 .f32) (x5 : Vec F S1x64 .f32) : FVec F S3000x64 .f32 :=
  k0_pay2 (View.ld x0 rows0) (View.ld x1 rows0) (View.ld x2 mat0) (View.ld x4 mat0) (View.ld x3 bias0) (View.ld x5 bias0)

/-- Those rows, each divided by the larger of its Euclidean norm and ε. -/
def nrm0 (x0 : Vec F S3000x64 .f32) (x1 : Vec F S3000x64 .f32) (x2 : Vec F S64x64 .f32) (x3 : Vec F S1x64 .f32) (x4 : Vec F S64x64 .f32) (x5 : Vec F S1x64 .f32) : FVec F S3000x64 .f32 :=
  k0_pay1 (ego0 x0 x1 x2 x3 x4 x5)
    (k0_pay3 (View.ld x0 rows0) (View.ld x1 rows0) (View.ld x2 mat0) (View.ld x4 mat0) (View.ld x3 bias0) (View.ld x5 bias0)) (k0_pay4 (F := F))

/-- The first output's buffer after the body: its one store, of the new embedding rows, over the whole block. -/
def out0_6 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rows0, ego0 x0 x1 x2 x3 x4 x5⟩]

/-- The second output's buffer after the body: its one store, of the normalized rows, over the whole block. -/
def out0_7 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rows0, nrm0 x0 x1 x2 x3 x4 x5⟩]

/-- One store over the whole block covers the block. -/
theorem cover0 (p0 : Vec F S3000x64 .f32) (y : S3000x64.Idx) :
    ∃ pc ∈ ([⟨rows0, p0⟩] : List (View.Piece (Elt F) S3000x64 .f32)), y ∈ pc.1.set :=
  View.cover_of_tiled [⟨rows0, p0⟩] S3000x64.size (by rfl) y

/-! ## The body's triple -/

set_option maxHeartbeats 4000000 in
/-- The body on whole staging buffers — the six inputs' at known contents, the two outputs' at anything — runs to its end
    leaving the inputs as they were and the outputs at `out0_6`, `out0_7` of the inputs. -/
theorem sound_kernel0 (c : Dev nD) (E : Set ℕ) (i : grid0.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole) (arg8 : Memref sig .tc .vmem S3000x64 .f32) (harg8 : arg8.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__agg_kernel i arg1 harg1 arg2 harg2 arg3 harg3 arg4 harg4 arg5 harg5 arg6 harg6 arg7 harg7 arg8 harg8) K := by
  simp only [cc0__agg_kernel_eq_skeleton]; unfold cc0__agg_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover0 _)
  iexists _; isplitr
  swap; · iexact H7
  ipureintro
  try dsimp only
  exact View.read_writes_eq_canon _ _ _ (cover0 _)

/-! ## The region's proof data -/

/-- The region's proof data on core `c`: the arrays as the region finds them; after the body at point `t` each input's
    buffer still at its block, each output's at the stored value of the point's input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The region's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Agg

end
-- ==== Proof.AggRegion1.lean ====
/-
  The second layer's aggregation region of the program, at any float instance, stated at a PARAMETER `V`: the contents
  of the core's buffers when the region is entered. A grid point `t` handles rows 3000·t … 3000·t + 2999. Its body reads
  six blocks — the embedding rows and the neighbourhood-sum rows of the point (3000 × 64 each), the two transposed
  weight matrices (64 × 64) and the two bias rows (1 × 64), the last four the same at every point — and writes two
  3000 × 64 blocks: the new embedding rows  leaky((x + s)·W₁ᵀ + b₁) + leaky((x ⊙ s)·W₂ᵀ + b₂)  and those rows divided by
  max(‖row‖₂, ε). Both outputs are stored whole, so after the body each output buffer is exactly the stored value
  (`ego1`, `nrm1`), a pure function of the six input blocks; nothing is carried from one point to the next.
  From this: the body's triple, the region's proof data and its body obligation at every point.
-/
import proofs.«180967_j19731079758337_1_alg».proof.Proof.Gen.KernelIdeal.Launch
import proofs.«180967_j19731079758337_1_alg».proof.Proof.Gen.KernelIdeal.Skeleton
import proofs.«180967_j19731079758337_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block of the entry array at every grid point, whether that point
    fetches it or not (an unfetched point has the same block index as the one before it). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block of the entry array at every grid point, whether that point
    fetches it or not (an unfetched point has the same block index as the one before it). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block of the entry array at every grid point, whether that point
    fetches it or not (an unfetched point has the same block index as the one before it). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block of the entry array at every grid point, whether that point
    fetches it or not (an unfetched point has the same block index as the one before it). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block of the entry array at every grid point, whether that point
    fetches it or not (an unfetched point has the same block index as the one before it). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block of the entry array at every grid point, whether that point
    fetches it or not (an unfetched point has the same block index as the one before it). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the body stores -/

/-- The whole 3000 × 64 block, the whole 64 × 64 matrix, the whole 1 × 64 row: every access of the body is one of these. -/
abbrev rows1 : Rect S3000x64 := Rect.unit (s := S3000x64) ![0, 0] S3000x64.size inb_S3000x64_S3000x64_0_0
abbrev mat1 : Rect S64x64 := Rect.unit (s := S64x64) ![0, 0] S64x64.size inb_S64x64_S64x64_0_0
abbrev bias1 : Rect S1x64 := Rect.unit (s := S1x64) ![0, 0] S1x64.size inb_S1x64_S1x64_0_0

/-- The new embedding rows of a point, from its six input blocks (embedding, side, W₁ᵀ, b₁, W₂ᵀ, b₂ in window order). -/
def ego1 (x0 : Vec F S3000x64 .f32) (x1 : Vec F S3000x64 .f32) (x2 : Vec F S64x64 .f32) (x3 : Vec F S1x64 .f32) (x4 : Vec F S64x64 .f32) (x5 : Vec F S1x64 .f32) : FVec F S3000x64 .f32 :=
  k1_pay2 (View.ld x0 rows1) (View.ld x1 rows1) (View.ld x2 mat1) (View.ld x4 mat1) (View.ld x3 bias1) (View.ld x5 bias1)

/-- Those rows, each divided by the larger of its Euclidean norm and ε. -/
def nrm1 (x0 : Vec F S3000x64 .f32) (x1 : Vec F S3000x64 .f32) (x2 : Vec F S64x64 .f32) (x3 : Vec F S1x64 .f32) (x4 : Vec F S64x64 .f32) (x5 : Vec F S1x64 .f32) : FVec F S3000x64 .f32 :=
  k1_pay1 (ego1 x0 x1 x2 x3 x4 x5)
    (k1_pay3 (View.ld x0 rows1) (View.ld x1 rows1) (View.ld x2 mat1) (View.ld x4 mat1) (View.ld x3 bias1) (View.ld x5 bias1)) (Scalar.ofBits .f32 0x2B8CBCCC#32 : F .f32)

/-- The first output's buffer after the body: its one store, of the new embedding rows, over the whole block. -/
def out1_6 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rows1, ego1 x0 x1 x2 x3 x4 x5⟩]

/-- The second output's buffer after the body: its one store, of the normalized rows, over the whole block. -/
def out1_7 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rows1, nrm1 x0 x1 x2 x3 x4 x5⟩]

/-- One store over the whole block covers the block. -/
theorem cover1 (p0 : Vec F S3000x64 .f32) (y : S3000x64.Idx) :
    ∃ pc ∈ ([⟨rows1, p0⟩] : List (View.Piece (Elt F) S3000x64 .f32)), y ∈ pc.1.set :=
  View.cover_of_tiled [⟨rows1, p0⟩] S3000x64.size (by rfl) y

/-! ## The body's triple -/

set_option maxHeartbeats 4000000 in
/-- The body on whole staging buffers — the six inputs' at known contents, the two outputs' at anything — runs to its end
    leaving the inputs as they were and the outputs at `out1_6`, `out1_7` of the inputs. -/
theorem sound_kernel1 (c : Dev nD) (E : Set ℕ) (i : grid1.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole) (arg8 : Memref sig .tc .vmem S3000x64 .f32) (harg8 : arg8.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__agg_kernel i arg1 harg1 arg2 harg2 arg3 harg3 arg4 harg4 arg5 harg5 arg6 harg6 arg7 harg7 arg8 harg8) K := by
  simp only [cc1__agg_kernel_eq_skeleton]; unfold cc1__agg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover1 _)
  iexists _; isplitr
  swap; · iexact H7
  ipureintro
  try dsimp only
  exact View.read_writes_eq_canon _ _ _ (cover1 _)

/-! ## The region's proof data -/

/-- The region's proof data on core `c`: the arrays as the region finds them; after the body at point `t` each input's
    buffer still at its block, each output's at the stored value of the point's input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Agg

end
-- ==== Proof.AggRegion2.lean ====
/-
  The third layer's aggregation region of the program, at any float instance, stated at a PARAMETER `V`: the contents
  of the core's buffers when the region is entered. A grid point `t` handles rows 3000·t … 3000·t + 2999. Its body reads
  six blocks — the embedding rows and the neighbourhood-sum rows of the point (3000 × 64 each), the two transposed
  weight matrices (64 × 64) and the two bias rows (1 × 64), the last four the same at every point — and writes two
  3000 × 64 blocks: the new embedding rows  leaky((x + s)·W₁ᵀ + b₁) + leaky((x ⊙ s)·W₂ᵀ + b₂)  and those rows divided by
  max(‖row‖₂, ε). Both outputs are stored whole, so after the body each output buffer is exactly the stored value
  (`ego2`, `nrm2`), a pure function of the six input blocks; nothing is carried from one point to the next.
  From this: the body's triple, the region's proof data and its body obligation at every point.
-/
import proofs.«180967_j19731079758337_1_alg».proof.Proof.Gen.KernelIdeal.Launch
import proofs.«180967_j19731079758337_1_alg».proof.Proof.Gen.KernelIdeal.Skeleton
import proofs.«180967_j19731079758337_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block of the entry array at every grid point, whether that point
    fetches it or not (an unfetched point has the same block index as the one before it). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block of the entry array at every grid point, whether that point
    fetches it or not (an unfetched point has the same block index as the one before it). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block of the entry array at every grid point, whether that point
    fetches it or not (an unfetched point has the same block index as the one before it). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block of the entry array at every grid point, whether that point
    fetches it or not (an unfetched point has the same block index as the one before it). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block of the entry array at every grid point, whether that point
    fetches it or not (an unfetched point has the same block index as the one before it). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block of the entry array at every grid point, whether that point
    fetches it or not (an unfetched point has the same block index as the one before it). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What the body stores -/

/-- The whole 3000 × 64 block, the whole 64 × 64 matrix, the whole 1 × 64 row: every access of the body is one of these. -/
abbrev rows2 : Rect S3000x64 := Rect.unit (s := S3000x64) ![0, 0] S3000x64.size inb_S3000x64_S3000x64_0_0
abbrev mat2 : Rect S64x64 := Rect.unit (s := S64x64) ![0, 0] S64x64.size inb_S64x64_S64x64_0_0
abbrev bias2 : Rect S1x64 := Rect.unit (s := S1x64) ![0, 0] S1x64.size inb_S1x64_S1x64_0_0

/-- The new embedding rows of a point, from its six input blocks (embedding, side, W₁ᵀ, b₁, W₂ᵀ, b₂ in window order). -/
def ego2 (x0 : Vec F S3000x64 .f32) (x1 : Vec F S3000x64 .f32) (x2 : Vec F S64x64 .f32) (x3 : Vec F S1x64 .f32) (x4 : Vec F S64x64 .f32) (x5 : Vec F S1x64 .f32) : FVec F S3000x64 .f32 :=
  k2_pay2 (View.ld x0 rows2) (View.ld x1 rows2) (View.ld x2 mat2) (View.ld x4 mat2) (View.ld x3 bias2) (View.ld x5 bias2)

/-- Those rows, each divided by the larger of its Euclidean norm and ε. -/
def nrm2 (x0 : Vec F S3000x64 .f32) (x1 : Vec F S3000x64 .f32) (x2 : Vec F S64x64 .f32) (x3 : Vec F S1x64 .f32) (x4 : Vec F S64x64 .f32) (x5 : Vec F S1x64 .f32) : FVec F S3000x64 .f32 :=
  k2_pay1 (ego2 x0 x1 x2 x3 x4 x5)
    (k2_pay3 (View.ld x0 rows2) (View.ld x1 rows2) (View.ld x2 mat2) (View.ld x4 mat2) (View.ld x3 bias2) (View.ld x5 bias2)) (Scalar.ofBits .f32 0x2B8CBCCC#32 : F .f32)

/-- The first output's buffer after the body: its one store, of the new embedding rows, over the whole block. -/
def out2_6 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rows2, ego2 x0 x1 x2 x3 x4 x5⟩]

/-- The second output's buffer after the body: its one store, of the normalized rows, over the whole block. -/
def out2_7 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rows2, nrm2 x0 x1 x2 x3 x4 x5⟩]

/-- One store over the whole block covers the block. -/
theorem cover2 (p0 : Vec F S3000x64 .f32) (y : S3000x64.Idx) :
    ∃ pc ∈ ([⟨rows2, p0⟩] : List (View.Piece (Elt F) S3000x64 .f32)), y ∈ pc.1.set :=
  View.cover_of_tiled [⟨rows2, p0⟩] S3000x64.size (by rfl) y

/-! ## The body's triple -/

set_option maxHeartbeats 4000000 in
/-- The body on whole staging buffers — the six inputs' at known contents, the two outputs' at anything — runs to its end
    leaving the inputs as they were and the outputs at `out2_6`, `out2_7` of the inputs. -/
theorem sound_kernel2 (c : Dev nD) (E : Set ℕ) (i : grid2.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole) (arg8 : Memref sig .tc .vmem S3000x64 .f32) (harg8 : arg8.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__agg_kernel i arg1 harg1 arg2 harg2 arg3 harg3 arg4 harg4 arg5 harg5 arg6 harg6 arg7 harg7 arg8 harg8) K := by
  simp only [cc2__agg_kernel_eq_skeleton]; unfold cc2__agg_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover2 _)
  iexists _; isplitr
  swap; · iexact H7
  ipureintro
  try dsimp only
  exact View.read_writes_eq_canon _ _ _ (cover2 _)

/-! ## The region's proof data -/

/-- The region's proof data on core `c`: the arrays as the region finds them; after the body at point `t` each input's
    buffer still at its block, each output's at the stored value of the point's input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The region's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Agg

end
-- ==== Proof.AggRun.lean ====
/-
  The whole program as a run, at any float instance: @main is four stretches of host operations with the three
  aggregation regions between them. The contents of a core's buffers at each of the eight boundaries are a fold from the
  launch memory: a host stretch applies its operations; a region leaves its input arrays as entered and each output
  array with every grid point's block written back. Every weakly fair execution terminates without a fault in a memory
  that holds, buffer by buffer, the last boundary's contents: the eight arguments as launched (no stretch writes one, no
  region's output is one) and the two results as the last stretch leaves them.
-/
import proofs.«180967_j19731079758337_1_alg».proof.Proof.AggRegion0
import proofs.«180967_j19731079758337_1_alg».proof.Proof.AggRegion1
import proofs.«180967_j19731079758337_1_alg».proof.Proof.AggRegion2
import proofs.«180967_j19731079758337_1_alg».proof.Proof.Gen.KernelIdeal.Regions

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch `hostOps0` (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its eight arrays at what the pipeline leaves — an input as entered, an output with every point's
    block written back — and every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1` (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its eight arrays at what the pipeline leaves — an input as entered, an output with every point's
    block written back — and every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2` (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its eight arrays at what the pipeline leaves — an input as entered, an output with every point's
    block written back — and every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the core's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3` (the program's end). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-! ## The arguments end as launched -/

/-- `main_arg0` reaches the end as launched: no host stretch writes it and no region's output is it. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (r := main_arg0) (by decide)
    _ = W5 m ρ c (Proc.devRef .tc main_arg0) := W6_of_ne m ρ c main_arg0 (by decide)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl
/-- `main_arg1` reaches the end as launched: no host stretch writes it and no region's output is it. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (r := main_arg1) (by decide)
    _ = W5 m ρ c (Proc.devRef .tc main_arg1) := W6_of_ne m ρ c main_arg1 (by decide)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
/-- `main_arg2` reaches the end as launched: no host stretch writes it and no region's output is it. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (r := main_arg2) (by decide)
    _ = W5 m ρ c (Proc.devRef .tc main_arg2) := W6_of_ne m ρ c main_arg2 (by decide)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
/-- `main_arg3` reaches the end as launched: no host stretch writes it and no region's output is it (the first region reads it through an input window, which leaves it as entered). -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (r := main_arg3) (by decide)
    _ = W5 m ρ c (Proc.devRef .tc main_arg3) := W6_of_ne m ρ c main_arg3 (by decide)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := (W2_arr m ρ c 0).trans (((dat0 (V1 m ρ) c).arrAt_in 0 rfl _).trans (A_eq0 (V1 m ρ) c 0))
    _ = W0 m ρ c (Proc.devRef .tc main_arg3) := StableHlo.after_of_writes_sub hostOps0 _ hostOps0_writes (r := main_arg3) (by decide)
    _ = m ((c : Thread nD τ).loc main_arg3) := rfl
/-- `main_arg4` reaches the end as launched: no host stretch writes it and no region's output is it. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (r := main_arg4) (by decide)
    _ = W5 m ρ c (Proc.devRef .tc main_arg4) := W6_of_ne m ρ c main_arg4 (by decide)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
/-- `main_arg5` reaches the end as launched: no host stretch writes it and no region's output is it. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (r := main_arg5) (by decide)
    _ = W5 m ρ c (Proc.devRef .tc main_arg5) := W6_of_ne m ρ c main_arg5 (by decide)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl
/-- `main_arg6` reaches the end as launched: no host stretch writes it and no region's output is it. -/
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (r := main_arg6) (by decide)
    _ = W5 m ρ c (Proc.devRef .tc main_arg6) := W6_of_ne m ρ c main_arg6 (by decide)
    _ = W4 m ρ c (Proc.devRef .tc main_arg6) := StableHlo.after_of_writes_sub hostOps2 _ hostOps2_writes (r := main_arg6) (by decide)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl
/-- `main_arg7` reaches the end as launched: no host stretch writes it and no region's output is it. -/
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (r := main_arg7) (by decide)
    _ = W5 m ρ c (Proc.devRef .tc main_arg7) := W6_of_ne m ρ c main_arg7 (by decide)
    _ = W4 m ρ c (Proc.devRef .tc main_arg7) := StableHlo.after_of_writes_sub hostOps2 _ hostOps2_writes (r := main_arg7) (by decide)
    _ = W3 m ρ c (Proc.devRef .tc main_arg7) := W4_of_ne m ρ c main_arg7 (by decide)
    _ = W2 m ρ c (Proc.devRef .tc main_arg7) := StableHlo.after_of_writes_sub hostOps1 _ hostOps1_writes (r := main_arg7) (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- REGION 0 over the thread state: entered with every unscoped buffer at `W1`, left with them at `W2`. Its arrays are
    split out of the unscoped buffers at entry and put back, at the exit contents, at the end; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered with every unscoped buffer at `W3`, left with them at `W4`. Its arrays are
    split out of the unscoped buffers at entry and put back, at the exit contents, at the end; the generator register
    goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered with every unscoped buffer at `W5`, left with them at `W6`. Its arrays are
    split out of the unscoped buffers at entry and put back, at the exit contents, at the end; the generator register
    goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and the
    final memory holds the two results at the last boundary's contents and the eight arguments as launched. -/
theorem run : θ_run defs (onTc (τ := τ) (main (F := F))) ⟨m, fun _ => 0, ρ⟩ (fun r => ∀ c : Dev nD,
      r.2.mem ((c.tc : Thread nD τ).loc main_v79) = W7 m ρ c (Proc.devRef .tc main_v79)
      ∧ r.2.mem ((c.tc : Thread nD τ).loc main_v80) = W7 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v79 (by decide)), h c _ (mem_uc main_v80 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Agg

end
-- ==== Proof.AggHost.lean ====
/-
  What the host stretches between the regions compute, as named functions of the buffers they read. Before each region
  the host forms, from the current embedding x (150000 × 64) and the edge list (rows, cols, vals): the neighbourhood sum
  side(x) — each edge e adds vals[e] · x[cols[e], :] into row rows[e] (a negative column index first shifted by 150000,
  the gather clamped and the scatter dropping out-of-range rows, as the two operations are defined) — and, from layer
  k's slices of the weight and bias arguments, the transposed weights W₁ᵀ, W₂ᵀ (64 × 64) and the biases as 1 × 64 rows.
  The last stretch lays the launch embedding and the three normalized embeddings side by side (150000 × 256) and cuts
  the first 50000 rows and the remaining 100000 rows.
-/
import proofs.«180967_j19731079758337_1_alg».proof.Proof.Gen.KernelIdeal.Launch
import Idealize.ShloMosaic.Lib.StableHlo.Run

set_option maxRecDepth 16384

noncomputable section

namespace Cert.KernelIdeal.Agg

open Cert.KernelIdeal Cert.KernelIdeal.Gen
open Idealize.ShloMosaic Idealize.ShloMosaic.TcCoe Idealize.ShloMosaic.StableHlo

variable {F : FTy → Type} [FloatOps F]

/-- The neighbourhood sum of the embedding `x` over the edge list: the index fix-up, the row gather, the scaling by
    the edge values and the scatter-add into zeros, as one function. -/
def side (rows cols : (⟨S2400000, .i32⟩ : BufTy).Contents (Elt F)) (vals : (⟨S2400000, .f32⟩ : BufTy).Contents (Elt F))
    (x : (⟨S150000x64, .f32⟩ : BufTy).Contents (Elt F)) : (⟨S150000x64, .f32⟩ : BufTy).Contents (Elt F) :=
  Host.scatterAdd scatter_S150000x64_S2400000x1_S2400000x64_1_0_0_1
    (broadcastInDim S150000x64 ![] bcast_S_S150000x64 (constant S_ .f32 0x00000000#32))
    (broadcastInDim S2400000x1 ![0] bcast_S2400000_S2400000x1_0 rows)
    (mulf (broadcastInDim S2400000x64 ![0, 1] bcast_S2400000x1_S2400000x64_0_1 (broadcastInDim S2400000x1 ![0] bcast_S2400000_S2400000x1_0 vals))
      (Host.gather gather_S150000x64_S2400000x1_S2400000x64_1_0_n_n_0_1_164 x
        (broadcastInDim S2400000x1 ![0] bcast_S2400000_S2400000x1_0
          (select (cmpi .slt cols (broadcastInDim S2400000 ![] bcast_S_S2400000 (constantI S_ 32 0#32)))
            (addi cols (broadcastInDim S2400000 ![] bcast_S_S2400000 (constantI S_ 32 150000#32))) cols))))

/-- A layer's weight slice (1 × 64 × 64) as the transposed 64 × 64 matrix the region multiplies by. -/
def wT (w : (⟨S1x64x64, .f32⟩ : BufTy).Contents (Elt F)) : (⟨S64x64, .f32⟩ : BufTy).Contents (Elt F) :=
  transpose S64x64 [1, 0] (shapeCast S64x64 w shapeCasts_S1x64x64_S64x64) transposes_S64x64_S64x64_1_0

/-- A layer's bias slice (1 × 64) flattened to 64 entries and laid out again as a 1 × 64 row. -/
def bRow (b : (⟨S1x64, .f32⟩ : BufTy).Contents (Elt F)) : (⟨S1x64, .f32⟩ : BufTy).Contents (Elt F) :=
  shapeCast S1x64 (shapeCast S64 b shapeCasts_S1x64_S64) shapeCasts_S64_S1x64

/-- The two results from the launch embedding and the three normalized embeddings: side by side, then the two row ranges. -/
def cat (x n1 n2 n3 : (⟨S150000x64, .f32⟩ : BufTy).Contents (Elt F)) : (⟨S150000x256, .f32⟩ : BufTy).Contents (Elt F) :=
  concatenate S150000x256 1 [⟨S150000x64, x⟩, ⟨S150000x64, n1⟩, ⟨S150000x64, n2⟩, ⟨S150000x64, n3⟩] concatenates_S150000x64_S150000x64_S150000x64_S150000x64_S150000x256_d1
def users (x n1 n2 n3 : (⟨S150000x64, .f32⟩ : BufTy).Contents (Elt F)) : (⟨S50000x256, .f32⟩ : BufTy).Contents (Elt F) :=
  extractStridedSlice S50000x256 ![0, 0] (cat x n1 n2 n3) slices_S150000x256_S50000x256_0_0
def entities (x n1 n2 n3 : (⟨S150000x64, .f32⟩ : BufTy).Contents (Elt F)) : (⟨S100000x256, .f32⟩ : BufTy).Contents (Elt F) :=
  extractStridedSlice S100000x256 ![50000, 0] (cat x n1 n2 n3) slices_S150000x256_S100000x256_50000_0

/-! ### The host stretch before region 0 -/

set_option maxHeartbeats 4000000 in
theorem side_at0 (U : Valuation τ sig (Elt F)) :
    StableHlo.after hostOps0 U (Proc.devRef .tc main_v12)
      = side (F := F) (U (Proc.devRef .tc main_arg0)) (U (Proc.devRef .tc main_arg1)) (U (Proc.devRef .tc main_arg2)) (U (Proc.devRef .tc main_arg3)) := by
  after_results_simp
  rfl
theorem w1_at0 (U : Valuation τ sig (Elt F)) :
    StableHlo.after hostOps0 U (Proc.devRef .tc main_v21)
      = wT (F := F) (extractStridedSlice S1x64x64 ![0, 0, 0] (U (Proc.devRef .tc main_arg4)) slices_S3x64x64_S1x64x64_0_0_0) := by
  after_results
  rfl
theorem b1_at0 (U : Valuation τ sig (Elt F)) :
    StableHlo.after hostOps0 U (Proc.devRef .tc main_v23)
      = bRow (F := F) (extractStridedSlice S1x64 ![0, 0] (U (Proc.devRef .tc main_arg5)) slices_S3x64_S1x64_0_0) := by
  after_results
  rfl
theorem w2_at0 (U : Valuation τ sig (Elt F)) :
    StableHlo.after hostOps0 U (Proc.devRef .tc main_v22)
      = wT (F := F) (extractStridedSlice S1x64x64 ![0, 0, 0] (U (Proc.devRef .tc main_arg6)) slices_S3x64x64_S1x64x64_0_0_0) := by
  after_results
  rfl
theorem b2_at0 (U : Valuation τ sig (Elt F)) :
    StableHlo.after hostOps0 U (Proc.devRef .tc main_v24)
      = bRow (F := F) (extractStridedSlice S1x64 ![0, 0] (U (Proc.devRef .tc main_arg7)) slices_S3x64_S1x64_0_0) := by
  after_results
  rfl

/-! ### The host stretch before region 1 -/

set_option maxHeartbeats 4000000 in
theorem side_at1 (U : Valuation τ sig (Elt F)) :
    StableHlo.after hostOps1 U (Proc.devRef .tc main_v38)
      = side (F := F) (U (Proc.devRef .tc main_arg0)) (U (Proc.devRef .tc main_arg1)) (U (Proc.devRef .tc main_arg2)) (U (Proc.devRef .tc main_v25_0)) := by
  after_results_simp
  rfl
theorem w1_at1 (U : Valuation τ sig (Elt F)) :
    StableHlo.after hostOps1 U (Proc.devRef .tc main_v47)
      = wT (F := F) (extractStridedSlice S1x64x64 ![1, 0, 0] (U (Proc.devRef .tc main_arg4)) slices_S3x64x64_S1x64x64_1_0_0) := by
  after_results
  rfl
theorem b1_at1 (U : Valuation τ sig (Elt F)) :
    StableHlo.after hostOps1 U (Proc.devRef .tc main_v49)
      = bRow (F := F) (extractStridedSlice S1x64 ![1, 0] (U (Proc.devRef .tc main_arg5)) slices_S3x64_S1x64_1_0) := by
  after_results
  rfl
theorem w2_at1 (U : Valuation τ sig (Elt F)) :
    StableHlo.after hostOps1 U (Proc.devRef .tc main_v48)
      = wT (F := F) (extractStridedSlice S1x64x64 ![1, 0, 0] (U (Proc.devRef .tc main_arg6)) slices_S3x64x64_S1x64x64_1_0_0) := by
  after_results
  rfl
theorem b2_at1 (U : Valuation τ sig (Elt F)) :
    StableHlo.after hostOps1 U (Proc.devRef .tc main_v50)
      = bRow (F := F) (extractStridedSlice S1x64 ![1, 0] (U (Proc.devRef .tc main_arg7)) slices_S3x64_S1x64_1_0) := by
  after_results
  rfl

/-! ### The host stretch before region 2 -/

set_option maxHeartbeats 4000000 in
theorem side_at2 (U : Valuation τ sig (Elt F)) :
    StableHlo.after hostOps2 U (Proc.devRef .tc main_v64)
      = side (F := F) (U (Proc.devRef .tc main_arg0)) (U (Proc.devRef .tc main_arg1)) (U (Proc.devRef .tc main_arg2)) (U (Proc.devRef .tc main_v51_0)) := by
  after_results_simp
  rfl
theorem w1_at2 (U : Valuation τ sig (Elt F)) :
    StableHlo.after hostOps2 U (Proc.devRef .tc main_v73)
      = wT (F := F) (extractStridedSlice S1x64x64 ![2, 0, 0] (U (Proc.devRef .tc main_arg4)) slices_S3x64x64_S1x64x64_2_0_0) := by
  after_results
  rfl
theorem b1_at2 (U : Valuation τ sig (Elt F)) :
    StableHlo.after hostOps2 U (Proc.devRef .tc main_v75)
      = bRow (F := F) (extractStridedSlice S1x64 ![2, 0] (U (Proc.devRef .tc main_arg5)) slices_S3x64_S1x64_2_0) := by
  after_results
  rfl
theorem w2_at2 (U : Valuation τ sig (Elt F)) :
    StableHlo.after hostOps2 U (Proc.devRef .tc main_v74)
      = wT (F := F) (extractStridedSlice S1x64x64 ![2, 0, 0] (U (Proc.devRef .tc main_arg6)) slices_S3x64x64_S1x64x64_2_0_0) := by
  after_results
  rfl
theorem b2_at2 (U : Valuation τ sig (Elt F)) :
    StableHlo.after hostOps2 U (Proc.devRef .tc main_v76)
      = bRow (F := F) (extractStridedSlice S1x64 ![2, 0] (U (Proc.devRef .tc main_arg7)) slices_S3x64_S1x64_2_0) := by
  after_results
  rfl

/-! ### The last stretch -/

theorem users_at (U : Valuation τ sig (Elt F)) :
    StableHlo.after hostOps3 U (Proc.devRef .tc main_v79)
      = users (F := F) (U (Proc.devRef .tc main_arg3)) (U (Proc.devRef .tc main_v25_1)) (U (Proc.devRef .tc main_v51_1)) (U (Proc.devRef .tc main_v77_1)) := by
  after_results
  rfl
theorem entities_at (U : Valuation τ sig (Elt F)) :
    StableHlo.after hostOps3 U (Proc.devRef .tc main_v80)
      = entities (F := F) (U (Proc.devRef .tc main_arg3)) (U (Proc.devRef .tc main_v25_1)) (U (Proc.devRef .tc main_v51_1)) (U (Proc.devRef .tc main_v77_1)) := by
  after_results
  rfl

end Cert.KernelIdeal.Agg

end
-- ==== Proof.EntrySpec.lean ====
/-
  The entry functions of the aggregation layer, over the extended reals.

  One element of the layer's first output is a function of one row of each of the two input blocks (the embedding
  row x and the side row s, 64 entries each), one column of each of the two weight matrices and one entry of each
  of the two bias rows: the sum of two leaky-rectified affine forms, one of the sum x + s and one of the entrywise
  product x * s. One element of the second output is that row's element divided by the row's Euclidean norm,
  the norm bounded below by a small positive constant. The two constants (the rectifier's slope and the bound) are
  kept as the binary32 numbers their bit patterns denote; only the zero the rectifier compares against is evaluated.
-/
import Idealize.ShloMosaic.PureOps.Ideal
import Idealize.ShloMosaic.PureOps.Ideal.Laws
import Idealize.ShloMosaic.Lib.ValueIdx

noncomputable section

namespace Cert.EntrySpec

open Idealize.ShloMosaic
open scoped BigOperators

/-- The leaky rectifier: a nonnegative argument is kept, a negative one is multiplied by the slope, the binary32
    number with bit pattern 0x3C23D70A (about 0.01). -/
def leaky (z : EReal) : EReal := if 0 ≤ z then z else Ideal.ofBits .f32 0x3C23D70A#32 * z

/-- One element of the aggregated embedding: with x the embedding row, s the side row, w1 and w2 the weight columns
    and b1, b2 the bias entries, leaky(∑ₖ (xₖ + sₖ) w1ₖ + b1) + leaky(∑ₖ (xₖ sₖ) w2ₖ + b2). -/
def egoEntry (x s w1 w2 : Fin 64 → EReal) (b1 b2 : EReal) : EReal :=
  leaky ((∑ k, (x k + s k) * w1 k) + b1) + leaky ((∑ k, (x k * s k) * w2 k) + b2)

/-- One element of the row-normalised embedding: with e the row, e_q / max(√(∑ⱼ eⱼ²), ε), where ε is the binary32
    number with bit pattern 0x2B8CBCCC (about 1e-12), the quotient and the square root being the extended reals'
    (division by zero an infinity of the numerator's sign, the root of a negative number the bottom element). -/
def normEntry (e : Fin 64 → EReal) (q : Fin 64) : EReal :=
  Ideal.div (e q) (max (Ideal.sqrt (∑ j, e j * e j)) (Ideal.ofBits .f32 0x2B8CBCCC#32))

/-- The rectifier as a comparison and a selection: selecting z where "z is at least zero" holds, and the slope times z
    elsewhere, is the rectifier of z. The zero compared against is the binary32 zero pattern, which is the number 0. -/
theorem select_oge_zero (z : EReal) :
    Scalar.select (Ideal.cmp .oge z (Ideal.ofBits .f32 0x00000000#32)) z (Ideal.ofBits .f32 0x3C23D70A#32 * z)
      = leaky z := by
  rw [Ideal.ofBits_zero_f32]
  unfold leaky Scalar.select
  show (if BitVec.ofBool (decide ((0 : EReal) ≤ z)) = 1 then z else _) = _
  by_cases h : (0 : EReal) ≤ z
  · rw [if_pos h, if_pos (by simp [h])]
  · rw [if_neg h, if_neg (by simp [h])]

end Cert.EntrySpec

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.PayCore.lean ====
/-
  The aggregation layer's vector operations read at one element.

  Each of the three kernel bodies is built from four pieces, read here at row p and column q of a 3000 × 64 block,
  at the exact values (the extended reals, where a change of float format is the identity):
    • a dense layer: the product of a 3000 × 64 block with a 64 × 64 weight matrix, accumulated into zero, plus a
      1 × 64 bias row repeated down the rows — at (p, q) the sum over k of block (p, k) · weight (k, q), plus bias (0, q);
    • the leaky rectifier as a comparison with zero and a selection;
    • a row's Euclidean norm: the square root of the row's sum of squares, kept as a 3000 × 1 column;
    • the quotient by a column repeated across the columns, the column being a maximum of two columns.
  The shape relations each operation carries are propositions, so the statements take them as arbitrary proofs.
-/
import proofs.«180967_j19731079758337_1_alg».proof.Proof.Gen.KernelIdeal
import proofs.«180967_j19731079758337_1_alg».proof.Proof.EntrySpec
import proofs.«180967_j19731079758337_1_alg».proof.Proof.LibPlainDot
import proofs.«180967_j19731079758337_1_alg».proof.Proof.LibKeepdims
import proofs.«180967_j19731079758337_1_alg».proof.Proof.LibRowBroadcasts
import Idealize.ShloMosaic.Lib.ValueIdx
import Idealize.ShloMosaic.Lib.Pipeline.Value
import Idealize.ShloMosaic.PureOps.Ideal.Laws

noncomputable section

namespace Cert.KernelIdeal.PayIdx

open Idealize.ShloMosaic Idealize.ShloMosaic.ValueIdx
open Cert.EntrySpec
open scoped BigOperators

/-- A dense layer at (p, q): the block's row p against the weight's column q, plus the bias entry q. The casts of
    the weight and of the bias to their own shapes are identities, and so is the narrowing of either factor. -/
theorem dense_apply (u : FVec Ideal S3000x64 .f32) (w : FVec Ideal S64x64 .f32) (b : FVec Ideal S1x64 .f32)
    (hlt : FTy.bits .bf16 < FTy.bits .f32) (hw : S64x64.ShapeCasts S64x64) (hb : S1x64.ShapeCasts S1x64)
    (hbc : S1x64.Broadcasts S3000x64)
    (wf : DotDims.WF S3000x64 S64x64 S3000x64 [1] [0] [0] [1] [] []) (p : Fin 3000) (q : Fin 64) :
    addf (matmul (Cert.Lib.PlainDot.dims wf) none (truncf .bf16 u hlt)
            (truncf .bf16 (shapeCast S64x64 w hw) hlt) (constant S3000x64 .f32 0x00000000#32))
         (broadcastTo S3000x64 (shapeCast S1x64 b hb) hbc) (ix2 p q)
      = (∑ k : Fin 64, u (ix2 p k) * w (ix2 k q)) + b (ix2 (0 : Fin 1) q) := by
  rw [shapeCast_self w hw, shapeCast_self b hb]
  refine (addf_apply _ _ _).trans ?_
  exact congrArg₂ (· + ·)
    (Cert.Lib.PlainDot.matmul_zero_apply wf none (truncf .bf16 u hlt) (truncf .bf16 w hlt) p q)
    (Cert.Lib.Rows.bcastRow_apply b hbc p q)

/-- The rectifier on a block, at an element: comparing with the zero splat and selecting between the block and the
    slope splat times the block is the rectifier of the element. -/
theorem leakyVec_apply (A : FVec Ideal S3000x64 .f32) (i : S3000x64.Idx) :
    select (cmpf .oge A (broadcast S3000x64 (Scalar.ofBits .f32 0x00000000#32 : Ideal .f32))) A
        (mulf (broadcast S3000x64 (Scalar.ofBits .f32 0x3C23D70A#32 : Ideal .f32)) A) i = leaky (A i) :=
  select_oge_zero (A i)

/-- A row's norm at (p, ·): the square root of the sum over the row's 64 columns of the squared elements. The sum
    over the lane axis reads the block at row p with the lane coordinate inserted; cast to a column it stays at p. -/
theorem rowNorm_apply (e : FVec Ideal S3000x64 .f32) (hr : S3000x64.Reduces [1] S3000) (hφ : FKind.Formats .f32)
    (hacc : (0x00000000#32 : BitVec (FTy.bits .f32)) = FKind.add.neutral .f32 hφ) (hc : S3000.ShapeCasts S3000x1)
    (p : Fin 3000) (u : Fin 1) :
    sqrt (shapeCast S3000x1 (multiReduction .add [1] S3000 (mulf e e) 0x00000000#32 hr hφ hacc) hc) (ix2 p u)
      = Ideal.sqrt (∑ j : Fin 64, e (ix2 p j) * e (ix2 p j)) := by
  show Ideal.sqrt (shapeCast S3000x1 (multiReduction .add [1] S3000 (mulf e e) 0x00000000#32 hr hφ hacc) hc (ix2 p u)) = _
  refine congrArg Ideal.sqrt ?_
  refine (Cert.Lib.Keepdims.col_apply _ hc p u).trans ?_
  refine (Ideal.multiReduction_add_single (mulf e e) 0x00000000#32 hr hφ hacc (ix1 p)).trans ?_
  show (∑ k : Fin 64, mulf e e (hr.lift (ix1 p) k)) = _
  refine Finset.sum_congr rfl fun k _ => ?_
  have hk : hr.lift (ix1 p) k = ix2 p k :=
    funext fun c => Fin.ext (by match c with | ⟨0, _⟩ => rfl | ⟨1, _⟩ => rfl)
  rw [hk]
  rfl

/-- The quotient by a repeated column at (p, q): the element over the larger of the two columns' entries at row p. -/
theorem normVec_apply (e : FVec Ideal S3000x64 .f32) (n m : FVec Ideal S3000x1 .f32)
    (hb : S3000x1.Broadcasts S3000x64) (p : Fin 3000) (q : Fin 64) :
    divf e (broadcastTo S3000x64 (maximumf n m) hb) (ix2 p q)
      = Ideal.div (e (ix2 p q)) (max (n (ix2 p (0 : Fin 1))) (m (ix2 p (0 : Fin 1)))) := by
  refine (divf_apply _ _ _).trans ?_
  exact congrArg (Ideal.div (e (ix2 p q))) (Cert.Lib.Keepdims.bcastCol_apply (maximumf n m) hb p q)

end Cert.KernelIdeal.PayIdx

end
-- ==== Proof.Pay0.lean ====
/-
  Kernel 0 of the aggregation layer, read at one element.

  The body's first stored block is, at row p and column q, the entry function egoEntry of the embedding block's row p,
  the side block's row p, the two weight matrices' columns q and the two bias rows' entries q; its second stored
  block is, at (p, q), the entry function normEntry of the first block's row p. Both follow from the four pieces
  read at an element (the dense layer, the rectifier, the row norm, the quotient by a repeated column); the casts of
  the input blocks to their own shape are identities.
-/
import proofs.«180967_j19731079758337_1_alg».proof.Proof.Gen.KernelIdeal.Skeleton
import proofs.«180967_j19731079758337_1_alg».proof.Proof.PayCore

noncomputable section

namespace Cert.KernelIdeal.PayIdx

open Idealize.ShloMosaic Idealize.ShloMosaic.ValueIdx
open Cert.EntrySpec
open scoped BigOperators

/-- The first stored block at (p, q): the sum of the two rectified dense layers, of the rows' sum and of the rows'
    entrywise product. -/
theorem pay0_ego_apply (x0 x1 : Vec Ideal S3000x64 .f32) (w1 w2 : Vec Ideal S64x64 .f32)
    (b1 b2 : Vec Ideal S1x64 .f32) (p : Fin 3000) (q : Fin 64) :
    Gen.k0_pay2 (F := Ideal) x0 x1 w1 w2 b1 b2 (ix2 p q)
      = egoEntry (fun k => x0 (ix2 p k)) (fun k => x1 (ix2 p k)) (fun k => w1 (ix2 k q)) (fun k => w2 (ix2 k q))
          (b1 (ix2 (0 : Fin 1) q)) (b2 (ix2 (0 : Fin 1) q)) := by
  unfold Gen.k0_pay2
  rw [shapeCast_self x1]
  refine (addf_apply _ _ _).trans ?_
  unfold egoEntry
  refine congrArg₂ (· + ·) ?_ ?_
  · refine (leakyVec_apply _ _).trans (congrArg leaky ?_)
    exact dense_apply (addf x0 x1) w1 b1 _ _ _ _ _ p q
  · refine (leakyVec_apply _ _).trans (congrArg leaky ?_)
    exact dense_apply (mulf x0 x1) w2 b2 _ _ _ _ _ p q

/-- The second stored block at (p, q): the first block's element over the larger of the row's norm and the bound. -/
theorem pay0_norm_apply (x0 x1 : Vec Ideal S3000x64 .f32) (w1 w2 : Vec Ideal S64x64 .f32)
    (b1 b2 : Vec Ideal S1x64 .f32) (p : Fin 3000) (q : Fin 64) :
    Gen.k0_pay1 (F := Ideal) (Gen.k0_pay2 x0 x1 w1 w2 b1 b2) (Gen.k0_pay3 x0 x1 w1 w2 b1 b2) Gen.k0_pay4 (ix2 p q)
      = normEntry (fun j => Gen.k0_pay2 (F := Ideal) x0 x1 w1 w2 b1 b2 (ix2 p j)) q := by
  unfold Gen.k0_pay1 Gen.k0_pay3 Gen.k0_pay4
  refine (normVec_apply _ _ _ _ p q).trans ?_
  unfold normEntry
  refine congrArg (Ideal.div _) (congrArg₂ max ?_ rfl)
  exact rowNorm_apply _ _ _ _ _ p 0

end Cert.KernelIdeal.PayIdx

end
-- ==== Proof.LayerSpec.lean ====
/-
  One aggregation layer over whole arrays, entry by entry, on the extended reals.

  With X the current embedding and S its neighbourhood sum (150000 × 64 each), W₁ᵀ, W₂ᵀ the transposed weights (64 × 64)
  and b₁, b₂ the biases (1 × 64 rows), entry (r, q) of the new embedding is
      leaky(∑ₖ (X r k + S r k) · W₁ᵀ k q + b₁ q) + leaky(∑ₖ (X r k · S r k) · W₂ᵀ k q + b₂ q),
  a function of row r of X and S alone; and entry (r, q) of the normalized embedding is the new embedding's entry
  divided by max(‖row r‖₂, ε). Both are stated through the entry functions, so a block of rows computed by itself
  and the whole array computed at once are the same function of the same rows.
-/
import proofs.«180967_j19731079758337_1_alg».proof.Proof.EntrySpec

noncomputable section

namespace Cert.LayerSpec

open Idealize.ShloMosaic Idealize.ShloMosaic.ValueIdx

/-- An a × b array of extended reals. -/
abbrev Mat (a b : Nat) : Type := (⟨2, ![a, b]⟩ : Shape).Idx → EReal

/-- The new embedding: entry (r, q) from row r of the embedding and of the side, column q of the two transposed weight
    matrices and entry q of the two bias rows. -/
def ego (X S : Mat 150000 64) (W1 W2 : Mat 64 64) (B1 B2 : Mat 1 64) : Mat 150000 64 := fun i =>
  Cert.EntrySpec.egoEntry (fun k => X (ix2 (i 0) k)) (fun k => S (ix2 (i 0) k))
    (fun k => W1 (ix2 k (i 1))) (fun k => W2 (ix2 k (i 1))) (B1 (ix2 (0 : Fin 1) (i 1))) (B2 (ix2 (0 : Fin 1) (i 1)))

/-- The normalized embedding: entry (r, q) is E r q divided by the larger of row r's Euclidean norm and ε. -/
def nrm (E : Mat 150000 64) : Mat 150000 64 := fun i =>
  Cert.EntrySpec.normEntry (fun j => E (ix2 (i 0) j)) (i 1)

theorem ego_apply (X S : Mat 150000 64) (W1 W2 : Mat 64 64) (B1 B2 : Mat 1 64) (r : Fin 150000) (q : Fin 64) :
    ego X S W1 W2 B1 B2 (ix2 r q) = Cert.EntrySpec.egoEntry (fun k => X (ix2 r k)) (fun k => S (ix2 r k))
      (fun k => W1 (ix2 k q)) (fun k => W2 (ix2 k q)) (B1 (ix2 (0 : Fin 1) q)) (B2 (ix2 (0 : Fin 1) q)) := rfl

theorem nrm_apply (E : Mat 150000 64) (r : Fin 150000) (q : Fin 64) :
    nrm E (ix2 r q) = Cert.EntrySpec.normEntry (fun j => E (ix2 r j)) q := rfl

end Cert.LayerSpec

end
-- ==== Proof.AggValue0.lean ====
/-
  What region 0 leaves in its two output arrays, at the ideal instance, as whole-array functions of the arrays it
  reads. Grid point t reads rows 3000·t … 3000·t + 2999 of the embedding and of the side and the whole weight and bias
  arrays, and writes the same rows of both outputs; an entry of the new embedding depends only on its own row of the two
  inputs, and an entry of the normalized embedding only on its own row of the new embedding, so the block a point writes
  back is the restriction to its rows of the layer's whole-array function. The fifty blocks tile the 150000 rows, hence
  the output arrays end holding the layer's functions of the entry arrays.
-/
import proofs.«180967_j19731079758337_1_alg».proof.Proof.AggRegion0
import proofs.«180967_j19731079758337_1_alg».proof.Proof.Pay0
import proofs.«180967_j19731079758337_1_alg».proof.Proof.LayerSpec
import Idealize.ShloMosaic.Lib.Pipeline.Value
import Idealize.ShloMosaic.Lib.ValueIdx

set_option maxRecDepth 16384

noncomputable section

namespace Cert.KernelIdeal.Agg

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the grid: the two row-tiled inputs and the two outputs move together along the
    rows (block row index = the point, at most 49), every window sits at column block 0, and the four small operands
    stay at block (0, 0). -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0
    ∧ win0_7.index t (0 : Fin 2) = win0_6.index t (0 : Fin 2) ∧ win0_7.index t (1 : Fin 2) = 0
    ∧ win0_6.index t (0 : Fin 2) ≤ 49 :=
  (by decide +kernel : ∀ t : Fin grid0.N, _)

/-- Every block row of the outputs is some point's. -/
theorem idx_onto0 : ∀ q0 : Fin 50, ∃ t : Fin cfg0.N, win0_6.index t (0 : Fin 2) = q0.val :=
  (by decide +kernel : ∀ q0 : Fin 50, ∃ t : Fin grid0.N, win0_6.index t (0 : Fin 2) = q0.val)

/-! ## The blocks, read where the output's rows say -/

/-- Row p of point t's embedding block is row r = 3000·(block row) + p of the embedding array. -/
theorem rowX0 (c : Dev nD) (t : Fin cfg0.N) (p : Fin 3000) (k : Fin 64) (r : Fin 150000)
    (hr : r.val = win0_6.index t (0 : Fin 2) * 3000 + p.val) :
    iblk0 V c 0 t (ix2 p k) = V c main_arg3 (ix2 r k) := by
  obtain ⟨e00, e01, -⟩ := idx_facts0 t
  have h : ((cfg0.win 0).blk t).view.emb (ix2 p k) = ix2 r k := by
    funext a; apply Fin.ext
    match a with
    | ⟨0, _⟩ => show win0_0.index t (0 : Fin 2) * 3000 + 1 * p.val = r.val; omega
    | ⟨1, _⟩ => show win0_0.index t (1 : Fin 2) * 64 + 1 * k.val = k.val; omega
  show V c main_arg3 (((cfg0.win 0).blk t).view.emb (ix2 p k)) = V c main_arg3 (ix2 r k)
  rw [h]

/-- The same for the side block. -/
theorem rowS0 (c : Dev nD) (t : Fin cfg0.N) (p : Fin 3000) (k : Fin 64) (r : Fin 150000)
    (hr : r.val = win0_6.index t (0 : Fin 2) * 3000 + p.val) :
    iblk0 V c 1 t (ix2 p k) = V c main_v12 (ix2 r k) := by
  obtain ⟨-, -, e10, e11, -⟩ := idx_facts0 t
  have h : ((cfg0.win 1).blk t).view.emb (ix2 p k) = ix2 r k := by
    funext a; apply Fin.ext
    match a with
    | ⟨0, _⟩ => show win0_1.index t (0 : Fin 2) * 3000 + 1 * p.val = r.val; omega
    | ⟨1, _⟩ => show win0_1.index t (1 : Fin 2) * 64 + 1 * k.val = k.val; omega
  show V c main_v12 (((cfg0.win 1).blk t).view.emb (ix2 p k)) = V c main_v12 (ix2 r k)
  rw [h]

/-- The weight block is the whole array at every point. -/
theorem blkW10 (c : Dev nD) (t : Fin cfg0.N) (k : Fin 64) (q : Fin 64) :
    iblk0 V c 2 t (ix2 k q) = V c main_v21 (ix2 k q) := by
  obtain ⟨-, -, -, -, e0, e1, -⟩ := idx_facts0 t
  have h : ((cfg0.win 2).blk t).view.emb (ix2 k q) = ix2 k q := by
    funext a; apply Fin.ext
    match a with
    | ⟨0, _⟩ => show win0_2.index t (0 : Fin 2) * 64 + 1 * k.val = k.val; omega
    | ⟨1, _⟩ => show win0_2.index t (1 : Fin 2) * 64 + 1 * q.val = q.val; omega
  show V c main_v21 (((cfg0.win 2).blk t).view.emb (ix2 k q)) = V c main_v21 (ix2 k q)
  rw [h]

/-- The weight block is the whole array at every point. -/
theorem blkW20 (c : Dev nD) (t : Fin cfg0.N) (k : Fin 64) (q : Fin 64) :
    iblk0 V c 4 t (ix2 k q) = V c main_v22 (ix2 k q) := by
  obtain ⟨-, -, -, -, -, -, -, -, e0, e1, -⟩ := idx_facts0 t
  have h : ((cfg0.win 4).blk t).view.emb (ix2 k q) = ix2 k q := by
    funext a; apply Fin.ext
    match a with
    | ⟨0, _⟩ => show win0_4.index t (0 : Fin 2) * 64 + 1 * k.val = k.val; omega
    | ⟨1, _⟩ => show win0_4.index t (1 : Fin 2) * 64 + 1 * q.val = q.val; omega
  show V c main_v22 (((cfg0.win 4).blk t).view.emb (ix2 k q)) = V c main_v22 (ix2 k q)
  rw [h]

/-- The bias block is the whole array at every point. -/
theorem blkB10 (c : Dev nD) (t : Fin cfg0.N) (z : Fin 1) (q : Fin 64) :
    iblk0 V c 3 t (ix2 z q) = V c main_v23 (ix2 z q) := by
  obtain ⟨-, -, -, -, -, -, e0, e1, -⟩ := idx_facts0 t
  have h : ((cfg0.win 3).blk t).view.emb (ix2 z q) = ix2 z q := by
    funext a; apply Fin.ext
    match a with
    | ⟨0, _⟩ => show win0_3.index t (0 : Fin 2) * 1 + 1 * z.val = z.val; omega
    | ⟨1, _⟩ => show win0_3.index t (1 : Fin 2) * 64 + 1 * q.val = q.val; omega
  show V c main_v23 (((cfg0.win 3).blk t).view.emb (ix2 z q)) = V c main_v23 (ix2 z q)
  rw [h]

/-- The bias block is the whole array at every point. -/
theorem blkB20 (c : Dev nD) (t : Fin cfg0.N) (z : Fin 1) (q : Fin 64) :
    iblk0 V c 5 t (ix2 z q) = V c main_v24 (ix2 z q) := by
  obtain ⟨-, -, -, -, -, -, -, -, -, -, e0, e1, -⟩ := idx_facts0 t
  have h : ((cfg0.win 5).blk t).view.emb (ix2 z q) = ix2 z q := by
    funext a; apply Fin.ext
    match a with
    | ⟨0, _⟩ => show win0_5.index t (0 : Fin 2) * 1 + 1 * z.val = z.val; omega
    | ⟨1, _⟩ => show win0_5.index t (1 : Fin 2) * 64 + 1 * q.val = q.val; omega
  show V c main_v24 (((cfg0.win 5).blk t).view.emb (ix2 z q)) = V c main_v24 (ix2 z q)
  rw [h]

/-! ## One entry of what a point computes -/

/-- Entry (p, q) of the new-embedding rows point t computes is entry (r, q) of the layer's new embedding of the entry
    arrays, r the array row of the block's row p. -/
theorem egoPoint0 (c : Dev nD) (t : Fin cfg0.N) (p : Fin 3000) (q : Fin 64) (r : Fin 150000)
    (hr : r.val = win0_6.index t (0 : Fin 2) * 3000 + p.val) :
    Gen.k0_pay2 (F := Ideal) (iblk0 V c 0 t) (iblk0 V c 1 t) (iblk0 V c 2 t) (iblk0 V c 4 t) (iblk0 V c 3 t) (iblk0 V c 5 t) (ix2 p q) = (Cert.LayerSpec.ego (V c main_arg3) (V c main_v12) (V c main_v21) (V c main_v22) (V c main_v23) (V c main_v24)) (ix2 r q) := by
  rw [Cert.KernelIdeal.PayIdx.pay0_ego_apply, Cert.LayerSpec.ego_apply]
  rw [show (fun k => iblk0 V c 0 t (ix2 p k)) = (fun k => V c main_arg3 (ix2 r k)) from funext fun k => rowX0 V c t p k r hr,
    show (fun k => iblk0 V c 1 t (ix2 p k)) = (fun k => V c main_v12 (ix2 r k)) from funext fun k => rowS0 V c t p k r hr,
    show (fun k => iblk0 V c 2 t (ix2 k q)) = (fun k => V c main_v21 (ix2 k q)) from funext fun k => blkW10 V c t k q,
    show (fun k => iblk0 V c 4 t (ix2 k q)) = (fun k => V c main_v22 (ix2 k q)) from funext fun k => blkW20 V c t k q,
    blkB10 V c t 0 q, blkB20 V c t 0 q]

/-! ## What a point writes back -/

/-- Point t writes back, into the first output, block t of the layer's new embedding of the entry arrays. -/
theorem flushed0_6_eq (c : Dev nD) (t : Fin cfg0.N) :
    (dat0 V c).flushed 6 t = ((cfg0.win 6).blk t).view.read (Elt Ideal) (Cert.LayerSpec.ego (V c main_arg3) (V c main_v12) (V c main_v21) (V c main_v22) (V c main_v23) (V c main_v24)) := by
  show (cfg0.win 6).cut (grid0.coords t) ((dat0 V c).after 6 t) = _
  rw [after0_6]
  unfold out0_6
  rw [View.canon_unit_zero hz0]
  unfold ego0
  simp only [View.ld_unit_zero (S := S3000x64) hz0, View.ld_unit_zero (S := S64x64) hz0, View.ld_unit_zero (S := S1x64) hz0]
  funext y
  obtain ⟨p, q, rfl⟩ : ∃ (p : Fin 3000) (q : Fin 64), y = ix2 p q := ⟨y 0, y 1, eq_ix2 y⟩
  obtain ⟨-, -, -, -, -, -, -, -, -, -, -, -, e61, e70, e71, hle⟩ := idx_facts0 t
  have hp : p.val < 3000 := p.isLt
  obtain ⟨r, hr⟩ : ∃ r : Fin 150000, r.val = win0_6.index t (0 : Fin 2) * 3000 + p.val := ⟨⟨_, by omega⟩, rfl⟩
  have hi : ((cfg0.win 6).blk t).view.emb (ix2 p q) = ix2 r q := by
    funext a; apply Fin.ext
    match a with
    | ⟨0, _⟩ => show win0_6.index t (0 : Fin 2) * 3000 + 1 * p.val = r.val; omega
    | ⟨1, _⟩ => show win0_6.index t (1 : Fin 2) * 64 + 1 * q.val = q.val; omega
  show Gen.k0_pay2 (F := Ideal) (iblk0 V c 0 t) (iblk0 V c 1 t) (iblk0 V c 2 t) (iblk0 V c 4 t) (iblk0 V c 3 t) (iblk0 V c 5 t) (ix2 p q) = (Cert.LayerSpec.ego (V c main_arg3) (V c main_v12) (V c main_v21) (V c main_v22) (V c main_v23) (V c main_v24)) (((cfg0.win 6).blk t).view.emb (ix2 p q))
  rw [hi]
  exact egoPoint0 V c t p q r hr

/-- Point t writes back, into the second output, block t of the layer's normalized embedding. -/
theorem flushed0_7_eq (c : Dev nD) (t : Fin cfg0.N) :
    (dat0 V c).flushed 7 t = ((cfg0.win 7).blk t).view.read (Elt Ideal) (Cert.LayerSpec.nrm (Cert.LayerSpec.ego (V c main_arg3) (V c main_v12) (V c main_v21) (V c main_v22) (V c main_v23) (V c main_v24))) := by
  show (cfg0.win 7).cut (grid0.coords t) ((dat0 V c).after 7 t) = _
  rw [after0_7]
  unfold out0_7
  rw [View.canon_unit_zero hz0]
  unfold nrm0 ego0
  simp only [View.ld_unit_zero (S := S3000x64) hz0, View.ld_unit_zero (S := S64x64) hz0, View.ld_unit_zero (S := S1x64) hz0]
  funext y
  obtain ⟨p, q, rfl⟩ : ∃ (p : Fin 3000) (q : Fin 64), y = ix2 p q := ⟨y 0, y 1, eq_ix2 y⟩
  obtain ⟨-, -, -, -, -, -, -, -, -, -, -, -, e61, e70, e71, hle⟩ := idx_facts0 t
  have hp : p.val < 3000 := p.isLt
  obtain ⟨r, hr⟩ : ∃ r : Fin 150000, r.val = win0_6.index t (0 : Fin 2) * 3000 + p.val := ⟨⟨_, by omega⟩, rfl⟩
  have hi : ((cfg0.win 7).blk t).view.emb (ix2 p q) = ix2 r q := by
    funext a; apply Fin.ext
    match a with
    | ⟨0, _⟩ => show win0_7.index t (0 : Fin 2) * 3000 + 1 * p.val = r.val; omega
    | ⟨1, _⟩ => show win0_7.index t (1 : Fin 2) * 64 + 1 * q.val = q.val; omega
  show Gen.k0_pay1 (F := Ideal) (Gen.k0_pay2 (iblk0 V c 0 t) (iblk0 V c 1 t) (iblk0 V c 2 t) (iblk0 V c 4 t) (iblk0 V c 3 t) (iblk0 V c 5 t)) (Gen.k0_pay3 (iblk0 V c 0 t) (iblk0 V c 1 t) (iblk0 V c 2 t) (iblk0 V c 4 t) (iblk0 V c 3 t) (iblk0 V c 5 t)) Gen.k0_pay4 (ix2 p q)
    = Cert.LayerSpec.nrm (Cert.LayerSpec.ego (V c main_arg3) (V c main_v12) (V c main_v21) (V c main_v22) (V c main_v23) (V c main_v24)) (((cfg0.win 7).blk t).view.emb (ix2 p q))
  rw [hi, Cert.KernelIdeal.PayIdx.pay0_norm_apply, Cert.LayerSpec.nrm_apply]
  refine congrArg (fun e => Cert.EntrySpec.normEntry e q) (funext fun j => ?_)
  exact egoPoint0 V c t p j r hr

/-- An index of the array is in point `t`'s block of output window 6 iff each coordinate is in the block's range. -/
theorem mem_blk0_6 (t : Fin cfg0.N) (i : S150000x64.Idx) :
    i ∈ ((cfg0.win 6).blk t).view.set ↔ ∀ a : Fin 2, win0_6.index t a * S3000x64.size a ≤ (i a).val ∧ (i a).val < win0_6.index t a * S3000x64.size a + S3000x64.size a := by
  show i ∈ ((View.whole main_v25_0).slice (win0_6.rect t)).set ↔ _
  rw [View.set_slice_whole, Rect.mem_set_unit]
  exact Iff.rfl

/-- Every row r lies in the block of the point r / 3000: the fifty blocks of 3000 rows tile the 150000 rows. -/
theorem cover0_6 (i : S150000x64.Idx) :
    ∃ t : Fin cfg0.N, (cfg0.win 6).flush t = true ∧ i ∈ ((cfg0.win 6).blk t).view.set := by
  have hi0 : (i 0).val < 150000 := (i 0).isLt
  have hi1 : (i 1).val < 64 := (i 1).isLt
  obtain ⟨t, ht⟩ := idx_onto0 ⟨(i 0).val / 3000, by omega⟩
  obtain ⟨-, -, -, -, -, -, -, -, -, -, -, -, e61, e70, e71, -⟩ := idx_facts0 t
  have q0 : win0_6.index t (0 : Fin 2) = (i 0).val / 3000 := ht
  refine ⟨t, flush0_6 t, ?_⟩
  rw [mem_blk0_6]
  intro a
  match a with
  | ⟨0, _⟩ => show win0_6.index t (0 : Fin 2) * 3000 ≤ (i 0).val ∧ (i 0).val < win0_6.index t (0 : Fin 2) * 3000 + 3000; omega
  | ⟨1, _⟩ => show win0_6.index t (1 : Fin 2) * 64 ≤ (i 1).val ∧ (i 1).val < win0_6.index t (1 : Fin 2) * 64 + 64; omega

/-- An index of the array is in point `t`'s block of output window 7 iff each coordinate is in the block's range. -/
theorem mem_blk0_7 (t : Fin cfg0.N) (i : S150000x64.Idx) :
    i ∈ ((cfg0.win 7).blk t).view.set ↔ ∀ a : Fin 2, win0_7.index t a * S3000x64.size a ≤ (i a).val ∧ (i a).val < win0_7.index t a * S3000x64.size a + S3000x64.size a := by
  show i ∈ ((View.whole main_v25_1).slice (win0_7.rect t)).set ↔ _
  rw [View.set_slice_whole, Rect.mem_set_unit]
  exact Iff.rfl

/-- Every row r lies in the block of the point r / 3000: the fifty blocks of 3000 rows tile the 150000 rows. -/
theorem cover0_7 (i : S150000x64.Idx) :
    ∃ t : Fin cfg0.N, (cfg0.win 7).flush t = true ∧ i ∈ ((cfg0.win 7).blk t).view.set := by
  have hi0 : (i 0).val < 150000 := (i 0).isLt
  have hi1 : (i 1).val < 64 := (i 1).isLt
  obtain ⟨t, ht⟩ := idx_onto0 ⟨(i 0).val / 3000, by omega⟩
  obtain ⟨-, -, -, -, -, -, -, -, -, -, -, -, e61, e70, e71, -⟩ := idx_facts0 t
  have q0 : win0_6.index t (0 : Fin 2) = (i 0).val / 3000 := ht
  refine ⟨t, flush0_7 t, ?_⟩
  rw [mem_blk0_7]
  intro a
  match a with
  | ⟨0, _⟩ => show win0_7.index t (0 : Fin 2) * 3000 ≤ (i 0).val ∧ (i 0).val < win0_7.index t (0 : Fin 2) * 3000 + 3000; omega
  | ⟨1, _⟩ => show win0_7.index t (1 : Fin 2) * 64 ≤ (i 1).val ∧ (i 1).val < win0_7.index t (1 : Fin 2) * 64 + 64; omega

/-! ## The arrays after the region -/

/-- The first output array ends holding the layer's new embedding of the entry arrays. -/
theorem egoArr0 (c : Dev nD) : (dat0 V c).arrAt 6 cfg0.N = (Cert.LayerSpec.ego (V c main_arg3) (V c main_v12) (V c main_v21) (V c main_v22) (V c main_v23) (V c main_v24)) :=
  (dat0 V c).arrAt_eq_of_cover 6 _ (fun t _ => flushed0_6_eq V c t) cover0_6

/-- The second output array ends holding the layer's normalized embedding. -/
theorem nrmArr0 (c : Dev nD) : (dat0 V c).arrAt 7 cfg0.N = Cert.LayerSpec.nrm (Cert.LayerSpec.ego (V c main_arg3) (V c main_v12) (V c main_v21) (V c main_v22) (V c main_v23) (V c main_v24)) :=
  (dat0 V c).arrAt_eq_of_cover 7 _ (fun t _ => flushed0_7_eq V c t) cover0_7

end Cert.KernelIdeal.Agg

end
-- ==== Proof.Pay1.lean ====
/-
  Kernel 1 of the aggregation layer, read at one element.

  The body's first stored block is, at row p and column q, the entry function egoEntry of the embedding block's row p,
  the side block's row p, the two weight matrices' columns q and the two bias rows' entries q; its second stored
  block is, at (p, q), the entry function normEntry of the first block's row p. Both follow from the four pieces
  read at an element (the dense layer, the rectifier, the row norm, the quotient by a repeated column); the casts of
  the input blocks to their own shape are identities.
-/
import proofs.«180967_j19731079758337_1_alg».proof.Proof.Gen.KernelIdeal.Skeleton
import proofs.«180967_j19731079758337_1_alg».proof.Proof.PayCore

noncomputable section

namespace Cert.KernelIdeal.PayIdx

open Idealize.ShloMosaic Idealize.ShloMosaic.ValueIdx
open Cert.EntrySpec
open scoped BigOperators

/-- The first stored block at (p, q): the sum of the two rectified dense layers, of the rows' sum and of the rows'
    entrywise product. -/
theorem pay1_ego_apply (x0 x1 : Vec Ideal S3000x64 .f32) (w1 w2 : Vec Ideal S64x64 .f32)
    (b1 b2 : Vec Ideal S1x64 .f32) (p : Fin 3000) (q : Fin 64) :
    Gen.k1_pay2 (F := Ideal) x0 x1 w1 w2 b1 b2 (ix2 p q)
      = egoEntry (fun k => x0 (ix2 p k)) (fun k => x1 (ix2 p k)) (fun k => w1 (ix2 k q)) (fun k => w2 (ix2 k q))
          (b1 (ix2 (0 : Fin 1) q)) (b2 (ix2 (0 : Fin 1) q)) := by
  unfold Gen.k1_pay2
  rw [shapeCast_self x0, shapeCast_self x1]
  refine (addf_apply _ _ _).trans ?_
  unfold egoEntry
  refine congrArg₂ (· + ·) ?_ ?_
  · refine (leakyVec_apply _ _).trans (congrArg leaky ?_)
    exact dense_apply (addf x0 x1) w1 b1 _ _ _ _ _ p q
  · refine (leakyVec_apply _ _).trans (congrArg leaky ?_)
    exact dense_apply (mulf x0 x1) w2 b2 _ _ _ _ _ p q

/-- The second stored block at (p, q): the first block's element over the larger of the row's norm and the bound. -/
theorem pay1_norm_apply (x0 x1 : Vec Ideal S3000x64 .f32) (w1 w2 : Vec Ideal S64x64 .f32)
    (b1 b2 : Vec Ideal S1x64 .f32) (p : Fin 3000) (q : Fin 64) :
    Gen.k1_pay1 (F := Ideal) (Gen.k1_pay2 x0 x1 w1 w2 b1 b2) (Gen.k1_pay3 x0 x1 w1 w2 b1 b2)
        (Scalar.ofBits (F := Ideal) .f32 0x2B8CBCCC#32) (ix2 p q)
      = normEntry (fun j => Gen.k1_pay2 (F := Ideal) x0 x1 w1 w2 b1 b2 (ix2 p j)) q := by
  unfold Gen.k1_pay1 Gen.k1_pay3
  refine (normVec_apply _ _ _ _ p q).trans ?_
  unfold normEntry
  refine congrArg (Ideal.div _) (congrArg₂ max ?_ rfl)
  exact rowNorm_apply _ _ _ _ _ p 0

end Cert.KernelIdeal.PayIdx

end
-- ==== Proof.AggValue1.lean ====
/-
  What region 1 leaves in its two output arrays, at the ideal instance, as whole-array functions of the arrays it
  reads. Grid point t reads rows 3000·t … 3000·t + 2999 of the embedding and of the side and the whole weight and bias
  arrays, and writes the same rows of both outputs; an entry of the new embedding depends only on its own row of the two
  inputs, and an entry of the normalized embedding only on its own row of the new embedding, so the block a point writes
  back is the restriction to its rows of the layer's whole-array function. The fifty blocks tile the 150000 rows, hence
  the output arrays end holding the layer's functions of the entry arrays.
-/
import proofs.«180967_j19731079758337_1_alg».proof.Proof.AggRegion1
import proofs.«180967_j19731079758337_1_alg».proof.Proof.Pay1
import proofs.«180967_j19731079758337_1_alg».proof.Proof.LayerSpec
import Idealize.ShloMosaic.Lib.Pipeline.Value
import Idealize.ShloMosaic.Lib.ValueIdx

set_option maxRecDepth 16384

noncomputable section

namespace Cert.KernelIdeal.Agg

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided over the grid: the two row-tiled inputs and the two outputs move together along the
    rows (block row index = the point, at most 49), every window sits at column block 0, and the four small operands
    stay at block (0, 0). -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0
    ∧ win1_7.index t (0 : Fin 2) = win1_6.index t (0 : Fin 2) ∧ win1_7.index t (1 : Fin 2) = 0
    ∧ win1_6.index t (0 : Fin 2) ≤ 49 :=
  (by decide +kernel : ∀ t : Fin grid1.N, _)

/-- Every block row of the outputs is some point's. -/
theorem idx_onto1 : ∀ q0 : Fin 50, ∃ t : Fin cfg1.N, win1_6.index t (0 : Fin 2) = q0.val :=
  (by decide +kernel : ∀ q0 : Fin 50, ∃ t : Fin grid1.N, win1_6.index t (0 : Fin 2) = q0.val)

/-! ## The blocks, read where the output's rows say -/

/-- Row p of point t's embedding block is row r = 3000·(block row) + p of the embedding array. -/
theorem rowX1 (c : Dev nD) (t : Fin cfg1.N) (p : Fin 3000) (k : Fin 64) (r : Fin 150000)
    (hr : r.val = win1_6.index t (0 : Fin 2) * 3000 + p.val) :
    iblk1 V c 0 t (ix2 p k) = V c main_v25_0 (ix2 r k) := by
  obtain ⟨e00, e01, -⟩ := idx_facts1 t
  have h : ((cfg1.win 0).blk t).view.emb (ix2 p k) = ix2 r k := by
    funext a; apply Fin.ext
    match a with
    | ⟨0, _⟩ => show win1_0.index t (0 : Fin 2) * 3000 + 1 * p.val = r.val; omega
    | ⟨1, _⟩ => show win1_0.index t (1 : Fin 2) * 64 + 1 * k.val = k.val; omega
  show V c main_v25_0 (((cfg1.win 0).blk t).view.emb (ix2 p k)) = V c main_v25_0 (ix2 r k)
  rw [h]

/-- The same for the side block. -/
theorem rowS1 (c : Dev nD) (t : Fin cfg1.N) (p : Fin 3000) (k : Fin 64) (r : Fin 150000)
    (hr : r.val = win1_6.index t (0 : Fin 2) * 3000 + p.val) :
    iblk1 V c 1 t (ix2 p k) = V c main_v38 (ix2 r k) := by
  obtain ⟨-, -, e10, e11, -⟩ := idx_facts1 t
  have h : ((cfg1.win 1).blk t).view.emb (ix2 p k) = ix2 r k := by
    funext a; apply Fin.ext
    match a with
    | ⟨0, _⟩ => show win1_1.index t (0 : Fin 2) * 3000 + 1 * p.val = r.val; omega
    | ⟨1, _⟩ => show win1_1.index t (1 : Fin 2) * 64 + 1 * k.val = k.val; omega
  show V c main_v38 (((cfg1.win 1).blk t).view.emb (ix2 p k)) = V c main_v38 (ix2 r k)
  rw [h]

/-- The weight block is the whole array at every point. -/
theorem blkW11 (c : Dev nD) (t : Fin cfg1.N) (k : Fin 64) (q : Fin 64) :
    iblk1 V c 2 t (ix2 k q) = V c main_v47 (ix2 k q) := by
  obtain ⟨-, -, -, -, e0, e1, -⟩ := idx_facts1 t
  have h : ((cfg1.win 2).blk t).view.emb (ix2 k q) = ix2 k q := by
    funext a; apply Fin.ext
    match a with
    | ⟨0, _⟩ => show win1_2.index t (0 : Fin 2) * 64 + 1 * k.val = k.val; omega
    | ⟨1, _⟩ => show win1_2.index t (1 : Fin 2) * 64 + 1 * q.val = q.val; omega
  show V c main_v47 (((cfg1.win 2).blk t).view.emb (ix2 k q)) = V c main_v47 (ix2 k q)
  rw [h]

/-- The weight block is the whole array at every point. -/
theorem blkW21 (c : Dev nD) (t : Fin cfg1.N) (k : Fin 64) (q : Fin 64) :
    iblk1 V c 4 t (ix2 k q) = V c main_v48 (ix2 k q) := by
  obtain ⟨-, -, -, -, -, -, -, -, e0, e1, -⟩ := idx_facts1 t
  have h : ((cfg1.win 4).blk t).view.emb (ix2 k q) = ix2 k q := by
    funext a; apply Fin.ext
    match a with
    | ⟨0, _⟩ => show win1_4.index t (0 : Fin 2) * 64 + 1 * k.val = k.val; omega
    | ⟨1, _⟩ => show win1_4.index t (1 : Fin 2) * 64 + 1 * q.val = q.val; omega
  show V c main_v48 (((cfg1.win 4).blk t).view.emb (ix2 k q)) = V c main_v48 (ix2 k q)
  rw [h]

/-- The bias block is the whole array at every point. -/
theorem blkB11 (c : Dev nD) (t : Fin cfg1.N) (z : Fin 1) (q : Fin 64) :
    iblk1 V c 3 t (ix2 z q) = V c main_v49 (ix2 z q) := by
  obtain ⟨-, -, -, -, -, -, e0, e1, -⟩ := idx_facts1 t
  have h : ((cfg1.win 3).blk t).view.emb (ix2 z q) = ix2 z q := by
    funext a; apply Fin.ext
    match a with
    | ⟨0, _⟩ => show win1_3.index t (0 : Fin 2) * 1 + 1 * z.val = z.val; omega
    | ⟨1, _⟩ => show win1_3.index t (1 : Fin 2) * 64 + 1 * q.val = q.val; omega
  show V c main_v49 (((cfg1.win 3).blk t).view.emb (ix2 z q)) = V c main_v49 (ix2 z q)
  rw [h]

/-- The bias block is the whole array at every point. -/
theorem blkB21 (c : Dev nD) (t : Fin cfg1.N) (z : Fin 1) (q : Fin 64) :
    iblk1 V c 5 t (ix2 z q) = V c main_v50 (ix2 z q) := by
  obtain ⟨-, -, -, -, -, -, -, -, -, -, e0, e1, -⟩ := idx_facts1 t
  have h : ((cfg1.win 5).blk t).view.emb (ix2 z q) = ix2 z q := by
    funext a; apply Fin.ext
    match a with
    | ⟨0, _⟩ => show win1_5.index t (0 : Fin 2) * 1 + 1 * z.val = z.val; omega
    | ⟨1, _⟩ => show win1_5.index t (1 : Fin 2) * 64 + 1 * q.val = q.val; omega
  show V c main_v50 (((cfg1.win 5).blk t).view.emb (ix2 z q)) = V c main_v50 (ix2 z q)
  rw [h]

/-! ## One entry of what a point computes -/

/-- Entry (p, q) of the new-embedding rows point t computes is entry (r, q) of the layer's new embedding of the entry
    arrays, r the array row of the block's row p. -/
theorem egoPoint1 (c : Dev nD) (t : Fin cfg1.N) (p : Fin 3000) (q : Fin 64) (r : Fin 150000)
    (hr : r.val = win1_6.index t (0 : Fin 2) * 3000 + p.val) :
    Gen.k1_pay2 (F := Ideal) (iblk1 V c 0 t) (iblk1 V c 1 t) (iblk1 V c 2 t) (iblk1 V c 4 t) (iblk1 V c 3 t) (iblk1 V c 5 t) (ix2 p q) = (Cert.LayerSpec.ego (V c main_v25_0) (V c main_v38) (V c main_v47) (V c main_v48) (V c main_v49) (V c main_v50)) (ix2 r q) := by
  rw [Cert.KernelIdeal.PayIdx.pay1_ego_apply, Cert.LayerSpec.ego_apply]
  rw [show (fun k => iblk1 V c 0 t (ix2 p k)) = (fun k => V c main_v25_0 (ix2 r k)) from funext fun k => rowX1 V c t p k r hr,
    show (fun k => iblk1 V c 1 t (ix2 p k)) = (fun k => V c main_v38 (ix2 r k)) from funext fun k => rowS1 V c t p k r hr,
    show (fun k => iblk1 V c 2 t (ix2 k q)) = (fun k => V c main_v47 (ix2 k q)) from funext fun k => blkW11 V c t k q,
    show (fun k => iblk1 V c 4 t (ix2 k q)) = (fun k => V c main_v48 (ix2 k q)) from funext fun k => blkW21 V c t k q,
    blkB11 V c t 0 q, blkB21 V c t 0 q]

/-! ## What a point writes back -/

/-- Point t writes back, into the first output, block t of the layer's new embedding of the entry arrays. -/
theorem flushed1_6_eq (c : Dev nD) (t : Fin cfg1.N) :
    (dat1 V c).flushed 6 t = ((cfg1.win 6).blk t).view.read (Elt Ideal) (Cert.LayerSpec.ego (V c main_v25_0) (V c main_v38) (V c main_v47) (V c main_v48) (V c main_v49) (V c main_v50)) := by
  show (cfg1.win 6).cut (grid1.coords t) ((dat1 V c).after 6 t) = _
  rw [after1_6]
  unfold out1_6
  rw [View.canon_unit_zero hz1]
  unfold ego1
  simp only [View.ld_unit_zero (S := S3000x64) hz1, View.ld_unit_zero (S := S64x64) hz1, View.ld_unit_zero (S := S1x64) hz1]
  funext y
  obtain ⟨p, q, rfl⟩ : ∃ (p : Fin 3000) (q : Fin 64), y = ix2 p q := ⟨y 0, y 1, eq_ix2 y⟩
  obtain ⟨-, -, -, -, -, -, -, -, -, -, -, -, e61, e70, e71, hle⟩ := idx_facts1 t
  have hp : p.val < 3000 := p.isLt
  obtain ⟨r, hr⟩ : ∃ r : Fin 150000, r.val = win1_6.index t (0 : Fin 2) * 3000 + p.val := ⟨⟨_, by omega⟩, rfl⟩
  have hi : ((cfg1.win 6).blk t).view.emb (ix2 p q) = ix2 r q := by
    funext a; apply Fin.ext
    match a with
    | ⟨0, _⟩ => show win1_6.index t (0 : Fin 2) * 3000 + 1 * p.val = r.val; omega
    | ⟨1, _⟩ => show win1_6.index t (1 : Fin 2) * 64 + 1 * q.val = q.val; omega
  show Gen.k1_pay2 (F := Ideal) (iblk1 V c 0 t) (iblk1 V c 1 t) (iblk1 V c 2 t) (iblk1 V c 4 t) (iblk1 V c 3 t) (iblk1 V c 5 t) (ix2 p q) = (Cert.LayerSpec.ego (V c main_v25_0) (V c main_v38) (V c main_v47) (V c main_v48) (V c main_v49) (V c main_v50)) (((cfg1.win 6).blk t).view.emb (ix2 p q))
  rw [hi]
  exact egoPoint1 V c t p q r hr

/-- Point t writes back, into the second output, block t of the layer's normalized embedding. -/
theorem flushed1_7_eq (c : Dev nD) (t : Fin cfg1.N) :
    (dat1 V c).flushed 7 t = ((cfg1.win 7).blk t).view.read (Elt Ideal) (Cert.LayerSpec.nrm (Cert.LayerSpec.ego (V c main_v25_0) (V c main_v38) (V c main_v47) (V c main_v48) (V c main_v49) (V c main_v50))) := by
  show (cfg1.win 7).cut (grid1.coords t) ((dat1 V c).after 7 t) = _
  rw [after1_7]
  unfold out1_7
  rw [View.canon_unit_zero hz1]
  unfold nrm1 ego1
  simp only [View.ld_unit_zero (S := S3000x64) hz1, View.ld_unit_zero (S := S64x64) hz1, View.ld_unit_zero (S := S1x64) hz1]
  funext y
  obtain ⟨p, q, rfl⟩ : ∃ (p : Fin 3000) (q : Fin 64), y = ix2 p q := ⟨y 0, y 1, eq_ix2 y⟩
  obtain ⟨-, -, -, -, -, -, -, -, -, -, -, -, e61, e70, e71, hle⟩ := idx_facts1 t
  have hp : p.val < 3000 := p.isLt
  obtain ⟨r, hr⟩ : ∃ r : Fin 150000, r.val = win1_6.index t (0 : Fin 2) * 3000 + p.val := ⟨⟨_, by omega⟩, rfl⟩
  have hi : ((cfg1.win 7).blk t).view.emb (ix2 p q) = ix2 r q := by
    funext a; apply Fin.ext
    match a with
    | ⟨0, _⟩ => show win1_7.index t (0 : Fin 2) * 3000 + 1 * p.val = r.val; omega
    | ⟨1, _⟩ => show win1_7.index t (1 : Fin 2) * 64 + 1 * q.val = q.val; omega
  show Gen.k1_pay1 (F := Ideal) (Gen.k1_pay2 (iblk1 V c 0 t) (iblk1 V c 1 t) (iblk1 V c 2 t) (iblk1 V c 4 t) (iblk1 V c 3 t) (iblk1 V c 5 t)) (Gen.k1_pay3 (iblk1 V c 0 t) (iblk1 V c 1 t) (iblk1 V c 2 t) (iblk1 V c 4 t) (iblk1 V c 3 t) (iblk1 V c 5 t)) (Scalar.ofBits (F := Ideal) .f32 0x2B8CBCCC#32) (ix2 p q)
    = Cert.LayerSpec.nrm (Cert.LayerSpec.ego (V c main_v25_0) (V c main_v38) (V c main_v47) (V c main_v48) (V c main_v49) (V c main_v50)) (((cfg1.win 7).blk t).view.emb (ix2 p q))
  rw [hi, Cert.KernelIdeal.PayIdx.pay1_norm_apply, Cert.LayerSpec.nrm_apply]
  refine congrArg (fun e => Cert.EntrySpec.normEntry e q) (funext fun j => ?_)
  exact egoPoint1 V c t p j r hr

/-- An index of the array is in point `t`'s block of output window 6 iff each coordinate is in the block's range. -/
theorem mem_blk1_6 (t : Fin cfg1.N) (i : S150000x64.Idx) :
    i ∈ ((cfg1.win 6).blk t).view.set ↔ ∀ a : Fin 2, win1_6.index t a * S3000x64.size a ≤ (i a).val ∧ (i a).val < win1_6.index t a * S3000x64.size a + S3000x64.size a := by
  show i ∈ ((View.whole main_v51_0).slice (win1_6.rect t)).set ↔ _
  rw [View.set_slice_whole, Rect.mem_set_unit]
  exact Iff.rfl

/-- Every row r lies in the block of the point r / 3000: the fifty blocks of 3000 rows tile the 150000 rows. -/
theorem cover1_6 (i : S150000x64.Idx) :
    ∃ t : Fin cfg1.N, (cfg1.win 6).flush t = true ∧ i ∈ ((cfg1.win 6).blk t).view.set := by
  have hi0 : (i 0).val < 150000 := (i 0).isLt
  have hi1 : (i 1).val < 64 := (i 1).isLt
  obtain ⟨t, ht⟩ := idx_onto1 ⟨(i 0).val / 3000, by omega⟩
  obtain ⟨-, -, -, -, -, -, -, -, -, -, -, -, e61, e70, e71, -⟩ := idx_facts1 t
  have q0 : win1_6.index t (0 : Fin 2) = (i 0).val / 3000 := ht
  refine ⟨t, flush1_6 t, ?_⟩
  rw [mem_blk1_6]
  intro a
  match a with
  | ⟨0, _⟩ => show win1_6.index t (0 : Fin 2) * 3000 ≤ (i 0).val ∧ (i 0).val < win1_6.index t (0 : Fin 2) * 3000 + 3000; omega
  | ⟨1, _⟩ => show win1_6.index t (1 : Fin 2) * 64 ≤ (i 1).val ∧ (i 1).val < win1_6.index t (1 : Fin 2) * 64 + 64; omega

/-- An index of the array is in point `t`'s block of output window 7 iff each coordinate is in the block's range. -/
theorem mem_blk1_7 (t : Fin cfg1.N) (i : S150000x64.Idx) :
    i ∈ ((cfg1.win 7).blk t).view.set ↔ ∀ a : Fin 2, win1_7.index t a * S3000x64.size a ≤ (i a).val ∧ (i a).val < win1_7.index t a * S3000x64.size a + S3000x64.size a := by
  show i ∈ ((View.whole main_v51_1).slice (win1_7.rect t)).set ↔ _
  rw [View.set_slice_whole, Rect.mem_set_unit]
  exact Iff.rfl

/-- Every row r lies in the block of the point r / 3000: the fifty blocks of 3000 rows tile the 150000 rows. -/
theorem cover1_7 (i : S150000x64.Idx) :
    ∃ t : Fin cfg1.N, (cfg1.win 7).flush t = true ∧ i ∈ ((cfg1.win 7).blk t).view.set := by
  have hi0 : (i 0).val < 150000 := (i 0).isLt
  have hi1 : (i 1).val < 64 := (i 1).isLt
  obtain ⟨t, ht⟩ := idx_onto1 ⟨(i 0).val / 3000, by omega⟩
  obtain ⟨-, -, -, -, -, -, -, -, -, -, -, -, e61, e70, e71, -⟩ := idx_facts1 t
  have q0 : win1_6.index t (0 : Fin 2) = (i 0).val / 3000 := ht
  refine ⟨t, flush1_7 t, ?_⟩
  rw [mem_blk1_7]
  intro a
  match a with
  | ⟨0, _⟩ => show win1_7.index t (0 : Fin 2) * 3000 ≤ (i 0).val ∧ (i 0).val < win1_7.index t (0 : Fin 2) * 3000 + 3000; omega
  | ⟨1, _⟩ => show win1_7.index t (1 : Fin 2) * 64 ≤ (i 1).val ∧ (i 1).val < win1_7.index t (1 : Fin 2) * 64 + 64; omega

/-! ## The arrays after the region -/

/-- The first output array ends holding the layer's new embedding of the entry arrays. -/
theorem egoArr1 (c : Dev nD) : (dat1 V c).arrAt 6 cfg1.N = (Cert.LayerSpec.ego (V c main_v25_0) (V c main_v38) (V c main_v47) (V c main_v48) (V c main_v49) (V c main_v50)) :=
  (dat1 V c).arrAt_eq_of_cover 6 _ (fun t _ => flushed1_6_eq V c t) cover1_6

/-- The second output array ends holding the layer's normalized embedding. -/
theorem nrmArr1 (c : Dev nD) : (dat1 V c).arrAt 7 cfg1.N = Cert.LayerSpec.nrm (Cert.LayerSpec.ego (V c main_v25_0) (V c main_v38) (V c main_v47) (V c main_v48) (V c main_v49) (V c main_v50)) :=
  (dat1 V c).arrAt_eq_of_cover 7 _ (fun t _ => flushed1_7_eq V c t) cover1_7

end Cert.KernelIdeal.Agg

end
-- ==== Proof.Pay2.lean ====
/-
  Kernel 2 of the aggregation layer, read at one element.

  The body's first stored block is, at row p and column q, the entry function egoEntry of the embedding block's row p,
  the side block's row p, the two weight matrices' columns q and the two bias rows' entries q; its second stored
  block is, at (p, q), the entry function normEntry of the first block's row p. Both follow from the four pieces
  read at an element (the dense layer, the rectifier, the row norm, the quotient by a repeated column); the casts of
  the input blocks to their own shape are identities.
-/
import proofs.«180967_j19731079758337_1_alg».proof.Proof.Gen.KernelIdeal.Skeleton
import proofs.«180967_j19731079758337_1_alg».proof.Proof.PayCore

noncomputable section

namespace Cert.KernelIdeal.PayIdx

open Idealize.ShloMosaic Idealize.ShloMosaic.ValueIdx
open Cert.EntrySpec
open scoped BigOperators

/-- The first stored block at (p, q): the sum of the two rectified dense layers, of the rows' sum and of the rows'
    entrywise product. -/
theorem pay2_ego_apply (x0 x1 : Vec Ideal S3000x64 .f32) (w1 w2 : Vec Ideal S64x64 .f32)
    (b1 b2 : Vec Ideal S1x64 .f32) (p : Fin 3000) (q : Fin 64) :
    Gen.k2_pay2 (F := Ideal) x0 x1 w1 w2 b1 b2 (ix2 p q)
      = egoEntry (fun k => x0 (ix2 p k)) (fun k => x1 (ix2 p k)) (fun k => w1 (ix2 k q)) (fun k => w2 (ix2 k q))
          (b1 (ix2 (0 : Fin 1) q)) (b2 (ix2 (0 : Fin 1) q)) := by
  unfold Gen.k2_pay2
  rw [shapeCast_self x0, shapeCast_self x1]
  refine (addf_apply _ _ _).trans ?_
  unfold egoEntry
  refine congrArg₂ (· + ·) ?_ ?_
  · refine (leakyVec_apply _ _).trans (congrArg leaky ?_)
    exact dense_apply (addf x0 x1) w1 b1 _ _ _ _ _ p q
  · refine (leakyVec_apply _ _).trans (congrArg leaky ?_)
    exact dense_apply (mulf x0 x1) w2 b2 _ _ _ _ _ p q

/-- The second stored block at (p, q): the first block's element over the larger of the row's norm and the bound. -/
theorem pay2_norm_apply (x0 x1 : Vec Ideal S3000x64 .f32) (w1 w2 : Vec Ideal S64x64 .f32)
    (b1 b2 : Vec Ideal S1x64 .f32) (p : Fin 3000) (q : Fin 64) :
    Gen.k2_pay1 (F := Ideal) (Gen.k2_pay2 x0 x1 w1 w2 b1 b2) (Gen.k2_pay3 x0 x1 w1 w2 b1 b2)
        (Scalar.ofBits (F := Ideal) .f32 0x2B8CBCCC#32) (ix2 p q)
      = normEntry (fun j => Gen.k2_pay2 (F := Ideal) x0 x1 w1 w2 b1 b2 (ix2 p j)) q := by
  unfold Gen.k2_pay1 Gen.k2_pay3
  refine (normVec_apply _ _ _ _ p q).trans ?_
  unfold normEntry
  refine congrArg (Ideal.div _) (congrArg₂ max ?_ rfl)
  exact rowNorm_apply _ _ _ _ _ p 0

end Cert.KernelIdeal.PayIdx

end
-- ==== Proof.AggValue2.lean ====
/-
  What region 2 leaves in its two output arrays, at the ideal instance, as whole-array functions of the arrays it
  reads. Grid point t reads rows 3000·t … 3000·t + 2999 of the embedding and of the side and the whole weight and bias
  arrays, and writes the same rows of both outputs; an entry of the new embedding depends only on its own row of the two
  inputs, and an entry of the normalized embedding only on its own row of the new embedding, so the block a point writes
  back is the restriction to its rows of the layer's whole-array function. The fifty blocks tile the 150000 rows, hence
  the output arrays end holding the layer's functions of the entry arrays.
-/
import proofs.«180967_j19731079758337_1_alg».proof.Proof.AggRegion2
import proofs.«180967_j19731079758337_1_alg».proof.Proof.Pay2
import proofs.«180967_j19731079758337_1_alg».proof.Proof.LayerSpec
import Idealize.ShloMosaic.Lib.Pipeline.Value
import Idealize.ShloMosaic.Lib.ValueIdx

set_option maxRecDepth 16384

noncomputable section

namespace Cert.KernelIdeal.Agg

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: the two row-tiled inputs and the two outputs move together along the
    rows (block row index = the point, at most 49), every window sits at column block 0, and the four small operands
    stay at block (0, 0). -/
theorem idx_facts2 : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0
    ∧ win2_7.index t (0 : Fin 2) = win2_6.index t (0 : Fin 2) ∧ win2_7.index t (1 : Fin 2) = 0
    ∧ win2_6.index t (0 : Fin 2) ≤ 49 :=
  (by decide +kernel : ∀ t : Fin grid2.N, _)

/-- Every block row of the outputs is some point's. -/
theorem idx_onto2 : ∀ q0 : Fin 50, ∃ t : Fin cfg2.N, win2_6.index t (0 : Fin 2) = q0.val :=
  (by decide +kernel : ∀ q0 : Fin 50, ∃ t : Fin grid2.N, win2_6.index t (0 : Fin 2) = q0.val)

/-! ## The blocks, read where the output's rows say -/

/-- Row p of point t's embedding block is row r = 3000·(block row) + p of the embedding array. -/
theorem rowX2 (c : Dev nD) (t : Fin cfg2.N) (p : Fin 3000) (k : Fin 64) (r : Fin 150000)
    (hr : r.val = win2_6.index t (0 : Fin 2) * 3000 + p.val) :
    iblk2 V c 0 t (ix2 p k) = V c main_v51_0 (ix2 r k) := by
  obtain ⟨e00, e01, -⟩ := idx_facts2 t
  have h : ((cfg2.win 0).blk t).view.emb (ix2 p k) = ix2 r k := by
    funext a; apply Fin.ext
    match a with
    | ⟨0, _⟩ => show win2_0.index t (0 : Fin 2) * 3000 + 1 * p.val = r.val; omega
    | ⟨1, _⟩ => show win2_0.index t (1 : Fin 2) * 64 + 1 * k.val = k.val; omega
  show V c main_v51_0 (((cfg2.win 0).blk t).view.emb (ix2 p k)) = V c main_v51_0 (ix2 r k)
  rw [h]

/-- The same for the side block. -/
theorem rowS2 (c : Dev nD) (t : Fin cfg2.N) (p : Fin 3000) (k : Fin 64) (r : Fin 150000)
    (hr : r.val = win2_6.index t (0 : Fin 2) * 3000 + p.val) :
    iblk2 V c 1 t (ix2 p k) = V c main_v64 (ix2 r k) := by
  obtain ⟨-, -, e10, e11, -⟩ := idx_facts2 t
  have h : ((cfg2.win 1).blk t).view.emb (ix2 p k) = ix2 r k := by
    funext a; apply Fin.ext
    match a with
    | ⟨0, _⟩ => show win2_1.index t (0 : Fin 2) * 3000 + 1 * p.val = r.val; omega
    | ⟨1, _⟩ => show win2_1.index t (1 : Fin 2) * 64 + 1 * k.val = k.val; omega
  show V c main_v64 (((cfg2.win 1).blk t).view.emb (ix2 p k)) = V c main_v64 (ix2 r k)
  rw [h]

/-- The weight block is the whole array at every point. -/
theorem blkW12 (c : Dev nD) (t : Fin cfg2.N) (k : Fin 64) (q : Fin 64) :
    iblk2 V c 2 t (ix2 k q) = V c main_v73 (ix2 k q) := by
  obtain ⟨-, -, -, -, e0, e1, -⟩ := idx_facts2 t
  have h : ((cfg2.win 2).blk t).view.emb (ix2 k q) = ix2 k q := by
    funext a; apply Fin.ext
    match a with
    | ⟨0, _⟩ => show win2_2.index t (0 : Fin 2) * 64 + 1 * k.val = k.val; omega
    | ⟨1, _⟩ => show win2_2.index t (1 : Fin 2) * 64 + 1 * q.val = q.val; omega
  show V c main_v73 (((cfg2.win 2).blk t).view.emb (ix2 k q)) = V c main_v73 (ix2 k q)
  rw [h]

/-- The weight block is the whole array at every point. -/
theorem blkW22 (c : Dev nD) (t : Fin cfg2.N) (k : Fin 64) (q : Fin 64) :
    iblk2 V c 4 t (ix2 k q) = V c main_v74 (ix2 k q) := by
  obtain ⟨-, -, -, -, -, -, -, -, e0, e1, -⟩ := idx_facts2 t
  have h : ((cfg2.win 4).blk t).view.emb (ix2 k q) = ix2 k q := by
    funext a; apply Fin.ext
    match a with
    | ⟨0, _⟩ => show win2_4.index t (0 : Fin 2) * 64 + 1 * k.val = k.val; omega
    | ⟨1, _⟩ => show win2_4.index t (1 : Fin 2) * 64 + 1 * q.val = q.val; omega
  show V c main_v74 (((cfg2.win 4).blk t).view.emb (ix2 k q)) = V c main_v74 (ix2 k q)
  rw [h]

/-- The bias block is the whole array at every point. -/
theorem blkB12 (c : Dev nD) (t : Fin cfg2.N) (z : Fin 1) (q : Fin 64) :
    iblk2 V c 3 t (ix2 z q) = V c main_v75 (ix2 z q) := by
  obtain ⟨-, -, -, -, -, -, e0, e1, -⟩ := idx_facts2 t
  have h : ((cfg2.win 3).blk t).view.emb (ix2 z q) = ix2 z q := by
    funext a; apply Fin.ext
    match a with
    | ⟨0, _⟩ => show win2_3.index t (0 : Fin 2) * 1 + 1 * z.val = z.val; omega
    | ⟨1, _⟩ => show win2_3.index t (1 : Fin 2) * 64 + 1 * q.val = q.val; omega
  show V c main_v75 (((cfg2.win 3).blk t).view.emb (ix2 z q)) = V c main_v75 (ix2 z q)
  rw [h]

/-- The bias block is the whole array at every point. -/
theorem blkB22 (c : Dev nD) (t : Fin cfg2.N) (z : Fin 1) (q : Fin 64) :
    iblk2 V c 5 t (ix2 z q) = V c main_v76 (ix2 z q) := by
  obtain ⟨-, -, -, -, -, -, -, -, -, -, e0, e1, -⟩ := idx_facts2 t
  have h : ((cfg2.win 5).blk t).view.emb (ix2 z q) = ix2 z q := by
    funext a; apply Fin.ext
    match a with
    | ⟨0, _⟩ => show win2_5.index t (0 : Fin 2) * 1 + 1 * z.val = z.val; omega
    | ⟨1, _⟩ => show win2_5.index t (1 : Fin 2) * 64 + 1 * q.val = q.val; omega
  show V c main_v76 (((cfg2.win 5).blk t).view.emb (ix2 z q)) = V c main_v76 (ix2 z q)
  rw [h]

/-! ## One entry of what a point computes -/

/-- Entry (p, q) of the new-embedding rows point t computes is entry (r, q) of the layer's new embedding of the entry
    arrays, r the array row of the block's row p. -/
theorem egoPoint2 (c : Dev nD) (t : Fin cfg2.N) (p : Fin 3000) (q : Fin 64) (r : Fin 150000)
    (hr : r.val = win2_6.index t (0 : Fin 2) * 3000 + p.val) :
    Gen.k2_pay2 (F := Ideal) (iblk2 V c 0 t) (iblk2 V c 1 t) (iblk2 V c 2 t) (iblk2 V c 4 t) (iblk2 V c 3 t) (iblk2 V c 5 t) (ix2 p q) = (Cert.LayerSpec.ego (V c main_v51_0) (V c main_v64) (V c main_v73) (V c main_v74) (V c main_v75) (V c main_v76)) (ix2 r q) := by
  rw [Cert.KernelIdeal.PayIdx.pay2_ego_apply, Cert.LayerSpec.ego_apply]
  rw [show (fun k => iblk2 V c 0 t (ix2 p k)) = (fun k => V c main_v51_0 (ix2 r k)) from funext fun k => rowX2 V c t p k r hr,
    show (fun k => iblk2 V c 1 t (ix2 p k)) = (fun k => V c main_v64 (ix2 r k)) from funext fun k => rowS2 V c t p k r hr,
    show (fun k => iblk2 V c 2 t (ix2 k q)) = (fun k => V c main_v73 (ix2 k q)) from funext fun k => blkW12 V c t k q,
    show (fun k => iblk2 V c 4 t (ix2 k q)) = (fun k => V c main_v74 (ix2 k q)) from funext fun k => blkW22 V c t k q,
    blkB12 V c t 0 q, blkB22 V c t 0 q]

/-! ## What a point writes back -/

/-- Point t writes back, into the first output, block t of the layer's new embedding of the entry arrays. -/
theorem flushed2_6_eq (c : Dev nD) (t : Fin cfg2.N) :
    (dat2 V c).flushed 6 t = ((cfg2.win 6).blk t).view.read (Elt Ideal) (Cert.LayerSpec.ego (V c main_v51_0) (V c main_v64) (V c main_v73) (V c main_v74) (V c main_v75) (V c main_v76)) := by
  show (cfg2.win 6).cut (grid2.coords t) ((dat2 V c).after 6 t) = _
  rw [after2_6]
  unfold out2_6
  rw [View.canon_unit_zero hz2]
  unfold ego2
  simp only [View.ld_unit_zero (S := S3000x64) hz2, View.ld_unit_zero (S := S64x64) hz2, View.ld_unit_zero (S := S1x64) hz2]
  funext y
  obtain ⟨p, q, rfl⟩ : ∃ (p : Fin 3000) (q : Fin 64), y = ix2 p q := ⟨y 0, y 1, eq_ix2 y⟩
  obtain ⟨-, -, -, -, -, -, -, -, -, -, -, -, e61, e70, e71, hle⟩ := idx_facts2 t
  have hp : p.val < 3000 := p.isLt
  obtain ⟨r, hr⟩ : ∃ r : Fin 150000, r.val = win2_6.index t (0 : Fin 2) * 3000 + p.val := ⟨⟨_, by omega⟩, rfl⟩
  have hi : ((cfg2.win 6).blk t).view.emb (ix2 p q) = ix2 r q := by
    funext a; apply Fin.ext
    match a with
    | ⟨0, _⟩ => show win2_6.index t (0 : Fin 2) * 3000 + 1 * p.val = r.val; omega
    | ⟨1, _⟩ => show win2_6.index t (1 : Fin 2) * 64 + 1 * q.val = q.val; omega
  show Gen.k2_pay2 (F := Ideal) (iblk2 V c 0 t) (iblk2 V c 1 t) (iblk2 V c 2 t) (iblk2 V c 4 t) (iblk2 V c 3 t) (iblk2 V c 5 t) (ix2 p q) = (Cert.LayerSpec.ego (V c main_v51_0) (V c main_v64) (V c main_v73) (V c main_v74) (V c main_v75) (V c main_v76)) (((cfg2.win 6).blk t).view.emb (ix2 p q))
  rw [hi]
  exact egoPoint2 V c t p q r hr

/-- Point t writes back, into the second output, block t of the layer's normalized embedding. -/
theorem flushed2_7_eq (c : Dev nD) (t : Fin cfg2.N) :
    (dat2 V c).flushed 7 t = ((cfg2.win 7).blk t).view.read (Elt Ideal) (Cert.LayerSpec.nrm (Cert.LayerSpec.ego (V c main_v51_0) (V c main_v64) (V c main_v73) (V c main_v74) (V c main_v75) (V c main_v76))) := by
  show (cfg2.win 7).cut (grid2.coords t) ((dat2 V c).after 7 t) = _
  rw [after2_7]
  unfold out2_7
  rw [View.canon_unit_zero hz2]
  unfold nrm2 ego2
  simp only [View.ld_unit_zero (S := S3000x64) hz2, View.ld_unit_zero (S := S64x64) hz2, View.ld_unit_zero (S := S1x64) hz2]
  funext y
  obtain ⟨p, q, rfl⟩ : ∃ (p : Fin 3000) (q : Fin 64), y = ix2 p q := ⟨y 0, y 1, eq_ix2 y⟩
  obtain ⟨-, -, -, -, -, -, -, -, -, -, -, -, e61, e70, e71, hle⟩ := idx_facts2 t
  have hp : p.val < 3000 := p.isLt
  obtain ⟨r, hr⟩ : ∃ r : Fin 150000, r.val = win2_6.index t (0 : Fin 2) * 3000 + p.val := ⟨⟨_, by omega⟩, rfl⟩
  have hi : ((cfg2.win 7).blk t).view.emb (ix2 p q) = ix2 r q := by
    funext a; apply Fin.ext
    match a with
    | ⟨0, _⟩ => show win2_7.index t (0 : Fin 2) * 3000 + 1 * p.val = r.val; omega
    | ⟨1, _⟩ => show win2_7.index t (1 : Fin 2) * 64 + 1 * q.val = q.val; omega
  show Gen.k2_pay1 (F := Ideal) (Gen.k2_pay2 (iblk2 V c 0 t) (iblk2 V c 1 t) (iblk2 V c 2 t) (iblk2 V c 4 t) (iblk2 V c 3 t) (iblk2 V c 5 t)) (Gen.k2_pay3 (iblk2 V c 0 t) (iblk2 V c 1 t) (iblk2 V c 2 t) (iblk2 V c 4 t) (iblk2 V c 3 t) (iblk2 V c 5 t)) (Scalar.ofBits (F := Ideal) .f32 0x2B8CBCCC#32) (ix2 p q)
    = Cert.LayerSpec.nrm (Cert.LayerSpec.ego (V c main_v51_0) (V c main_v64) (V c main_v73) (V c main_v74) (V c main_v75) (V c main_v76)) (((cfg2.win 7).blk t).view.emb (ix2 p q))
  rw [hi, Cert.KernelIdeal.PayIdx.pay2_norm_apply, Cert.LayerSpec.nrm_apply]
  refine congrArg (fun e => Cert.EntrySpec.normEntry e q) (funext fun j => ?_)
  exact egoPoint2 V c t p j r hr

/-- An index of the array is in point `t`'s block of output window 6 iff each coordinate is in the block's range. -/
theorem mem_blk2_6 (t : Fin cfg2.N) (i : S150000x64.Idx) :
    i ∈ ((cfg2.win 6).blk t).view.set ↔ ∀ a : Fin 2, win2_6.index t a * S3000x64.size a ≤ (i a).val ∧ (i a).val < win2_6.index t a * S3000x64.size a + S3000x64.size a := by
  show i ∈ ((View.whole main_v77_0).slice (win2_6.rect t)).set ↔ _
  rw [View.set_slice_whole, Rect.mem_set_unit]
  exact Iff.rfl

/-- Every row r lies in the block of the point r / 3000: the fifty blocks of 3000 rows tile the 150000 rows. -/
theorem cover2_6 (i : S150000x64.Idx) :
    ∃ t : Fin cfg2.N, (cfg2.win 6).flush t = true ∧ i ∈ ((cfg2.win 6).blk t).view.set := by
  have hi0 : (i 0).val < 150000 := (i 0).isLt
  have hi1 : (i 1).val < 64 := (i 1).isLt
  obtain ⟨t, ht⟩ := idx_onto2 ⟨(i 0).val / 3000, by omega⟩
  obtain ⟨-, -, -, -, -, -, -, -, -, -, -, -, e61, e70, e71, -⟩ := idx_facts2 t
  have q0 : win2_6.index t (0 : Fin 2) = (i 0).val / 3000 := ht
  refine ⟨t, flush2_6 t, ?_⟩
  rw [mem_blk2_6]
  intro a
  match a with
  | ⟨0, _⟩ => show win2_6.index t (0 : Fin 2) * 3000 ≤ (i 0).val ∧ (i 0).val < win2_6.index t (0 : Fin 2) * 3000 + 3000; omega
  | ⟨1, _⟩ => show win2_6.index t (1 : Fin 2) * 64 ≤ (i 1).val ∧ (i 1).val < win2_6.index t (1 : Fin 2) * 64 + 64; omega

/-- An index of the array is in point `t`'s block of output window 7 iff each coordinate is in the block's range. -/
theorem mem_blk2_7 (t : Fin cfg2.N) (i : S150000x64.Idx) :
    i ∈ ((cfg2.win 7).blk t).view.set ↔ ∀ a : Fin 2, win2_7.index t a * S3000x64.size a ≤ (i a).val ∧ (i a).val < win2_7.index t a * S3000x64.size a + S3000x64.size a := by
  show i ∈ ((View.whole main_v77_1).slice (win2_7.rect t)).set ↔ _
  rw [View.set_slice_whole, Rect.mem_set_unit]
  exact Iff.rfl

/-- Every row r lies in the block of the point r / 3000: the fifty blocks of 3000 rows tile the 150000 rows. -/
theorem cover2_7 (i : S150000x64.Idx) :
    ∃ t : Fin cfg2.N, (cfg2.win 7).flush t = true ∧ i ∈ ((cfg2.win 7).blk t).view.set := by
  have hi0 : (i 0).val < 150000 := (i 0).isLt
  have hi1 : (i 1).val < 64 := (i 1).isLt
  obtain ⟨t, ht⟩ := idx_onto2 ⟨(i 0).val / 3000, by omega⟩
  obtain ⟨-, -, -, -, -, -, -, -, -, -, -, -, e61, e70, e71, -⟩ := idx_facts2 t
  have q0 : win2_6.index t (0 : Fin 2) = (i 0).val / 3000 := ht
  refine ⟨t, flush2_7 t, ?_⟩
  rw [mem_blk2_7]
  intro a
  match a with
  | ⟨0, _⟩ => show win2_7.index t (0 : Fin 2) * 3000 ≤ (i 0).val ∧ (i 0).val < win2_7.index t (0 : Fin 2) * 3000 + 3000; omega
  | ⟨1, _⟩ => show win2_7.index t (1 : Fin 2) * 64 ≤ (i 1).val ∧ (i 1).val < win2_7.index t (1 : Fin 2) * 64 + 64; omega

/-! ## The arrays after the region -/

/-- The first output array ends holding the layer's new embedding of the entry arrays. -/
theorem egoArr2 (c : Dev nD) : (dat2 V c).arrAt 6 cfg2.N = (Cert.LayerSpec.ego (V c main_v51_0) (V c main_v64) (V c main_v73) (V c main_v74) (V c main_v75) (V c main_v76)) :=
  (dat2 V c).arrAt_eq_of_cover 6 _ (fun t _ => flushed2_6_eq V c t) cover2_6

/-- The second output array ends holding the layer's normalized embedding. -/
theorem nrmArr2 (c : Dev nD) : (dat2 V c).arrAt 7 cfg2.N = Cert.LayerSpec.nrm (Cert.LayerSpec.ego (V c main_v51_0) (V c main_v64) (V c main_v73) (V c main_v74) (V c main_v75) (V c main_v76)) :=
  (dat2 V c).arrAt_eq_of_cover 7 _ (fun t _ => flushed2_7_eq V c t) cover2_7

end Cert.KernelIdeal.Agg

end
-- ==== Proof.AggChain.lean ====
/-
  The idealized program's two results as functions of its eight arguments. Reading the boundaries in order: before
  layer k the host computes the neighbourhood sum of the current embedding and lays out layer k's weights and biases; the
  region leaves the layer's new embedding and its normalization (the layer's whole-array functions of those entry
  arrays); the new embedding is the next layer's current one. After three layers the last stretch lays the launch
  embedding and the three normalized embeddings side by side and cuts the two row ranges. So the results are
      users / entities (x₀, nrm e₁, nrm e₂, nrm e₃),  eₖ = ego(eₖ₋₁, side(eₖ₋₁), layer k's weights and biases),  e₀ = x₀.
-/
import proofs.«180967_j19731079758337_1_alg».proof.Proof.AggRun
import proofs.«180967_j19731079758337_1_alg».proof.Proof.AggHost
import proofs.«180967_j19731079758337_1_alg».proof.Proof.AggValue0
import proofs.«180967_j19731079758337_1_alg».proof.Proof.AggValue1
import proofs.«180967_j19731079758337_1_alg».proof.Proof.AggValue2

set_option maxRecDepth 16384

noncomputable section

namespace Cert.KernelIdeal.Agg

open Cert.KernelIdeal Cert.KernelIdeal.Gen
open Idealize.ShloMosaic Idealize.ShloMosaic.TcCoe Idealize.ShloMosaic.StableHlo
open Idealize.SL.Sem
open Idealize.ShloMosaic.Pipeline (Dat)

/-! ## The three embeddings as functions of the arguments -/

/-- The embedding after the first layer. -/
def emb1 (a0 a1 : (⟨S2400000, .i32⟩ : BufTy).Contents (Elt Ideal)) (a2 : (⟨S2400000, .f32⟩ : BufTy).Contents (Elt Ideal)) (a3 : (⟨S150000x64, .f32⟩ : BufTy).Contents (Elt Ideal)) (a4 : (⟨S3x64x64, .f32⟩ : BufTy).Contents (Elt Ideal)) (a5 : (⟨S3x64, .f32⟩ : BufTy).Contents (Elt Ideal)) (a6 : (⟨S3x64x64, .f32⟩ : BufTy).Contents (Elt Ideal)) (a7 : (⟨S3x64, .f32⟩ : BufTy).Contents (Elt Ideal)) : Cert.LayerSpec.Mat 150000 64 :=
  Cert.LayerSpec.ego a3 (side (F := Ideal) a0 a1 a2 a3) (wT (F := Ideal) (extractStridedSlice S1x64x64 ![0, 0, 0] a4 slices_S3x64x64_S1x64x64_0_0_0)) (wT (F := Ideal) (extractStridedSlice S1x64x64 ![0, 0, 0] a6 slices_S3x64x64_S1x64x64_0_0_0)) (bRow (F := Ideal) (extractStridedSlice S1x64 ![0, 0] a5 slices_S3x64_S1x64_0_0)) (bRow (F := Ideal) (extractStridedSlice S1x64 ![0, 0] a7 slices_S3x64_S1x64_0_0))
/-- The embedding after the second layer. -/
def emb2 (a0 a1 : (⟨S2400000, .i32⟩ : BufTy).Contents (Elt Ideal)) (a2 : (⟨S2400000, .f32⟩ : BufTy).Contents (Elt Ideal)) (a3 : (⟨S150000x64, .f32⟩ : BufTy).Contents (Elt Ideal)) (a4 : (⟨S3x64x64, .f32⟩ : BufTy).Contents (Elt Ideal)) (a5 : (⟨S3x64, .f32⟩ : BufTy).Contents (Elt Ideal)) (a6 : (⟨S3x64x64, .f32⟩ : BufTy).Contents (Elt Ideal)) (a7 : (⟨S3x64, .f32⟩ : BufTy).Contents (Elt Ideal)) : Cert.LayerSpec.Mat 150000 64 :=
  Cert.LayerSpec.ego (emb1 a0 a1 a2 a3 a4 a5 a6 a7) (side (F := Ideal) a0 a1 a2 (emb1 a0 a1 a2 a3 a4 a5 a6 a7)) (wT (F := Ideal) (extractStridedSlice S1x64x64 ![1, 0, 0] a4 slices_S3x64x64_S1x64x64_1_0_0)) (wT (F := Ideal) (extractStridedSlice S1x64x64 ![1, 0, 0] a6 slices_S3x64x64_S1x64x64_1_0_0)) (bRow (F := Ideal) (extractStridedSlice S1x64 ![1, 0] a5 slices_S3x64_S1x64_1_0)) (bRow (F := Ideal) (extractStridedSlice S1x64 ![1, 0] a7 slices_S3x64_S1x64_1_0))
/-- The embedding after the third layer. -/
def emb3 (a0 a1 : (⟨S2400000, .i32⟩ : BufTy).Contents (Elt Ideal)) (a2 : (⟨S2400000, .f32⟩ : BufTy).Contents (Elt Ideal)) (a3 : (⟨S150000x64, .f32⟩ : BufTy).Contents (Elt Ideal)) (a4 : (⟨S3x64x64, .f32⟩ : BufTy).Contents (Elt Ideal)) (a5 : (⟨S3x64, .f32⟩ : BufTy).Contents (Elt Ideal)) (a6 : (⟨S3x64x64, .f32⟩ : BufTy).Contents (Elt Ideal)) (a7 : (⟨S3x64, .f32⟩ : BufTy).Contents (Elt Ideal)) : Cert.LayerSpec.Mat 150000 64 :=
  Cert.LayerSpec.ego (emb2 a0 a1 a2 a3 a4 a5 a6 a7) (side (F := Ideal) a0 a1 a2 (emb2 a0 a1 a2 a3 a4 a5 a6 a7)) (wT (F := Ideal) (extractStridedSlice S1x64x64 ![2, 0, 0] a4 slices_S3x64x64_S1x64x64_2_0_0)) (wT (F := Ideal) (extractStridedSlice S1x64x64 ![2, 0, 0] a6 slices_S3x64x64_S1x64x64_2_0_0)) (bRow (F := Ideal) (extractStridedSlice S1x64 ![2, 0] a5 slices_S3x64_S1x64_2_0)) (bRow (F := Ideal) (extractStridedSlice S1x64 ![2, 0] a7 slices_S3x64_S1x64_2_0))

variable (m : (ℓ : Loc nD τ sig) → Buf (Elt Ideal) ℓ) (ρ : Dev nD → PrngReg)

/-! ## The arguments at every boundary -/

theorem W0_arg3 (c : Dev nD) : W0 m ρ c (Proc.devRef .tc main_arg3) = m ((c : Thread nD τ).loc main_arg3) := rfl
theorem W0_arg0 (c : Dev nD) : W0 m ρ c (Proc.devRef .tc main_arg0) = m ((c : Thread nD τ).loc main_arg0) := rfl
theorem W0_arg1 (c : Dev nD) : W0 m ρ c (Proc.devRef .tc main_arg1) = m ((c : Thread nD τ).loc main_arg1) := rfl
theorem W0_arg2 (c : Dev nD) : W0 m ρ c (Proc.devRef .tc main_arg2) = m ((c : Thread nD τ).loc main_arg2) := rfl
theorem W0_arg4 (c : Dev nD) : W0 m ρ c (Proc.devRef .tc main_arg4) = m ((c : Thread nD τ).loc main_arg4) := rfl
theorem W0_arg5 (c : Dev nD) : W0 m ρ c (Proc.devRef .tc main_arg5) = m ((c : Thread nD τ).loc main_arg5) := rfl
theorem W0_arg6 (c : Dev nD) : W0 m ρ c (Proc.devRef .tc main_arg6) = m ((c : Thread nD τ).loc main_arg6) := rfl
theorem W0_arg7 (c : Dev nD) : W0 m ρ c (Proc.devRef .tc main_arg7) = m ((c : Thread nD τ).loc main_arg7) := rfl
theorem W1_arg0 (c : Dev nD) : W1 m ρ c (Proc.devRef .tc main_arg0) = m ((c : Thread nD τ).loc main_arg0) :=
  (StableHlo.after_of_writes_sub hostOps0 _ hostOps0_writes (r := main_arg0) (by decide)).trans (rfl)
theorem W1_arg1 (c : Dev nD) : W1 m ρ c (Proc.devRef .tc main_arg1) = m ((c : Thread nD τ).loc main_arg1) :=
  (StableHlo.after_of_writes_sub hostOps0 _ hostOps0_writes (r := main_arg1) (by decide)).trans (rfl)
theorem W1_arg2 (c : Dev nD) : W1 m ρ c (Proc.devRef .tc main_arg2) = m ((c : Thread nD τ).loc main_arg2) :=
  (StableHlo.after_of_writes_sub hostOps0 _ hostOps0_writes (r := main_arg2) (by decide)).trans (rfl)
theorem W1_arg3 (c : Dev nD) : W1 m ρ c (Proc.devRef .tc main_arg3) = m ((c : Thread nD τ).loc main_arg3) :=
  (StableHlo.after_of_writes_sub hostOps0 _ hostOps0_writes (r := main_arg3) (by decide)).trans (rfl)
theorem W1_arg4 (c : Dev nD) : W1 m ρ c (Proc.devRef .tc main_arg4) = m ((c : Thread nD τ).loc main_arg4) :=
  (StableHlo.after_of_writes_sub hostOps0 _ hostOps0_writes (r := main_arg4) (by decide)).trans (rfl)
theorem W1_arg5 (c : Dev nD) : W1 m ρ c (Proc.devRef .tc main_arg5) = m ((c : Thread nD τ).loc main_arg5) :=
  (StableHlo.after_of_writes_sub hostOps0 _ hostOps0_writes (r := main_arg5) (by decide)).trans (rfl)
theorem W1_arg6 (c : Dev nD) : W1 m ρ c (Proc.devRef .tc main_arg6) = m ((c : Thread nD τ).loc main_arg6) :=
  (StableHlo.after_of_writes_sub hostOps0 _ hostOps0_writes (r := main_arg6) (by decide)).trans (rfl)
theorem W1_arg7 (c : Dev nD) : W1 m ρ c (Proc.devRef .tc main_arg7) = m ((c : Thread nD τ).loc main_arg7) :=
  (StableHlo.after_of_writes_sub hostOps0 _ hostOps0_writes (r := main_arg7) (by decide)).trans (rfl)
theorem W2_arg0 (c : Dev nD) : W2 m ρ c (Proc.devRef .tc main_arg0) = m ((c : Thread nD τ).loc main_arg0) :=
  (W2_of_ne m ρ c main_arg0 (by decide)).trans (W1_arg0 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  ((W2_arr m ρ c 0).trans (((dat0 (V1 m ρ) c).arrAt_in 0 rfl _).trans (A_eq0 (V1 m ρ) c 0))).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W3_arg0 (c : Dev nD) : W3 m ρ c (Proc.devRef .tc main_arg0) = m ((c : Thread nD τ).loc main_arg0) :=
  (StableHlo.after_of_writes_sub hostOps1 _ hostOps1_writes (r := main_arg0) (by decide)).trans (W2_arg0 m ρ c)
theorem W3_arg1 (c : Dev nD) : W3 m ρ c (Proc.devRef .tc main_arg1) = m ((c : Thread nD τ).loc main_arg1) :=
  (StableHlo.after_of_writes_sub hostOps1 _ hostOps1_writes (r := main_arg1) (by decide)).trans (W2_arg1 m ρ c)
theorem W3_arg2 (c : Dev nD) : W3 m ρ c (Proc.devRef .tc main_arg2) = m ((c : Thread nD τ).loc main_arg2) :=
  (StableHlo.after_of_writes_sub hostOps1 _ hostOps1_writes (r := main_arg2) (by decide)).trans (W2_arg2 m ρ c)
theorem W3_arg3 (c : Dev nD) : W3 m ρ c (Proc.devRef .tc main_arg3) = m ((c : Thread nD τ).loc main_arg3) :=
  (StableHlo.after_of_writes_sub hostOps1 _ hostOps1_writes (r := main_arg3) (by decide)).trans (W2_arg3 m ρ c)
theorem W3_arg4 (c : Dev nD) : W3 m ρ c (Proc.devRef .tc main_arg4) = m ((c : Thread nD τ).loc main_arg4) :=
  (StableHlo.after_of_writes_sub hostOps1 _ hostOps1_writes (r := main_arg4) (by decide)).trans (W2_arg4 m ρ c)
theorem W3_arg5 (c : Dev nD) : W3 m ρ c (Proc.devRef .tc main_arg5) = m ((c : Thread nD τ).loc main_arg5) :=
  (StableHlo.after_of_writes_sub hostOps1 _ hostOps1_writes (r := main_arg5) (by decide)).trans (W2_arg5 m ρ c)
theorem W3_arg6 (c : Dev nD) : W3 m ρ c (Proc.devRef .tc main_arg6) = m ((c : Thread nD τ).loc main_arg6) :=
  (StableHlo.after_of_writes_sub hostOps1 _ hostOps1_writes (r := main_arg6) (by decide)).trans (W2_arg6 m ρ c)
theorem W3_arg7 (c : Dev nD) : W3 m ρ c (Proc.devRef .tc main_arg7) = m ((c : Thread nD τ).loc main_arg7) :=
  (StableHlo.after_of_writes_sub hostOps1 _ hostOps1_writes (r := main_arg7) (by decide)).trans (W2_arg7 m ρ c)
theorem W4_arg0 (c : Dev nD) : W4 m ρ c (Proc.devRef .tc main_arg0) = m ((c : Thread nD τ).loc main_arg0) :=
  (W4_of_ne m ρ c main_arg0 (by decide)).trans (W3_arg0 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W5_arg0 (c : Dev nD) : W5 m ρ c (Proc.devRef .tc main_arg0) = m ((c : Thread nD τ).loc main_arg0) :=
  (StableHlo.after_of_writes_sub hostOps2 _ hostOps2_writes (r := main_arg0) (by decide)).trans (W4_arg0 m ρ c)
theorem W5_arg1 (c : Dev nD) : W5 m ρ c (Proc.devRef .tc main_arg1) = m ((c : Thread nD τ).loc main_arg1) :=
  (StableHlo.after_of_writes_sub hostOps2 _ hostOps2_writes (r := main_arg1) (by decide)).trans (W4_arg1 m ρ c)
theorem W5_arg2 (c : Dev nD) : W5 m ρ c (Proc.devRef .tc main_arg2) = m ((c : Thread nD τ).loc main_arg2) :=
  (StableHlo.after_of_writes_sub hostOps2 _ hostOps2_writes (r := main_arg2) (by decide)).trans (W4_arg2 m ρ c)
theorem W5_arg3 (c : Dev nD) : W5 m ρ c (Proc.devRef .tc main_arg3) = m ((c : Thread nD τ).loc main_arg3) :=
  (StableHlo.after_of_writes_sub hostOps2 _ hostOps2_writes (r := main_arg3) (by decide)).trans (W4_arg3 m ρ c)
theorem W5_arg4 (c : Dev nD) : W5 m ρ c (Proc.devRef .tc main_arg4) = m ((c : Thread nD τ).loc main_arg4) :=
  (StableHlo.after_of_writes_sub hostOps2 _ hostOps2_writes (r := main_arg4) (by decide)).trans (W4_arg4 m ρ c)
theorem W5_arg5 (c : Dev nD) : W5 m ρ c (Proc.devRef .tc main_arg5) = m ((c : Thread nD τ).loc main_arg5) :=
  (StableHlo.after_of_writes_sub hostOps2 _ hostOps2_writes (r := main_arg5) (by decide)).trans (W4_arg5 m ρ c)
theorem W5_arg6 (c : Dev nD) : W5 m ρ c (Proc.devRef .tc main_arg6) = m ((c : Thread nD τ).loc main_arg6) :=
  (StableHlo.after_of_writes_sub hostOps2 _ hostOps2_writes (r := main_arg6) (by decide)).trans (W4_arg6 m ρ c)
theorem W5_arg7 (c : Dev nD) : W5 m ρ c (Proc.devRef .tc main_arg7) = m ((c : Thread nD τ).loc main_arg7) :=
  (StableHlo.after_of_writes_sub hostOps2 _ hostOps2_writes (r := main_arg7) (by decide)).trans (W4_arg7 m ρ c)
theorem W6_arg0 (c : Dev nD) : W6 m ρ c (Proc.devRef .tc main_arg0) = m ((c : Thread nD τ).loc main_arg0) :=
  (W6_of_ne m ρ c main_arg0 (by decide)).trans (W5_arg0 m ρ c)
theorem W6_arg1 (c : Dev nD) : W6 m ρ c (Proc.devRef .tc main_arg1) = m ((c : Thread nD τ).loc main_arg1) :=
  (W6_of_ne m ρ c main_arg1 (by decide)).trans (W5_arg1 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W6_arg5 (c : Dev nD) : W6 m ρ c (Proc.devRef .tc main_arg5) = m ((c : Thread nD τ).loc main_arg5) :=
  (W6_of_ne m ρ c main_arg5 (by decide)).trans (W5_arg5 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W6_arg7 (c : Dev nD) : W6 m ρ c (Proc.devRef .tc main_arg7) = m ((c : Thread nD τ).loc main_arg7) :=
  (W6_of_ne m ρ c main_arg7 (by decide)).trans (W5_arg7 m ρ c)

/-! ### Region 0: its entry arrays and what it leaves -/

theorem W1_side (c : Dev nD) : W1 m ρ c (Proc.devRef .tc main_v12) = side (F := Ideal) (m ((c : Thread nD τ).loc main_arg0)) (m ((c : Thread nD τ).loc main_arg1)) (m ((c : Thread nD τ).loc main_arg2)) (m ((c : Thread nD τ).loc main_arg3)) := by
  show StableHlo.after hostOps0 (W0 m ρ c) (Proc.devRef .tc main_v12) = _
  rw [side_at0, W0_arg0, W0_arg1, W0_arg2, W0_arg3]
theorem W1_w1 (c : Dev nD) : W1 m ρ c (Proc.devRef .tc main_v21) = wT (F := Ideal) (extractStridedSlice S1x64x64 ![0, 0, 0] (m ((c : Thread nD τ).loc main_arg4)) slices_S3x64x64_S1x64x64_0_0_0) := by
  show StableHlo.after hostOps0 (W0 m ρ c) (Proc.devRef .tc main_v21) = _
  rw [w1_at0, W0_arg4]
theorem W1_b1 (c : Dev nD) : W1 m ρ c (Proc.devRef .tc main_v23) = bRow (F := Ideal) (extractStridedSlice S1x64 ![0, 0] (m ((c : Thread nD τ).loc main_arg5)) slices_S3x64_S1x64_0_0) := by
  show StableHlo.after hostOps0 (W0 m ρ c) (Proc.devRef .tc main_v23) = _
  rw [b1_at0, W0_arg5]
theorem W1_w2 (c : Dev nD) : W1 m ρ c (Proc.devRef .tc main_v22) = wT (F := Ideal) (extractStridedSlice S1x64x64 ![0, 0, 0] (m ((c : Thread nD τ).loc main_arg6)) slices_S3x64x64_S1x64x64_0_0_0) := by
  show StableHlo.after hostOps0 (W0 m ρ c) (Proc.devRef .tc main_v22) = _
  rw [w2_at0, W0_arg6]
theorem W1_b2 (c : Dev nD) : W1 m ρ c (Proc.devRef .tc main_v24) = bRow (F := Ideal) (extractStridedSlice S1x64 ![0, 0] (m ((c : Thread nD τ).loc main_arg7)) slices_S3x64_S1x64_0_0) := by
  show StableHlo.after hostOps0 (W0 m ρ c) (Proc.devRef .tc main_v24) = _
  rw [b2_at0, W0_arg7]

/-- Region 0's first output array: the layer's new embedding. -/
theorem W2_o6 (c : Dev nD) : W2 m ρ c (Proc.devRef .tc main_v25_0) = emb1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show W2 m ρ c (Proc.devRef .tc main_v25_0) = (dat0 (V1 m ρ) c).arrAt 6 cfg0.N from W2_arr m ρ c 6, egoArr0]
  show Cert.LayerSpec.ego (W1 m ρ c (Proc.devRef .tc main_arg3)) (W1 m ρ c (Proc.devRef .tc main_v12)) (W1 m ρ c (Proc.devRef .tc main_v21))
    (W1 m ρ c (Proc.devRef .tc main_v22)) (W1 m ρ c (Proc.devRef .tc main_v23)) (W1 m ρ c (Proc.devRef .tc main_v24)) = _
  rw [W1_arg3 m ρ c, W1_side, W1_w1, W1_w2, W1_b1, W1_b2]
  rfl
/-- Region 0's second output array: that embedding, normalized. -/
theorem W2_o7 (c : Dev nD) : W2 m ρ c (Proc.devRef .tc main_v25_1) = Cert.LayerSpec.nrm (emb1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [show W2 m ρ c (Proc.devRef .tc main_v25_1) = (dat0 (V1 m ρ) c).arrAt 7 cfg0.N from W2_arr m ρ c 7, nrmArr0]
  show Cert.LayerSpec.nrm (Cert.LayerSpec.ego (W1 m ρ c (Proc.devRef .tc main_arg3)) (W1 m ρ c (Proc.devRef .tc main_v12)) (W1 m ρ c (Proc.devRef .tc main_v21))
    (W1 m ρ c (Proc.devRef .tc main_v22)) (W1 m ρ c (Proc.devRef .tc main_v23)) (W1 m ρ c (Proc.devRef .tc main_v24))) = _
  rw [W1_arg3 m ρ c, W1_side, W1_w1, W1_w2, W1_b1, W1_b2]
  rfl

/-! ### Region 1: its entry arrays and what it leaves -/

theorem W3_x (c : Dev nD) : W3 m ρ c (Proc.devRef .tc main_v25_0) = emb1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (StableHlo.after_of_writes_sub hostOps1 _ hostOps1_writes (r := main_v25_0) (by decide)).trans (W2_o6 m ρ c)
theorem W3_side (c : Dev nD) : W3 m ρ c (Proc.devRef .tc main_v38) = side (F := Ideal) (m ((c : Thread nD τ).loc main_arg0)) (m ((c : Thread nD τ).loc main_arg1)) (m ((c : Thread nD τ).loc main_arg2)) (emb1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps1 (W2 m ρ c) (Proc.devRef .tc main_v38) = _
  rw [side_at1, W2_arg0, W2_arg1, W2_arg2, W2_o6]
theorem W3_w1 (c : Dev nD) : W3 m ρ c (Proc.devRef .tc main_v47) = wT (F := Ideal) (extractStridedSlice S1x64x64 ![1, 0, 0] (m ((c : Thread nD τ).loc main_arg4)) slices_S3x64x64_S1x64x64_1_0_0) := by
  show StableHlo.after hostOps1 (W2 m ρ c) (Proc.devRef .tc main_v47) = _
  rw [w1_at1, W2_arg4]
theorem W3_b1 (c : Dev nD) : W3 m ρ c (Proc.devRef .tc main_v49) = bRow (F := Ideal) (extractStridedSlice S1x64 ![1, 0] (m ((c : Thread nD τ).loc main_arg5)) slices_S3x64_S1x64_1_0) := by
  show StableHlo.after hostOps1 (W2 m ρ c) (Proc.devRef .tc main_v49) = _
  rw [b1_at1, W2_arg5]
theorem W3_w2 (c : Dev nD) : W3 m ρ c (Proc.devRef .tc main_v48) = wT (F := Ideal) (extractStridedSlice S1x64x64 ![1, 0, 0] (m ((c : Thread nD τ).loc main_arg6)) slices_S3x64x64_S1x64x64_1_0_0) := by
  show StableHlo.after hostOps1 (W2 m ρ c) (Proc.devRef .tc main_v48) = _
  rw [w2_at1, W2_arg6]
theorem W3_b2 (c : Dev nD) : W3 m ρ c (Proc.devRef .tc main_v50) = bRow (F := Ideal) (extractStridedSlice S1x64 ![1, 0] (m ((c : Thread nD τ).loc main_arg7)) slices_S3x64_S1x64_1_0) := by
  show StableHlo.after hostOps1 (W2 m ρ c) (Proc.devRef .tc main_v50) = _
  rw [b2_at1, W2_arg7]

/-- Region 1's first output array: the layer's new embedding. -/
theorem W4_o6 (c : Dev nD) : W4 m ρ c (Proc.devRef .tc main_v51_0) = emb2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show W4 m ρ c (Proc.devRef .tc main_v51_0) = (dat1 (V3 m ρ) c).arrAt 6 cfg1.N from W4_arr m ρ c 6, egoArr1]
  show Cert.LayerSpec.ego (W3 m ρ c (Proc.devRef .tc main_v25_0)) (W3 m ρ c (Proc.devRef .tc main_v38)) (W3 m ρ c (Proc.devRef .tc main_v47))
    (W3 m ρ c (Proc.devRef .tc main_v48)) (W3 m ρ c (Proc.devRef .tc main_v49)) (W3 m ρ c (Proc.devRef .tc main_v50)) = _
  rw [W3_x m ρ c, W3_side, W3_w1, W3_w2, W3_b1, W3_b2]
  rfl
/-- Region 1's second output array: that embedding, normalized. -/
theorem W4_o7 (c : Dev nD) : W4 m ρ c (Proc.devRef .tc main_v51_1) = Cert.LayerSpec.nrm (emb2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [show W4 m ρ c (Proc.devRef .tc main_v51_1) = (dat1 (V3 m ρ) c).arrAt 7 cfg1.N from W4_arr m ρ c 7, nrmArr1]
  show Cert.LayerSpec.nrm (Cert.LayerSpec.ego (W3 m ρ c (Proc.devRef .tc main_v25_0)) (W3 m ρ c (Proc.devRef .tc main_v38)) (W3 m ρ c (Proc.devRef .tc main_v47))
    (W3 m ρ c (Proc.devRef .tc main_v48)) (W3 m ρ c (Proc.devRef .tc main_v49)) (W3 m ρ c (Proc.devRef .tc main_v50))) = _
  rw [W3_x m ρ c, W3_side, W3_w1, W3_w2, W3_b1, W3_b2]
  rfl

/-! ### Region 2: its entry arrays and what it leaves -/

theorem W5_x (c : Dev nD) : W5 m ρ c (Proc.devRef .tc main_v51_0) = emb2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (StableHlo.after_of_writes_sub hostOps2 _ hostOps2_writes (r := main_v51_0) (by decide)).trans (W4_o6 m ρ c)
theorem W5_side (c : Dev nD) : W5 m ρ c (Proc.devRef .tc main_v64) = side (F := Ideal) (m ((c : Thread nD τ).loc main_arg0)) (m ((c : Thread nD τ).loc main_arg1)) (m ((c : Thread nD τ).loc main_arg2)) (emb2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps2 (W4 m ρ c) (Proc.devRef .tc main_v64) = _
  rw [side_at2, W4_arg0, W4_arg1, W4_arg2, W4_o6]
theorem W5_w1 (c : Dev nD) : W5 m ρ c (Proc.devRef .tc main_v73) = wT (F := Ideal) (extractStridedSlice S1x64x64 ![2, 0, 0] (m ((c : Thread nD τ).loc main_arg4)) slices_S3x64x64_S1x64x64_2_0_0) := by
  show StableHlo.after hostOps2 (W4 m ρ c) (Proc.devRef .tc main_v73) = _
  rw [w1_at2, W4_arg4]
theorem W5_b1 (c : Dev nD) : W5 m ρ c (Proc.devRef .tc main_v75) = bRow (F := Ideal) (extractStridedSlice S1x64 ![2, 0] (m ((c : Thread nD τ).loc main_arg5)) slices_S3x64_S1x64_2_0) := by
  show StableHlo.after hostOps2 (W4 m ρ c) (Proc.devRef .tc main_v75) = _
  rw [b1_at2, W4_arg5]
theorem W5_w2 (c : Dev nD) : W5 m ρ c (Proc.devRef .tc main_v74) = wT (F := Ideal) (extractStridedSlice S1x64x64 ![2, 0, 0] (m ((c : Thread nD τ).loc main_arg6)) slices_S3x64x64_S1x64x64_2_0_0) := by
  show StableHlo.after hostOps2 (W4 m ρ c) (Proc.devRef .tc main_v74) = _
  rw [w2_at2, W4_arg6]
theorem W5_b2 (c : Dev nD) : W5 m ρ c (Proc.devRef .tc main_v76) = bRow (F := Ideal) (extractStridedSlice S1x64 ![2, 0] (m ((c : Thread nD τ).loc main_arg7)) slices_S3x64_S1x64_2_0) := by
  show StableHlo.after hostOps2 (W4 m ρ c) (Proc.devRef .tc main_v76) = _
  rw [b2_at2, W4_arg7]

/-- Region 2's first output array: the layer's new embedding. -/
theorem W6_o6 (c : Dev nD) : W6 m ρ c (Proc.devRef .tc main_v77_0) = emb3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show W6 m ρ c (Proc.devRef .tc main_v77_0) = (dat2 (V5 m ρ) c).arrAt 6 cfg2.N from W6_arr m ρ c 6, egoArr2]
  show Cert.LayerSpec.ego (W5 m ρ c (Proc.devRef .tc main_v51_0)) (W5 m ρ c (Proc.devRef .tc main_v64)) (W5 m ρ c (Proc.devRef .tc main_v73))
    (W5 m ρ c (Proc.devRef .tc main_v74)) (W5 m ρ c (Proc.devRef .tc main_v75)) (W5 m ρ c (Proc.devRef .tc main_v76)) = _
  rw [W5_x m ρ c, W5_side, W5_w1, W5_w2, W5_b1, W5_b2]
  rfl
/-- Region 2's second output array: that embedding, normalized. -/
theorem W6_o7 (c : Dev nD) : W6 m ρ c (Proc.devRef .tc main_v77_1) = Cert.LayerSpec.nrm (emb3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [show W6 m ρ c (Proc.devRef .tc main_v77_1) = (dat2 (V5 m ρ) c).arrAt 7 cfg2.N from W6_arr m ρ c 7, nrmArr2]
  show Cert.LayerSpec.nrm (Cert.LayerSpec.ego (W5 m ρ c (Proc.devRef .tc main_v51_0)) (W5 m ρ c (Proc.devRef .tc main_v64)) (W5 m ρ c (Proc.devRef .tc main_v73))
    (W5 m ρ c (Proc.devRef .tc main_v74)) (W5 m ρ c (Proc.devRef .tc main_v75)) (W5 m ρ c (Proc.devRef .tc main_v76))) = _
  rw [W5_x m ρ c, W5_side, W5_w1, W5_w2, W5_b1, W5_b2]
  rfl

/-! ### The normalized embeddings reach the last stretch unchanged -/

theorem W6_n1 (c : Dev nD) : W6 m ρ c (Proc.devRef .tc main_v25_1) = Cert.LayerSpec.nrm (emb1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (W6_of_ne m ρ c main_v25_1 (by decide)).trans <| (StableHlo.after_of_writes_sub hostOps2 _ hostOps2_writes (r := main_v25_1) (by decide)).trans <|
    (W4_of_ne m ρ c main_v25_1 (by decide)).trans <| (StableHlo.after_of_writes_sub hostOps1 _ hostOps1_writes (r := main_v25_1) (by decide)).trans (W2_o7 m ρ c)
theorem W6_n2 (c : Dev nD) : W6 m ρ c (Proc.devRef .tc main_v51_1) = Cert.LayerSpec.nrm (emb2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (W6_of_ne m ρ c main_v51_1 (by decide)).trans <| (StableHlo.after_of_writes_sub hostOps2 _ hostOps2_writes (r := main_v51_1) (by decide)).trans (W4_o7 m ρ c)

/-! ## The results -/

theorem W7_users (c : Dev nD) : W7 m ρ c (Proc.devRef .tc main_v79)
    = users (F := Ideal) (m ((c : Thread nD τ).loc main_arg3)) (Cert.LayerSpec.nrm (emb1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (Cert.LayerSpec.nrm (emb2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (Cert.LayerSpec.nrm (emb3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) := by
  show StableHlo.after hostOps3 (W6 m ρ c) (Proc.devRef .tc main_v79) = _
  rw [users_at, W6_arg3, W6_n1, W6_n2, W6_o7]
theorem W7_entities (c : Dev nD) : W7 m ρ c (Proc.devRef .tc main_v80)
    = entities (F := Ideal) (m ((c : Thread nD τ).loc main_arg3)) (Cert.LayerSpec.nrm (emb1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (Cert.LayerSpec.nrm (emb2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (Cert.LayerSpec.nrm (emb3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) := by
  show StableHlo.after hostOps3 (W6 m ρ c) (Proc.devRef .tc main_v80) = _
  rw [entities_at, W6_arg3, W6_n1, W6_n2, W6_o7]

end Cert.KernelIdeal.Agg

end
-- ==== Proof.RefOps.lean ====
/-
  The reference program's @main as a list of host operations.

  @main of the reference is a straight line of host operations and nine calls of module-local functions
  (a leaky rectifier, six times, each calling a select; a row norm, three times). A call executes the callee's
  body on the call's own buffers, so the whole program is one line of 192 operations: each call's body is listed
  here inline, over the buffers the call's record names, every operation written over plain references. The
  line falls into three layers of 63 operations each — the same operations over different buffers — followed
  by the join of the four embeddings and the two row slices that are the results.
-/
import proofs.«180967_j19731079758337_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first layer: the sparse product of the input embedding, the two dense branches with their rectifiers, their sum, and its row normalization. -/
abbrev opsL1 : List (HloOp τ sig (Elt F)) :=
  [ unary main_arg2 main_v0 (broadcastInDim S2400000x1 ![0] bcast_S2400000_S2400000x1_0 : (⟨S2400000, .f32⟩ : BufTy).Contents (Elt F) → (⟨S2400000x1, .f32⟩ : BufTy).Contents (Elt F)),
    nullary main_c (constantI S_ 32 0#32),
    unary main_c main_v1 (broadcastInDim S2400000 ![] bcast_S_S2400000 : (⟨S_, .i32⟩ : BufTy).Contents (Elt F) → (⟨S2400000, .i32⟩ : BufTy).Contents (Elt F)),
    binary main_arg1 main_v1 main_v2 (cmpi .slt : (⟨S2400000, .i32⟩ : BufTy).Contents (Elt F) → (⟨S2400000, .i32⟩ : BufTy).Contents (Elt F) → (⟨S2400000, .i1⟩ : BufTy).Contents (Elt F)),
    nullary main_c_0 (constantI S_ 32 150000#32),
    unary main_c_0 main_v3 (broadcastInDim S2400000 ![] bcast_S_S2400000 : (⟨S_, .i32⟩ : BufTy).Contents (Elt F) → (⟨S2400000, .i32⟩ : BufTy).Contents (Elt F)),
    binary main_arg1 main_v3 main_v4 (addi : (⟨S2400000, .i32⟩ : BufTy).Contents (Elt F) → (⟨S2400000, .i32⟩ : BufTy).Contents (Elt F) → (⟨S2400000, .i32⟩ : BufTy).Contents (Elt F)),
    ternary main_v2 main_v4 main_arg1 main_v5 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    unary main_v5 main_v6 (broadcastInDim S2400000x1 ![0] bcast_S2400000_S2400000x1_0 : (⟨S2400000, .i32⟩ : BufTy).Contents (Elt F) → (⟨S2400000x1, .i32⟩ : BufTy).Contents (Elt F)),
    binary main_arg3 main_v6 main_v7 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    unary main_v0 main_v8 (broadcastInDim S2400000x64 ![0, 1] bcast_S2400000x1_S2400000x64_0_1 : (⟨S2400000x1, .f32⟩ : BufTy).Contents (Elt F) → (⟨S2400000x64, .f32⟩ : BufTy).Contents (Elt F)),
    binary main_v8 main_v7 main_v9 (mulf : (⟨S2400000x64, .f32⟩ : BufTy).Contents (Elt F) → (⟨S2400000x64, .f32⟩ : BufTy).Contents (Elt F) → (⟨S2400000x64, .f32⟩ : BufTy).Contents (Elt F)),
    nullary main_cst (constant S_ .f32 0x00000000#32),
    unary main_cst main_v10 (broadcastInDim S150000x64 ![] bcast_S_S150000x64 : (⟨S_, .f32⟩ : BufTy).Contents (Elt F) → (⟨S150000x64, .f32⟩ : BufTy).Contents (Elt F)),
    unary main_arg0 main_v11 (broadcastInDim S2400000x1 ![0] bcast_S2400000_S2400000x1_0 : (⟨S2400000, .i32⟩ : BufTy).Contents (Elt F) → (⟨S2400000x1, .i32⟩ : BufTy).Contents (Elt F)),
    ternary main_v10 main_v11 main_v9 main_v12 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    binary main_arg3 main_v12 main_v13 (addf : (⟨S150000x64, .f32⟩ : BufTy).Contents (Elt F) → (⟨S150000x64, .f32⟩ : BufTy).Contents (Elt F) → (⟨S150000x64, .f32⟩ : BufTy).Contents (Elt F)),
    unary main_arg4 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v14 main_v15 rfl shapeCasts_S1x64x64_S64x64,
    unary main_v15 main_v16 ((transpose S64x64 [1, 0] · transposes_S64x64_S64x64_1_0) : (⟨S64x64, .f32⟩ : BufTy).Contents (Elt F) → (⟨S64x64, .f32⟩ : BufTy).Contents (Elt F)),
    binary main_v13 main_v16 main_v17 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg5 main_v18 ((extractStridedSlice S1x64 ![0, 0] · slices_S3x64_S1x64_0_0) : (⟨S3x64, .f32⟩ : BufTy).Contents (Elt F) → (⟨S1x64, .f32⟩ : BufTy).Contents (Elt F)),
    reshape main_v18 main_v19 rfl shapeCasts_S1x64_S64,
    unary main_v19 main_v20 (broadcastInDim S1x64 ![1] bcast_S64_S1x64_1 : (⟨S64, .f32⟩ : BufTy).Contents (Elt F) → (⟨S1x64, .f32⟩ : BufTy).Contents (Elt F)),
    unary main_v20 main_v21 (broadcastInDim S150000x64 ![0, 1] bcast_S1x64_S150000x64_0_1 : (⟨S1x64, .f32⟩ : BufTy).Contents (Elt F) → (⟨S150000x64, .f32⟩ : BufTy).Contents (Elt F)),
    binary main_v17 main_v21 main_v22 (addf : (⟨S150000x64, .f32⟩ : BufTy).Contents (Elt F) → (⟨S150000x64, .f32⟩ : BufTy).Contents (Elt F) → (⟨S150000x64, .f32⟩ : BufTy).Contents (Elt F)),
    nullary main_cst_1 (constant S_ .f32 0x3C23D70A#32),
    nullary main_call0_cst (constant S_ .f32 0x00000000#32),
    unary main_call0_cst main_call0_v0 (broadcastInDim S150000x64 ![] bcast_S_S150000x64 : (⟨S_, .f32⟩ : BufTy).Contents (Elt F) → (⟨S150000x64, .f32⟩ : BufTy).Contents (Elt F)),
    binary main_v22 main_call0_v0 main_call0_v1 (cmpf .oge : (⟨S150000x64, .f32⟩ : BufTy).Contents (Elt F) → (⟨S150000x64, .f32⟩ : BufTy).Contents (Elt F) → (⟨S150000x64, .i1⟩ : BufTy).Contents (Elt F)),
    unary main_cst_1 main_call0_v2 (id : (⟨S_, .f32⟩ : BufTy).Contents (Elt F) → (⟨S_, .f32⟩ : BufTy).Contents (Elt F)),
    unary main_call0_v2 main_call0_v3 (broadcastInDim S150000x64 ![] bcast_S_S150000x64 : (⟨S_, .f32⟩ : BufTy).Contents (Elt F) → (⟨S150000x64, .f32⟩ : BufTy).Contents (Elt F)),
    binary main_call0_v3 main_v22 main_call0_v4 (mulf : (⟨S150000x64, .f32⟩ : BufTy).Contents (Elt F) → (⟨S150000x64, .f32⟩ : BufTy).Contents (Elt F) → (⟨S150000x64, .f32⟩ : BufTy).Contents (Elt F)),
    ternary main_call0_v1 main_v22 main_call0_v4 main_v23 (select : (⟨S150000x64, .i1⟩ : BufTy).Contents (Elt F) → (⟨S150000x64, .f32⟩ : BufTy).Contents (Elt F) → (⟨S150000x64, .f32⟩ : BufTy).Contents (Elt F) → (⟨S150000x64, .f32⟩ : BufTy).Contents (Elt F)),
    binary main_arg3 main_v12 main_v24 (mulf : (⟨S150000x64, .f32⟩ : BufTy).Contents (Elt F) → (⟨S150000x64, .f32⟩ : BufTy).Contents (Elt F) → (⟨S150000x64, .f32⟩ : BufTy).Contents (Elt F)),
    unary main_arg6 main_v25 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v25 main_v26 rfl shapeCasts_S1x64x64_S64x64,
    unary main_v26 main_v27 ((transpose S64x64 [1, 0] · transposes_S64x64_S64x64_1_0) : (⟨S64x64, .f32⟩ : BufTy).Contents (Elt F) → (⟨S64x64, .f32⟩ : BufTy).Contents (Elt F)),
    binary main_v24 main_v27 main_v28 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg7 main_v29 ((extractStridedSlice S1x64 ![0, 0] · slices_S3x64_S1x64_0_0) : (⟨S3x64, .f32⟩ : BufTy).Contents (Elt F) → (⟨S1x64, .f32⟩ : BufTy).Contents (Elt F)),
    reshape main_v29 main_v30 rfl shapeCasts_S1x64_S64,
    unary main_v30 main_v31 (broadcastInDim S1x64 ![1] bcast_S64_S1x64_1 : (⟨S64, .f32⟩ : BufTy).Contents (Elt F) → (⟨S1x64, .f32⟩ : BufTy).Contents (Elt F)),
    unary main_v31 main_v32 (broadcastInDim S150000x64 ![0, 1] bcast_S1x64_S150000x64_0_1 : (⟨S1x64, .f32⟩ : BufTy).Contents (Elt F) → (⟨S150000x64, .f32⟩ : BufTy).Contents (Elt F)),
    binary main_v28 main_v32 main_v33 (addf : (⟨S150000x64, .f32⟩ : BufTy).Contents (Elt F) → (⟨S150000x64, .f32⟩ : BufTy).Contents (Elt F) → (⟨S150000x64, .f32⟩ : BufTy).Contents (Elt F)),
    nullary main_cst_2 (constant S_ .f32 0x3C23D70A#32),
    nullary main_call1_cst (constant S_ .f32 0x00000000#32),
    unary main_call1_cst main_call1_v0 (broadcastInDim S150000x64 ![] bcast_S_S150000x64 : (⟨S_, .f32⟩ : BufTy).Contents (Elt F) → (⟨S150000x64, .f32⟩ : BufTy).Contents (Elt F)),
    binary main_v33 main_call1_v0 main_call1_v1 (cmpf .oge : (⟨S150000x64, .f32⟩ : BufTy).Contents (Elt F) → (⟨S150000x64, .f32⟩ : BufTy).Contents (Elt F) → (⟨S150000x64, .i1⟩ : BufTy).Contents (Elt F)),
    unary main_cst_2 main_call1_v2 (id : (⟨S_, .f32⟩ : BufTy).Contents (Elt F) → (⟨S_, .f32⟩ : BufTy).Contents (Elt F)),
    unary main_call1_v2 main_call1_v3 (broadcastInDim S150000x64 ![] bcast_S_S150000x64 : (⟨S_, .f32⟩ : BufTy).Contents (Elt F) → (⟨S150000x64, .f32⟩ : BufTy).Contents (Elt F)),
    binary main_call1_v3 main_v33 main_call1_v4 (mulf : (⟨S150000x64, .f32⟩ : BufTy).Contents (Elt F) → (⟨S150000x64, .f32⟩ : BufTy).Contents (Elt F) → (⟨S150000x64, .f32⟩ : BufTy).Contents (Elt F)),
    ternary main_call1_v1 main_v33 main_call1_v4 main_v34 (select : (⟨S150000x64, .i1⟩ : BufTy).Contents (Elt F) → (⟨S150000x64, .f32⟩ : BufTy).Contents (Elt F) → (⟨S150000x64, .f32⟩ : BufTy).Contents (Elt F) → (⟨S150000x64, .f32⟩ : BufTy).Contents (Elt F)),
    binary main_v34 main_v23 main_v35 (addf : (⟨S150000x64, .f32⟩ : BufTy).Contents (Elt F) → (⟨S150000x64, .f32⟩ : BufTy).Contents (Elt F) → (⟨S150000x64, .f32⟩ : BufTy).Contents (Elt F)),
    binary main_v35 main_v35 main_call2_v0 (mulf : (⟨S150000x64, .f32⟩ : BufTy).Contents (Elt F) → (⟨S150000x64, .f32⟩ : BufTy).Contents (Elt F) → (⟨S150000x64, .f32⟩ : BufTy).Contents (Elt F)),
    nullary main_call2_cst (constant S_ .f32 0x00000000#32),
    binary main_call2_v0 main_call2_cst main_call2_v1 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_call2_v1 main_call2_v2 (broadcastInDim S150000x1 ![0] bcast_S150000_S150000x1_0 : (⟨S150000, .f32⟩ : BufTy).Contents (Elt F) → (⟨S150000x1, .f32⟩ : BufTy).Contents (Elt F)),
    unary main_call2_v2 main_v36 (Host.sqrt : (⟨S150000x1, .f32⟩ : BufTy).Contents (Elt F) → (⟨S150000x1, .f32⟩ : BufTy).Contents (Elt F)),
    nullary main_cst_3 (constant S_ .f32 0x2B8CBCCC#32),
    unary main_cst_3 main_v37 (broadcastInDim S150000x1 ![] bcast_S_S150000x1 : (⟨S_, .f32⟩ : BufTy).Contents (Elt F) → (⟨S150000x1, .f32⟩ : BufTy).Contents (Elt F)),
    binary main_v36 main_v37 main_v38 (maximumf : (⟨S150000x1, .f32⟩ : BufTy).Contents (Elt F) → (⟨S150000x1, .f32⟩ : BufTy).Contents (Elt F) → (⟨S150000x1, .f32⟩ : BufTy).Contents (Elt F)),
    unary main_v38 main_v39 (broadcastInDim S150000x64 ![0, 1] bcast_S150000x1_S150000x64_0_1 : (⟨S150000x1, .f32⟩ : BufTy).Contents (Elt F) → (⟨S150000x64, .f32⟩ : BufTy).Contents (Elt F)),
    binary main_v35 main_v39 main_v40 (Host.divf : (⟨S150000x64, .f32⟩ : BufTy).Contents (Elt F) → (⟨S150000x64, .f32⟩ : BufTy).Contents (Elt F) → (⟨S150000x64, .f32⟩ : BufTy).Contents (Elt F)) ]

/-- The second layer: the same operations from the first layer's embedding, with the second slices of the weights. -/
abbrev opsL2 : List (HloOp τ sig (Elt F)) :=
  [ unary main_arg2 main_v41 (broadcastInDim S2400000x1 ![0] bcast_S2400000_S2400000x1_0 : (⟨S2400000, .f32⟩ : BufTy).Contents (Elt F) → (⟨S2400000x1, .f32⟩ : BufTy).Contents (Elt F)),
    nullary main_c_4 (constantI S_ 32 0#32),
    unary main_c_4 main_v42 (broadcastInDim S2400000 ![] bcast_S_S2400000 : (⟨S_, .i32⟩ : BufTy).Contents (Elt F) → (⟨S2400000, .i32⟩ : BufTy).Contents (Elt F)),
    binary main_arg1 main_v42 main_v43 (cmpi .slt : (⟨S2400000, .i32⟩ : BufTy).Contents (Elt F) → (⟨S2400000, .i32⟩ : BufTy).Contents (Elt F) → (⟨S2400000, .i1⟩ : BufTy).Contents (Elt F)),
    nullary main_c_5 (constantI S_ 32 150000#32),
    unary main_c_5 main_v44 (broadcastInDim S2400000 ![] bcast_S_S2400000 : (⟨S_, .i32⟩ : BufTy).Contents (Elt F) → (⟨S2400000, .i32⟩ : BufTy).Contents (Elt F)),
    binary main_arg1 main_v44 main_v45 (addi : (⟨S2400000, .i32⟩ : BufTy).Contents (Elt F) → (⟨S2400000, .i32⟩ : BufTy).Contents (Elt F) → (⟨S2400000, .i32⟩ : BufTy).Contents (Elt F)),
    ternary main_v43 main_v45 main_arg1 main_v46 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    unary main_v46 main_v47 (broadcastInDim S2400000x1 ![0] bcast_S2400000_S2400000x1_0 : (⟨S2400000, .i32⟩ : BufTy).Contents (Elt F) → (⟨S2400000x1, .i32⟩ : BufTy).Contents (Elt F)),
    binary main_v35 main_v47 main_v48 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    unary main_v41 main_v49 (broadcastInDim S2400000x64 ![0, 1] bcast_S2400000x1_S2400000x64_0_1 : (⟨S2400000x1, .f32⟩ : BufTy).Contents (Elt F) → (⟨S2400000x64, .f32⟩ : BufTy).Contents (Elt F)),
    binary main_v49 main_v48 main_v50 (mulf : (⟨S2400000x64, .f32⟩ : BufTy).Contents (Elt F) → (⟨S2400000x64, .f32⟩ : BufTy).Contents (Elt F) → (⟨S2400000x64, .f32⟩ : BufTy).Contents (Elt F)),
    nullary main_cst_6 (constant S_ .f32 0x00000000#32),
    unary main_cst_6 main_v51 (broadcastInDim S150000x64 ![] bcast_S_S150000x64 : (⟨S_, .f32⟩ : BufTy).Contents (Elt F) → (⟨S150000x64, .f32⟩ : BufTy).Contents (Elt F)),
    unary main_arg0 main_v52 (broadcastInDim S2400000x1 ![0] bcast_S2400000_S2400000x1_0 : (⟨S2400000, .i32⟩ : BufTy).Contents (Elt F) → (⟨S2400000x1, .i32⟩ : BufTy).Contents (Elt F)),
    ternary main_v51 main_v52 main_v50 main_v53 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    binary main_v35 main_v53 main_v54 (addf : (⟨S150000x64, .f32⟩ : BufTy).Contents (Elt F) → (⟨S150000x64, .f32⟩ : BufTy).Contents (Elt F) → (⟨S150000x64, .f32⟩ : BufTy).Contents (Elt F)),
    unary main_arg4 main_v55 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v55 main_v56 rfl shapeCasts_S1x64x64_S64x64,
    unary main_v56 main_v57 ((transpose S64x64 [1, 0] · transposes_S64x64_S64x64_1_0) : (⟨S64x64, .f32⟩ : BufTy).Contents (Elt F) → (⟨S64x64, .f32⟩ : BufTy).Contents (Elt F)),
    binary main_v54 main_v57 main_v58 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg5 main_v59 ((extractStridedSlice S1x64 ![1, 0] · slices_S3x64_S1x64_1_0) : (⟨S3x64, .f32⟩ : BufTy).Contents (Elt F) → (⟨S1x64, .f32⟩ : BufTy).Contents (Elt F)),
    reshape main_v59 main_v60 rfl shapeCasts_S1x64_S64,
    unary main_v60 main_v61 (broadcastInDim S1x64 ![1] bcast_S64_S1x64_1 : (⟨S64, .f32⟩ : BufTy).Contents (Elt F) → (⟨S1x64, .f32⟩ : BufTy).Contents (Elt F)),
    unary main_v61 main_v62 (broadcastInDim S150000x64 ![0, 1] bcast_S1x64_S150000x64_0_1 : (⟨S1x64, .f32⟩ : BufTy).Contents (Elt F) → (⟨S150000x64, .f32⟩ : BufTy).Contents (Elt F)),
    binary main_v58 main_v62 main_v63 (addf : (⟨S150000x64, .f32⟩ : BufTy).Contents (Elt F) → (⟨S150000x64, .f32⟩ : BufTy).Contents (Elt F) → (⟨S150000x64, .f32⟩ : BufTy).Contents (Elt F)),
    nullary main_cst_7 (constant S_ .f32 0x3C23D70A#32),
    nullary main_call3_cst (constant S_ .f32 0x00000000#32),
    unary main_call3_cst main_call3_v0 (broadcastInDim S150000x64 ![] bcast_S_S150000x64 : (⟨S_, .f32⟩ : BufTy).Contents (Elt F) → (⟨S150000x64, .f32⟩ : BufTy).Contents (Elt F)),
    binary main_v63 main_call3_v0 main_call3_v1 (cmpf .oge : (⟨S150000x64, .f32⟩ : BufTy).Contents (Elt F) → (⟨S150000x64, .f32⟩ : BufTy).Contents (Elt F) → (⟨S150000x64, .i1⟩ : BufTy).Contents (Elt F)),
    unary main_cst_7 main_call3_v2 (id : (⟨S_, .f32⟩ : BufTy).Contents (Elt F) → (⟨S_, .f32⟩ : BufTy).Contents (Elt F)),
    unary main_call3_v2 main_call3_v3 (broadcastInDim S150000x64 ![] bcast_S_S150000x64 : (⟨S_, .f32⟩ : BufTy).Contents (Elt F) → (⟨S150000x64, .f32⟩ : BufTy).Contents (Elt F)),
    binary main_call3_v3 main_v63 main_call3_v4 (mulf : (⟨S150000x64, .f32⟩ : BufTy).Contents (Elt F) → (⟨S150000x64, .f32⟩ : BufTy).Contents (Elt F) → (⟨S150000x64, .f32⟩ : BufTy).Contents (Elt F)),
    ternary main_call3_v1 main_v63 main_call3_v4 main_v64 (select : (⟨S150000x64, .i1⟩ : BufTy).Contents (Elt F) → (⟨S150000x64, .f32⟩ : BufTy).Contents (Elt F) → (⟨S150000x64, .f32⟩ : BufTy).Contents (Elt F) → (⟨S150000x64, .f32⟩ : BufTy).Contents (Elt F)),
    binary main_v35 main_v53 main_v65 (mulf : (⟨S150000x64, .f32⟩ : BufTy).Contents (Elt F) → (⟨S150000x64, .f32⟩ : BufTy).Contents (Elt F) → (⟨S150000x64, .f32⟩ : BufTy).Contents (Elt F)),
    unary main_arg6 main_v66 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v66 main_v67 rfl shapeCasts_S1x64x64_S64x64,
    unary main_v67 main_v68 ((transpose S64x64 [1, 0] · transposes_S64x64_S64x64_1_0) : (⟨S64x64, .f32⟩ : BufTy).Contents (Elt F) → (⟨S64x64, .f32⟩ : BufTy).Contents (Elt F)),
    binary main_v65 main_v68 main_v69 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg7 main_v70 ((extractStridedSlice S1x64 ![1, 0] · slices_S3x64_S1x64_1_0) : (⟨S3x64, .f32⟩ : BufTy).Contents (Elt F) → (⟨S1x64, .f32⟩ : BufTy).Contents (Elt F)),
    reshape main_v70 main_v71 rfl shapeCasts_S1x64_S64,
    unary main_v71 main_v72 (broadcastInDim S1x64 ![1] bcast_S64_S1x64_1 : (⟨S64, .f32⟩ : BufTy).Contents (Elt F) → (⟨S1x64, .f32⟩ : BufTy).Contents (Elt F)),
    unary main_v72 main_v73 (broadcastInDim S150000x64 ![0, 1] bcast_S1x64_S150000x64_0_1 : (⟨S1x64, .f32⟩ : BufTy).Contents (Elt F) → (⟨S150000x64, .f32⟩ : BufTy).Contents (Elt F)),
    binary main_v69 main_v73 main_v74 (addf : (⟨S150000x64, .f32⟩ : BufTy).Contents (Elt F) → (⟨S150000x64, .f32⟩ : BufTy).Contents (Elt F) → (⟨S150000x64, .f32⟩ : BufTy).Contents (Elt F)),
    nullary main_cst_8 (constant S_ .f32 0x3C23D70A#32),
    nullary main_call4_cst (constant S_ .f32 0x00000000#32),
    unary main_call4_cst main_call4_v0 (broadcastInDim S150000x64 ![] bcast_S_S150000x64 : (⟨S_, .f32⟩ : BufTy).Contents (Elt F) → (⟨S150000x64, .f32⟩ : BufTy).Contents (Elt F)),
    binary main_v74 main_call4_v0 main_call4_v1 (cmpf .oge : (⟨S150000x64, .f32⟩ : BufTy).Contents (Elt F) → (⟨S150000x64, .f32⟩ : BufTy).Contents (Elt F) → (⟨S150000x64, .i1⟩ : BufTy).Contents (Elt F)),
    unary main_cst_8 main_call4_v2 (id : (⟨S_, .f32⟩ : BufTy).Contents (Elt F) → (⟨S_, .f32⟩ : BufTy).Contents (Elt F)),
    unary main_call4_v2 main_call4_v3 (broadcastInDim S150000x64 ![] bcast_S_S150000x64 : (⟨S_, .f32⟩ : BufTy).Contents (Elt F) → (⟨S150000x64, .f32⟩ : BufTy).Contents (Elt F)),
    binary main_call4_v3 main_v74 main_call4_v4 (mulf : (⟨S150000x64, .f32⟩ : BufTy).Contents (Elt F) → (⟨S150000x64, .f32⟩ : BufTy).Contents (Elt F) → (⟨S150000x64, .f32⟩ : BufTy).Contents (Elt F)),
    ternary main_call4_v1 main_v74 main_call4_v4 main_v75 (select : (⟨S150000x64, .i1⟩ : BufTy).Contents (Elt F) → (⟨S150000x64, .f32⟩ : BufTy).Contents (Elt F) → (⟨S150000x64, .f32⟩ : BufTy).Contents (Elt F) → (⟨S150000x64, .f32⟩ : BufTy).Contents (Elt F)),
    binary main_v75 main_v64 main_v76 (addf : (⟨S150000x64, .f32⟩ : BufTy).Contents (Elt F) → (⟨S150000x64, .f32⟩ : BufTy).Contents (Elt F) → (⟨S150000x64, .f32⟩ : BufTy).Contents (Elt F)),
    binary main_v76 main_v76 main_call5_v0 (mulf : (⟨S150000x64, .f32⟩ : BufTy).Contents (Elt F) → (⟨S150000x64, .f32⟩ : BufTy).Contents (Elt F) → (⟨S150000x64, .f32⟩ : BufTy).Contents (Elt F)),
    nullary main_call5_cst (constant S_ .f32 0x00000000#32),
    binary main_call5_v0 main_call5_cst main_call5_v1 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_call5_v1 main_call5_v2 (broadcastInDim S150000x1 ![0] bcast_S150000_S150000x1_0 : (⟨S150000, .f32⟩ : BufTy).Contents (Elt F) → (⟨S150000x1, .f32⟩ : BufTy).Contents (Elt F)),
    unary main_call5_v2 main_v77 (Host.sqrt : (⟨S150000x1, .f32⟩ : BufTy).Contents (Elt F) → (⟨S150000x1, .f32⟩ : BufTy).Contents (Elt F)),
    nullary main_cst_9 (constant S_ .f32 0x2B8CBCCC#32),
    unary main_cst_9 main_v78 (broadcastInDim S150000x1 ![] bcast_S_S150000x1 : (⟨S_, .f32⟩ : BufTy).Contents (Elt F) → (⟨S150000x1, .f32⟩ : BufTy).Contents (Elt F)),
    binary main_v77 main_v78 main_v79 (maximumf : (⟨S150000x1, .f32⟩ : BufTy).Contents (Elt F) → (⟨S150000x1, .f32⟩ : BufTy).Contents (Elt F) → (⟨S150000x1, .f32⟩ : BufTy).Contents (Elt F)),
    unary main_v79 main_v80 (broadcastInDim S150000x64 ![0, 1] bcast_S150000x1_S150000x64_0_1 : (⟨S150000x1, .f32⟩ : BufTy).Contents (Elt F) → (⟨S150000x64, .f32⟩ : BufTy).Contents (Elt F)),
    binary main_v76 main_v80 main_v81 (Host.divf : (⟨S150000x64, .f32⟩ : BufTy).Contents (Elt F) → (⟨S150000x64, .f32⟩ : BufTy).Contents (Elt F) → (⟨S150000x64, .f32⟩ : BufTy).Contents (Elt F)) ]

/-- The third layer: the same operations from the second layer's embedding, with the third slices of the weights. -/
abbrev opsL3 : List (HloOp τ sig (Elt F)) :=
  [ unary main_arg2 main_v82 (broadcastInDim S2400000x1 ![0] bcast_S2400000_S2400000x1_0 : (⟨S2400000, .f32⟩ : BufTy).Contents (Elt F) → (⟨S2400000x1, .f32⟩ : BufTy).Contents (Elt F)),
    nullary main_c_10 (constantI S_ 32 0#32),
    unary main_c_10 main_v83 (broadcastInDim S2400000 ![] bcast_S_S2400000 : (⟨S_, .i32⟩ : BufTy).Contents (Elt F) → (⟨S2400000, .i32⟩ : BufTy).Contents (Elt F)),
    binary main_arg1 main_v83 main_v84 (cmpi .slt : (⟨S2400000, .i32⟩ : BufTy).Contents (Elt F) → (⟨S2400000, .i32⟩ : BufTy).Contents (Elt F) → (⟨S2400000, .i1⟩ : BufTy).Contents (Elt F)),
    nullary main_c_11 (constantI S_ 32 150000#32),
    unary main_c_11 main_v85 (broadcastInDim S2400000 ![] bcast_S_S2400000 : (⟨S_, .i32⟩ : BufTy).Contents (Elt F) → (⟨S2400000, .i32⟩ : BufTy).Contents (Elt F)),
    binary main_arg1 main_v85 main_v86 (addi : (⟨S2400000, .i32⟩ : BufTy).Contents (Elt F) → (⟨S2400000, .i32⟩ : BufTy).Contents (Elt F) → (⟨S2400000, .i32⟩ : BufTy).Contents (Elt F)),
    ternary main_v84 main_v86 main_arg1 main_v87 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    unary main_v87 main_v88 (broadcastInDim S2400000x1 ![0] bcast_S2400000_S2400000x1_0 : (⟨S2400000, .i32⟩ : BufTy).Contents (Elt F) → (⟨S2400000x1, .i32⟩ : BufTy).Contents (Elt F)),
    binary main_v76 main_v88 main_v89 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    unary main_v82 main_v90 (broadcastInDim S2400000x64 ![0, 1] bcast_S2400000x1_S2400000x64_0_1 : (⟨S2400000x1, .f32⟩ : BufTy).Contents (Elt F) → (⟨S2400000x64, .f32⟩ : BufTy).Contents (Elt F)),
    binary main_v90 main_v89 main_v91 (mulf : (⟨S2400000x64, .f32⟩ : BufTy).Contents (Elt F) → (⟨S2400000x64, .f32⟩ : BufTy).Contents (Elt F) → (⟨S2400000x64, .f32⟩ : BufTy).Contents (Elt F)),
    nullary main_cst_12 (constant S_ .f32 0x00000000#32),
    unary main_cst_12 main_v92 (broadcastInDim S150000x64 ![] bcast_S_S150000x64 : (⟨S_, .f32⟩ : BufTy).Contents (Elt F) → (⟨S150000x64, .f32⟩ : BufTy).Contents (Elt F)),
    unary main_arg0 main_v93 (broadcastInDim S2400000x1 ![0] bcast_S2400000_S2400000x1_0 : (⟨S2400000, .i32⟩ : BufTy).Contents (Elt F) → (⟨S2400000x1, .i32⟩ : BufTy).Contents (Elt F)),
    ternary main_v92 main_v93 main_v91 main_v94 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    binary main_v76 main_v94 main_v95 (addf : (⟨S150000x64, .f32⟩ : BufTy).Contents (Elt F) → (⟨S150000x64, .f32⟩ : BufTy).Contents (Elt F) → (⟨S150000x64, .f32⟩ : BufTy).Contents (Elt F)),
    unary main_arg4 main_v96 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v96 main_v97 rfl shapeCasts_S1x64x64_S64x64,
    unary main_v97 main_v98 ((transpose S64x64 [1, 0] · transposes_S64x64_S64x64_1_0) : (⟨S64x64, .f32⟩ : BufTy).Contents (Elt F) → (⟨S64x64, .f32⟩ : BufTy).Contents (Elt F)),
    binary main_v95 main_v98 main_v99 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg5 main_v100 ((extractStridedSlice S1x64 ![2, 0] · slices_S3x64_S1x64_2_0) : (⟨S3x64, .f32⟩ : BufTy).Contents (Elt F) → (⟨S1x64, .f32⟩ : BufTy).Contents (Elt F)),
    reshape main_v100 main_v101 rfl shapeCasts_S1x64_S64,
    unary main_v101 main_v102 (broadcastInDim S1x64 ![1] bcast_S64_S1x64_1 : (⟨S64, .f32⟩ : BufTy).Contents (Elt F) → (⟨S1x64, .f32⟩ : BufTy).Contents (Elt F)),
    unary main_v102 main_v103 (broadcastInDim S150000x64 ![0, 1] bcast_S1x64_S150000x64_0_1 : (⟨S1x64, .f32⟩ : BufTy).Contents (Elt F) → (⟨S150000x64, .f32⟩ : BufTy).Contents (Elt F)),
    binary main_v99 main_v103 main_v104 (addf : (⟨S150000x64, .f32⟩ : BufTy).Contents (Elt F) → (⟨S150000x64, .f32⟩ : BufTy).Contents (Elt F) → (⟨S150000x64, .f32⟩ : BufTy).Contents (Elt F)),
    nullary main_cst_13 (constant S_ .f32 0x3C23D70A#32),
    nullary main_call6_cst (constant S_ .f32 0x00000000#32),
    unary main_call6_cst main_call6_v0 (broadcastInDim S150000x64 ![] bcast_S_S150000x64 : (⟨S_, .f32⟩ : BufTy).Contents (Elt F) → (⟨S150000x64, .f32⟩ : BufTy).Contents (Elt F)),
    binary main_v104 main_call6_v0 main_call6_v1 (cmpf .oge : (⟨S150000x64, .f32⟩ : BufTy).Contents (Elt F) → (⟨S150000x64, .f32⟩ : BufTy).Contents (Elt F) → (⟨S150000x64, .i1⟩ : BufTy).Contents (Elt F)),
    unary main_cst_13 main_call6_v2 (id : (⟨S_, .f32⟩ : BufTy).Contents (Elt F) → (⟨S_, .f32⟩ : BufTy).Contents (Elt F)),
    unary main_call6_v2 main_call6_v3 (broadcastInDim S150000x64 ![] bcast_S_S150000x64 : (⟨S_, .f32⟩ : BufTy).Contents (Elt F) → (⟨S150000x64, .f32⟩ : BufTy).Contents (Elt F)),
    binary main_call6_v3 main_v104 main_call6_v4 (mulf : (⟨S150000x64, .f32⟩ : BufTy).Contents (Elt F) → (⟨S150000x64, .f32⟩ : BufTy).Contents (Elt F) → (⟨S150000x64, .f32⟩ : BufTy).Contents (Elt F)),
    ternary main_call6_v1 main_v104 main_call6_v4 main_v105 (select : (⟨S150000x64, .i1⟩ : BufTy).Contents (Elt F) → (⟨S150000x64, .f32⟩ : BufTy).Contents (Elt F) → (⟨S150000x64, .f32⟩ : BufTy).Contents (Elt F) → (⟨S150000x64, .f32⟩ : BufTy).Contents (Elt F)),
    binary main_v76 main_v94 main_v106 (mulf : (⟨S150000x64, .f32⟩ : BufTy).Contents (Elt F) → (⟨S150000x64, .f32⟩ : BufTy).Contents (Elt F) → (⟨S150000x64, .f32⟩ : BufTy).Contents (Elt F)),
    unary main_arg6 main_v107 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v107 main_v108 rfl shapeCasts_S1x64x64_S64x64,
    unary main_v108 main_v109 ((transpose S64x64 [1, 0] · transposes_S64x64_S64x64_1_0) : (⟨S64x64, .f32⟩ : BufTy).Contents (Elt F) → (⟨S64x64, .f32⟩ : BufTy).Contents (Elt F)),
    binary main_v106 main_v109 main_v110 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg7 main_v111 ((extractStridedSlice S1x64 ![2, 0] · slices_S3x64_S1x64_2_0) : (⟨S3x64, .f32⟩ : BufTy).Contents (Elt F) → (⟨S1x64, .f32⟩ : BufTy).Contents (Elt F)),
    reshape main_v111 main_v112 rfl shapeCasts_S1x64_S64,
    unary main_v112 main_v113 (broadcastInDim S1x64 ![1] bcast_S64_S1x64_1 : (⟨S64, .f32⟩ : BufTy).Contents (Elt F) → (⟨S1x64, .f32⟩ : BufTy).Contents (Elt F)),
    unary main_v113 main_v114 (broadcastInDim S150000x64 ![0, 1] bcast_S1x64_S150000x64_0_1 : (⟨S1x64, .f32⟩ : BufTy).Contents (Elt F) → (⟨S150000x64, .f32⟩ : BufTy).Contents (Elt F)),
    binary main_v110 main_v114 main_v115 (addf : (⟨S150000x64, .f32⟩ : BufTy).Contents (Elt F) → (⟨S150000x64, .f32⟩ : BufTy).Contents (Elt F) → (⟨S150000x64, .f32⟩ : BufTy).Contents (Elt F)),
    nullary main_cst_14 (constant S_ .f32 0x3C23D70A#32),
    nullary main_call7_cst (constant S_ .f32 0x00000000#32),
    unary main_call7_cst main_call7_v0 (broadcastInDim S150000x64 ![] bcast_S_S150000x64 : (⟨S_, .f32⟩ : BufTy).Contents (Elt F) → (⟨S150000x64, .f32⟩ : BufTy).Contents (Elt F)),
    binary main_v115 main_call7_v0 main_call7_v1 (cmpf .oge : (⟨S150000x64, .f32⟩ : BufTy).Contents (Elt F) → (⟨S150000x64, .f32⟩ : BufTy).Contents (Elt F) → (⟨S150000x64, .i1⟩ : BufTy).Contents (Elt F)),
    unary main_cst_14 main_call7_v2 (id : (⟨S_, .f32⟩ : BufTy).Contents (Elt F) → (⟨S_, .f32⟩ : BufTy).Contents (Elt F)),
    unary main_call7_v2 main_call7_v3 (broadcastInDim S150000x64 ![] bcast_S_S150000x64 : (⟨S_, .f32⟩ : BufTy).Contents (Elt F) → (⟨S150000x64, .f32⟩ : BufTy).Contents (Elt F)),
    binary main_call7_v3 main_v115 main_call7_v4 (mulf : (⟨S150000x64, .f32⟩ : BufTy).Contents (Elt F) → (⟨S150000x64, .f32⟩ : BufTy).Contents (Elt F) → (⟨S150000x64, .f32⟩ : BufTy).Contents (Elt F)),
    ternary main_call7_v1 main_v115 main_call7_v4 main_v116 (select : (⟨S150000x64, .i1⟩ : BufTy).Contents (Elt F) → (⟨S150000x64, .f32⟩ : BufTy).Contents (Elt F) → (⟨S150000x64, .f32⟩ : BufTy).Contents (Elt F) → (⟨S150000x64, .f32⟩ : BufTy).Contents (Elt F)),
    binary main_v116 main_v105 main_v117 (addf : (⟨S150000x64, .f32⟩ : BufTy).Contents (Elt F) → (⟨S150000x64, .f32⟩ : BufTy).Contents (Elt F) → (⟨S150000x64, .f32⟩ : BufTy).Contents (Elt F)),
    binary main_v117 main_v117 main_call8_v0 (mulf : (⟨S150000x64, .f32⟩ : BufTy).Contents (Elt F) → (⟨S150000x64, .f32⟩ : BufTy).Contents (Elt F) → (⟨S150000x64, .f32⟩ : BufTy).Contents (Elt F)),
    nullary main_call8_cst (constant S_ .f32 0x00000000#32),
    binary main_call8_v0 main_call8_cst main_call8_v1 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_call8_v1 main_call8_v2 (broadcastInDim S150000x1 ![0] bcast_S150000_S150000x1_0 : (⟨S150000, .f32⟩ : BufTy).Contents (Elt F) → (⟨S150000x1, .f32⟩ : BufTy).Contents (Elt F)),
    unary main_call8_v2 main_v118 (Host.sqrt : (⟨S150000x1, .f32⟩ : BufTy).Contents (Elt F) → (⟨S150000x1, .f32⟩ : BufTy).Contents (Elt F)),
    nullary main_cst_15 (constant S_ .f32 0x2B8CBCCC#32),
    unary main_cst_15 main_v119 (broadcastInDim S150000x1 ![] bcast_S_S150000x1 : (⟨S_, .f32⟩ : BufTy).Contents (Elt F) → (⟨S150000x1, .f32⟩ : BufTy).Contents (Elt F)),
    binary main_v118 main_v119 main_v120 (maximumf : (⟨S150000x1, .f32⟩ : BufTy).Contents (Elt F) → (⟨S150000x1, .f32⟩ : BufTy).Contents (Elt F) → (⟨S150000x1, .f32⟩ : BufTy).Contents (Elt F)),
    unary main_v120 main_v121 (broadcastInDim S150000x64 ![0, 1] bcast_S150000x1_S150000x64_0_1 : (⟨S150000x1, .f32⟩ : BufTy).Contents (Elt F) → (⟨S150000x64, .f32⟩ : BufTy).Contents (Elt F)),
    binary main_v117 main_v121 main_v122 (Host.divf : (⟨S150000x64, .f32⟩ : BufTy).Contents (Elt F) → (⟨S150000x64, .f32⟩ : BufTy).Contents (Elt F) → (⟨S150000x64, .f32⟩ : BufTy).Contents (Elt F)) ]

/-- The join of the input embedding and the three normalized embeddings along the columns, and the two row slices returned. -/
abbrev opsT : List (HloOp τ sig (Elt F)) :=
  [ nary ![main_arg3, main_v40, main_v81, main_v122] main_v123 (fun u => concatenate S150000x256 1 [⟨S150000x64, u 0⟩, ⟨S150000x64, u 1⟩, ⟨S150000x64, u 2⟩, ⟨S150000x64, u 3⟩] concatenates_S150000x64_S150000x64_S150000x64_S150000x64_S150000x256_d1),
    unary main_v123 main_v124 ((extractStridedSlice S50000x256 ![0, 0] · slices_S150000x256_S50000x256_0_0) : (⟨S150000x256, .f32⟩ : BufTy).Contents (Elt F) → (⟨S50000x256, .f32⟩ : BufTy).Contents (Elt F)),
    unary main_v123 main_v125 ((extractStridedSlice S100000x256 ![50000, 0] · slices_S150000x256_S100000x256_50000_0) : (⟨S150000x256, .f32⟩ : BufTy).Contents (Elt F) → (⟨S100000x256, .f32⟩ : BufTy).Contents (Elt F)) ]

/-- @main's 192 operations, in order. -/
abbrev ops : List (HloOp τ sig (Elt F)) := opsL1 ++ (opsL2 ++ (opsL3 ++ opsT))

/-- The signature scopes no buffer and no semaphore of the TensorCore. -/
theorem scopedRefs_eq : (Finset.univ.filter fun b : Ref sig .tc => b.isScoped) = ∅ := by decide
theorem scopedSems_eq : (Finset.univ.filter fun sm : SemLoc sig => sm.isScoped .tc) = ∅ := by decide

/-- Every operation of this stretch touches TensorCore references only. -/
theorem opsL1_sub : (opsL1 : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., binary_bufs_sub .., unary_bufs_sub ..,
    reshape_bufs_sub .., unary_bufs_sub .., binary_bufs_sub .., unary_bufs_sub .., reshape_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., unary_bufs_sub ..,
    reshape_bufs_sub .., unary_bufs_sub .., binary_bufs_sub .., unary_bufs_sub .., reshape_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., binary_bufs_sub ..,
    nullary_bufs_sub .., binary_bufs_sub .., unary_bufs_sub .., unary_bufs_sub .., nullary_bufs_sub .., unary_bufs_sub ..,
    binary_bufs_sub .., unary_bufs_sub .., binary_bufs_sub ..⟩

/-- Every operation of this stretch touches TensorCore references only. -/
theorem opsL2_sub : (opsL2 : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., binary_bufs_sub .., unary_bufs_sub ..,
    reshape_bufs_sub .., unary_bufs_sub .., binary_bufs_sub .., unary_bufs_sub .., reshape_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., unary_bufs_sub ..,
    reshape_bufs_sub .., unary_bufs_sub .., binary_bufs_sub .., unary_bufs_sub .., reshape_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., binary_bufs_sub ..,
    nullary_bufs_sub .., binary_bufs_sub .., unary_bufs_sub .., unary_bufs_sub .., nullary_bufs_sub .., unary_bufs_sub ..,
    binary_bufs_sub .., unary_bufs_sub .., binary_bufs_sub ..⟩

/-- Every operation of this stretch touches TensorCore references only. -/
theorem opsL3_sub : (opsL3 : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., binary_bufs_sub .., unary_bufs_sub ..,
    reshape_bufs_sub .., unary_bufs_sub .., binary_bufs_sub .., unary_bufs_sub .., reshape_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., unary_bufs_sub ..,
    reshape_bufs_sub .., unary_bufs_sub .., binary_bufs_sub .., unary_bufs_sub .., reshape_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., binary_bufs_sub ..,
    nullary_bufs_sub .., binary_bufs_sub .., unary_bufs_sub .., unary_bufs_sub .., nullary_bufs_sub .., unary_bufs_sub ..,
    binary_bufs_sub .., unary_bufs_sub .., binary_bufs_sub ..⟩

/-- Every operation of this stretch touches TensorCore references only. -/
theorem opsT_sub : (opsT : List (HloOp τ sig (Elt F))).Forall fun op => op.bufs ⊆ tcRefs τ sig :=
  ⟨nary_bufs_sub .., unary_bufs_sub .., unary_bufs_sub ..⟩

end Cert.ReferenceIdeal.RefRun

end
-- ==== Proof.RefDefs.lean ====
/-
  The reference's two results as pure functions of its eight argument arrays.

  The reference propagates an embedding of 150000 rows and 64 columns through three layers. One layer, from the
  embedding `x`: the sparse product `side` adds, into a zero array, at row `rows e` the row `cols e` of `x`
  (a negative column index first moved up by the row count) scaled by `vals e`, for each of the 2400000 edges
  `e`; the new embedding `layerEgo` is the sum of two dense branches, each a product with a transposed 64 by 64
  weight plus a bias row, passed through the leaky rectifier: one branch from `x * side`, the other from
  `x + side`; `layerNorm` divides each row of an embedding by its Euclidean norm, bounded below by a small
  constant. The three layers use the first, second and third slices of the four weight arguments. The results
  are the first 50000 and the last 100000 rows of the input embedding and the three normalized embeddings joined
  along the columns. Every definition below is spelt with the program's own operations and shape records.
-/
import proofs.«180967_j19731079758337_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- One sparse product: for each edge, row `cols e` of `x` (the index moved up by 150000 when negative), scaled
    by `vals e`, added into row `rows e` of a zero array. -/
def side (rows cols : (⟨S2400000, .i32⟩ : BufTy).Contents (Elt F)) (vals : (⟨S2400000, .f32⟩ : BufTy).Contents (Elt F))
    (x : (⟨S150000x64, .f32⟩ : BufTy).Contents (Elt F)) : (⟨S150000x64, .f32⟩ : BufTy).Contents (Elt F) :=
  Host.scatterAdd scatter_S150000x64_S2400000x1_S2400000x64_1_0_0_1
    (broadcastInDim S150000x64 ![] bcast_S_S150000x64 (constant S_ .f32 0x00000000#32))
    (broadcastInDim S2400000x1 ![0] bcast_S2400000_S2400000x1_0 rows)
    (mulf
      (broadcastInDim S2400000x64 ![0, 1] bcast_S2400000x1_S2400000x64_0_1
        (broadcastInDim S2400000x1 ![0] bcast_S2400000_S2400000x1_0 vals))
      (Host.gather gather_S150000x64_S2400000x1_S2400000x64_1_0_n_n_0_1_164 x
        (broadcastInDim S2400000x1 ![0] bcast_S2400000_S2400000x1_0
          (select (cmpi .slt cols (broadcastInDim S2400000 ![] bcast_S_S2400000 (constantI S_ 32 0#32)))
            (addi cols (broadcastInDim S2400000 ![] bcast_S_S2400000 (constantI S_ 32 150000#32)))
            cols))))

/-- The leaky rectifier with the slope the program states: `u` where `u ≥ 0`, the slope times `u` elsewhere. -/
def leaky (u : (⟨S150000x64, .f32⟩ : BufTy).Contents (Elt F)) : (⟨S150000x64, .f32⟩ : BufTy).Contents (Elt F) :=
  select (cmpf .oge u (broadcastInDim S150000x64 ![] bcast_S_S150000x64 (constant S_ .f32 0x00000000#32))) u
    (mulf (broadcastInDim S150000x64 ![] bcast_S_S150000x64 (id (constant S_ .f32 0x3C23D70A#32))) u)

/-- One dense branch: `u` times the transpose of the 64 by 64 weight `w` (given as its slice of one), plus the
    bias row `b` (given as its slice of one) on every row. -/
def dense (u : (⟨S150000x64, .f32⟩ : BufTy).Contents (Elt F)) (w : (⟨S1x64x64, .f32⟩ : BufTy).Contents (Elt F)) (b : (⟨S1x64, .f32⟩ : BufTy).Contents (Elt F)) :
    (⟨S150000x64, .f32⟩ : BufTy).Contents (Elt F) :=
  addf
    (Host.dotGeneral dot_S150000x64_S64x64_S150000x64_1_0_0_1_n_n none u
      (transpose S64x64 [1, 0] (shapeCast S64x64 w shapeCasts_S1x64x64_S64x64) transposes_S64x64_S64x64_1_0))
    (broadcastInDim S150000x64 ![0, 1] bcast_S1x64_S150000x64_0_1
      (broadcastInDim S1x64 ![1] bcast_S64_S1x64_1 (shapeCast S64 b shapeCasts_S1x64_S64)))

/-- The new embedding of one layer from the old one `x`, its sparse product `s`, and the layer's slices of the
    four weight arguments: the rectified branch of `x * s` (second weight and bias) plus the rectified branch of
    `x + s` (first weight and bias). -/
def layerEgo (x s : (⟨S150000x64, .f32⟩ : BufTy).Contents (Elt F)) (w1 : (⟨S1x64x64, .f32⟩ : BufTy).Contents (Elt F)) (b1 : (⟨S1x64, .f32⟩ : BufTy).Contents (Elt F))
    (w2 : (⟨S1x64x64, .f32⟩ : BufTy).Contents (Elt F)) (b2 : (⟨S1x64, .f32⟩ : BufTy).Contents (Elt F)) : (⟨S150000x64, .f32⟩ : BufTy).Contents (Elt F) :=
  addf (leaky (dense (mulf x s) w2 b2)) (leaky (dense (addf x s) w1 b1))

/-- The Euclidean norm of each row, as a column. -/
def rowNorm (e : (⟨S150000x64, .f32⟩ : BufTy).Contents (Elt F)) : (⟨S150000x1, .f32⟩ : BufTy).Contents (Elt F) :=
  Host.sqrt (broadcastInDim S150000x1 ![0] bcast_S150000_S150000x1_0
    (Host.reduceAdd (mulf e e) (constant S_ .f32 0x00000000#32) reducesTo_S150000x64_S150000_d1 h_S_))

/-- Each row divided by its norm, the norm bounded below by the constant the program states. -/
def layerNorm (e : (⟨S150000x64, .f32⟩ : BufTy).Contents (Elt F)) : (⟨S150000x64, .f32⟩ : BufTy).Contents (Elt F) :=
  Host.divf e (broadcastInDim S150000x64 ![0, 1] bcast_S150000x1_S150000x64_0_1
    (maximumf (rowNorm e) (broadcastInDim S150000x1 ![] bcast_S_S150000x1 (constant S_ .f32 0x2B8CBCCC#32))))

/-- One layer's new embedding from the old one `x`: the sparse product is taken of `x` itself. -/
def layerOf (rows cols : (⟨S2400000, .i32⟩ : BufTy).Contents (Elt F)) (vals : (⟨S2400000, .f32⟩ : BufTy).Contents (Elt F))
    (x : (⟨S150000x64, .f32⟩ : BufTy).Contents (Elt F)) (w1 : (⟨S1x64x64, .f32⟩ : BufTy).Contents (Elt F)) (b1 : (⟨S1x64, .f32⟩ : BufTy).Contents (Elt F))
    (w2 : (⟨S1x64x64, .f32⟩ : BufTy).Contents (Elt F)) (b2 : (⟨S1x64, .f32⟩ : BufTy).Contents (Elt F)) : (⟨S150000x64, .f32⟩ : BufTy).Contents (Elt F) :=
  layerEgo x (side rows cols vals x) w1 b1 w2 b2

/-- The first, second and third slices of one of a 3 by 64 by 64 weight argument. -/
def wslice0 (a : (⟨S3x64x64, .f32⟩ : BufTy).Contents (Elt F)) : (⟨S1x64x64, .f32⟩ : BufTy).Contents (Elt F) :=
  extractStridedSlice S1x64x64 ![0, 0, 0] a slices_S3x64x64_S1x64x64_0_0_0
def wslice1 (a : (⟨S3x64x64, .f32⟩ : BufTy).Contents (Elt F)) : (⟨S1x64x64, .f32⟩ : BufTy).Contents (Elt F) :=
  extractStridedSlice S1x64x64 ![1, 0, 0] a slices_S3x64x64_S1x64x64_1_0_0
def wslice2 (a : (⟨S3x64x64, .f32⟩ : BufTy).Contents (Elt F)) : (⟨S1x64x64, .f32⟩ : BufTy).Contents (Elt F) :=
  extractStridedSlice S1x64x64 ![2, 0, 0] a slices_S3x64x64_S1x64x64_2_0_0

/-- The first, second and third rows of a 3 by 64 bias argument, each as a slice of one row. -/
def bslice0 (a : (⟨S3x64, .f32⟩ : BufTy).Contents (Elt F)) : (⟨S1x64, .f32⟩ : BufTy).Contents (Elt F) :=
  extractStridedSlice S1x64 ![0, 0] a slices_S3x64_S1x64_0_0
def bslice1 (a : (⟨S3x64, .f32⟩ : BufTy).Contents (Elt F)) : (⟨S1x64, .f32⟩ : BufTy).Contents (Elt F) :=
  extractStridedSlice S1x64 ![1, 0] a slices_S3x64_S1x64_1_0
def bslice2 (a : (⟨S3x64, .f32⟩ : BufTy).Contents (Elt F)) : (⟨S1x64, .f32⟩ : BufTy).Contents (Elt F) :=
  extractStridedSlice S1x64 ![2, 0] a slices_S3x64_S1x64_2_0

/-- The embedding after the first layer, as a function of the eight arguments. -/
def emb1 (a0 : (⟨S2400000, .i32⟩ : BufTy).Contents (Elt F))
    (a1 : (⟨S2400000, .i32⟩ : BufTy).Contents (Elt F))
    (a2 : (⟨S2400000, .f32⟩ : BufTy).Contents (Elt F))
    (a3 : (⟨S150000x64, .f32⟩ : BufTy).Contents (Elt F))
    (a4 : (⟨S3x64x64, .f32⟩ : BufTy).Contents (Elt F))
    (a5 : (⟨S3x64, .f32⟩ : BufTy).Contents (Elt F))
    (a6 : (⟨S3x64x64, .f32⟩ : BufTy).Contents (Elt F))
    (a7 : (⟨S3x64, .f32⟩ : BufTy).Contents (Elt F)) : (⟨S150000x64, .f32⟩ : BufTy).Contents (Elt F) :=
  layerOf a0 a1 a2 a3 (wslice0 a4) (bslice0 a5) (wslice0 a6) (bslice0 a7)

/-- The embedding after the second layer. -/
def emb2 (a0 : (⟨S2400000, .i32⟩ : BufTy).Contents (Elt F))
    (a1 : (⟨S2400000, .i32⟩ : BufTy).Contents (Elt F))
    (a2 : (⟨S2400000, .f32⟩ : BufTy).Contents (Elt F))
    (a3 : (⟨S150000x64, .f32⟩ : BufTy).Contents (Elt F))
    (a4 : (⟨S3x64x64, .f32⟩ : BufTy).Contents (Elt F))
    (a5 : (⟨S3x64, .f32⟩ : BufTy).Contents (Elt F))
    (a6 : (⟨S3x64x64, .f32⟩ : BufTy).Contents (Elt F))
    (a7 : (⟨S3x64, .f32⟩ : BufTy).Contents (Elt F)) : (⟨S150000x64, .f32⟩ : BufTy).Contents (Elt F) :=
  layerOf a0 a1 a2 (emb1 a0 a1 a2 a3 a4 a5 a6 a7) (wslice1 a4) (bslice1 a5) (wslice1 a6) (bslice1 a7)

/-- The embedding after the third layer. -/
def emb3 (a0 : (⟨S2400000, .i32⟩ : BufTy).Contents (Elt F))
    (a1 : (⟨S2400000, .i32⟩ : BufTy).Contents (Elt F))
    (a2 : (⟨S2400000, .f32⟩ : BufTy).Contents (Elt F))
    (a3 : (⟨S150000x64, .f32⟩ : BufTy).Contents (Elt F))
    (a4 : (⟨S3x64x64, .f32⟩ : BufTy).Contents (Elt F))
    (a5 : (⟨S3x64, .f32⟩ : BufTy).Contents (Elt F))
    (a6 : (⟨S3x64x64, .f32⟩ : BufTy).Contents (Elt F))
    (a7 : (⟨S3x64, .f32⟩ : BufTy).Contents (Elt F)) : (⟨S150000x64, .f32⟩ : BufTy).Contents (Elt F) :=
  layerOf a0 a1 a2 (emb2 a0 a1 a2 a3 a4 a5 a6 a7) (wslice2 a4) (bslice2 a5) (wslice2 a6) (bslice2 a7)

/-- Four embeddings joined along the columns. -/
def joinOf (x n1 n2 n3 : (⟨S150000x64, .f32⟩ : BufTy).Contents (Elt F)) : (⟨S150000x256, .f32⟩ : BufTy).Contents (Elt F) :=
  concatenate S150000x256 1 [⟨S150000x64, x⟩, ⟨S150000x64, n1⟩, ⟨S150000x64, n2⟩, ⟨S150000x64, n3⟩]
    concatenates_S150000x64_S150000x64_S150000x64_S150000x64_S150000x256_d1

/-- The first 50000 rows, and the last 100000 rows, of a joined array. -/
def rows124 (j : (⟨S150000x256, .f32⟩ : BufTy).Contents (Elt F)) : (⟨S50000x256, .f32⟩ : BufTy).Contents (Elt F) :=
  extractStridedSlice S50000x256 ![0, 0] j slices_S150000x256_S50000x256_0_0
def rows125 (j : (⟨S150000x256, .f32⟩ : BufTy).Contents (Elt F)) : (⟨S100000x256, .f32⟩ : BufTy).Contents (Elt F) :=
  extractStridedSlice S100000x256 ![50000, 0] j slices_S150000x256_S100000x256_50000_0

/-- The input embedding and the three normalized embeddings, joined. -/
def joined (a0 : (⟨S2400000, .i32⟩ : BufTy).Contents (Elt F))
    (a1 : (⟨S2400000, .i32⟩ : BufTy).Contents (Elt F))
    (a2 : (⟨S2400000, .f32⟩ : BufTy).Contents (Elt F))
    (a3 : (⟨S150000x64, .f32⟩ : BufTy).Contents (Elt F))
    (a4 : (⟨S3x64x64, .f32⟩ : BufTy).Contents (Elt F))
    (a5 : (⟨S3x64, .f32⟩ : BufTy).Contents (Elt F))
    (a6 : (⟨S3x64x64, .f32⟩ : BufTy).Contents (Elt F))
    (a7 : (⟨S3x64, .f32⟩ : BufTy).Contents (Elt F)) : (⟨S150000x256, .f32⟩ : BufTy).Contents (Elt F) :=
  joinOf a3 (layerNorm (emb1 a0 a1 a2 a3 a4 a5 a6 a7)) (layerNorm (emb2 a0 a1 a2 a3 a4 a5 a6 a7)) (layerNorm (emb3 a0 a1 a2 a3 a4 a5 a6 a7))

/-- The reference's first result as a function of its eight arguments. -/
def out124 (a0 : (⟨S2400000, .i32⟩ : BufTy).Contents (Elt F))
    (a1 : (⟨S2400000, .i32⟩ : BufTy).Contents (Elt F))
    (a2 : (⟨S2400000, .f32⟩ : BufTy).Contents (Elt F))
    (a3 : (⟨S150000x64, .f32⟩ : BufTy).Contents (Elt F))
    (a4 : (⟨S3x64x64, .f32⟩ : BufTy).Contents (Elt F))
    (a5 : (⟨S3x64, .f32⟩ : BufTy).Contents (Elt F))
    (a6 : (⟨S3x64x64, .f32⟩ : BufTy).Contents (Elt F))
    (a7 : (⟨S3x64, .f32⟩ : BufTy).Contents (Elt F)) : (⟨S50000x256, .f32⟩ : BufTy).Contents (Elt F) :=
  rows124 (joined a0 a1 a2 a3 a4 a5 a6 a7)

/-- The reference's second result as a function of its eight arguments. -/
def out125 (a0 : (⟨S2400000, .i32⟩ : BufTy).Contents (Elt F))
    (a1 : (⟨S2400000, .i32⟩ : BufTy).Contents (Elt F))
    (a2 : (⟨S2400000, .f32⟩ : BufTy).Contents (Elt F))
    (a3 : (⟨S150000x64, .f32⟩ : BufTy).Contents (Elt F))
    (a4 : (⟨S3x64x64, .f32⟩ : BufTy).Contents (Elt F))
    (a5 : (⟨S3x64, .f32⟩ : BufTy).Contents (Elt F))
    (a6 : (⟨S3x64x64, .f32⟩ : BufTy).Contents (Elt F))
    (a7 : (⟨S3x64, .f32⟩ : BufTy).Contents (Elt F)) : (⟨S100000x256, .f32⟩ : BufTy).Contents (Elt F) :=
  rows125 (joined a0 a1 a2 a3 a4 a5 a6 a7)

end Cert.ReferenceIdeal.RefRun

end
-- ==== Proof.RefMainEq.lean ====
/-
  The reference's @main is the line of its operations.

  Unfolding the three windows @main is printed in, and each module-local function at its nine calls, leaves one
  chain of host steps: the same chain as the list of operations run in order. An operation of a callee is written
  in the program over references that carry their type, and in the list over the plain references; the two agree
  by computation, the carried type being the reference's own.
-/
import proofs.«180967_j19731079758337_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- @main, on any device, is the straight line of its 192 operations. -/
theorem main_eq (c : Dev nD) : main (F := F) c = seq ops := rfl

end Cert.ReferenceIdeal.RefRun

end
-- ==== Proof.RefLayer1.lean ====
/-
  Layer 1 of the reference, from any contents of the buffers.

  From contents `W`, the 63 operations of layer 1 leave the layer's embedding buffer at the layer's function
  of what `W` holds at the three edge arguments, at the old embedding's buffer, and at the four weight
  arguments, and the normalized buffer at its row normalization: each operation's result buffer is read back at
  its function of its operands' buffers, down to buffers no operation of the layer writes. Buffers the layer
  does not write keep what `W` holds there.
-/
import proofs.«180967_j19731079758337_1_alg».proof.Proof.RefOps
import proofs.«180967_j19731079758337_1_alg».proof.Proof.RefDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The layer's embedding. -/
theorem layer1_ego (W : Valuation τ sig (Elt F)) :
    after opsL1 W (main_v35 : DevRef τ sig)
      = layerOf (W (main_arg0 : DevRef τ sig)) (W (main_arg1 : DevRef τ sig)) (W (main_arg2 : DevRef τ sig)) (W (main_arg3 : DevRef τ sig))
          (wslice0 (W (main_arg4 : DevRef τ sig))) (bslice0 (W (main_arg5 : DevRef τ sig))) (wslice0 (W (main_arg6 : DevRef τ sig))) (bslice0 (W (main_arg7 : DevRef τ sig))) := by
  after_results_simp
  rfl

set_option maxHeartbeats 4000000 in
/-- The layer's normalized embedding. -/
theorem layer1_norm (W : Valuation τ sig (Elt F)) :
    after opsL1 W (main_v40 : DevRef τ sig)
      = layerNorm (layerOf (W (main_arg0 : DevRef τ sig)) (W (main_arg1 : DevRef τ sig)) (W (main_arg2 : DevRef τ sig)) (W (main_arg3 : DevRef τ sig))
          (wslice0 (W (main_arg4 : DevRef τ sig))) (bslice0 (W (main_arg5 : DevRef τ sig))) (wslice0 (W (main_arg6 : DevRef τ sig))) (bslice0 (W (main_arg7 : DevRef τ sig)))) := by
  after_results_simp
  rfl

/-- No operation of the layer writes `main_arg0`: the buffer keeps its contents. -/
theorem layer1_keeps_arg0 (W : Valuation τ sig (Elt F)) :
    after opsL1 W (main_arg0 : DevRef τ sig) = W (main_arg0 : DevRef τ sig) := by
  after_results_simp

/-- No operation of the layer writes `main_arg1`: the buffer keeps its contents. -/
theorem layer1_keeps_arg1 (W : Valuation τ sig (Elt F)) :
    after opsL1 W (main_arg1 : DevRef τ sig) = W (main_arg1 : DevRef τ sig) := by
  after_results_simp

/-- No operation of the layer writes `main_arg2`: the buffer keeps its contents. -/
theorem layer1_keeps_arg2 (W : Valuation τ sig (Elt F)) :
    after opsL1 W (main_arg2 : DevRef τ sig) = W (main_arg2 : DevRef τ sig) := by
  after_results_simp

/-- No operation of the layer writes `main_arg3`: the buffer keeps its contents. -/
theorem layer1_keeps_arg3 (W : Valuation τ sig (Elt F)) :
    after opsL1 W (main_arg3 : DevRef τ sig) = W (main_arg3 : DevRef τ sig) := by
  after_results_simp

/-- No operation of the layer writes `main_arg4`: the buffer keeps its contents. -/
theorem layer1_keeps_arg4 (W : Valuation τ sig (Elt F)) :
    after opsL1 W (main_arg4 : DevRef τ sig) = W (main_arg4 : DevRef τ sig) := by
  after_results_simp

/-- No operation of the layer writes `main_arg5`: the buffer keeps its contents. -/
theorem layer1_keeps_arg5 (W : Valuation τ sig (Elt F)) :
    after opsL1 W (main_arg5 : DevRef τ sig) = W (main_arg5 : DevRef τ sig) := by
  after_results_simp

/-- No operation of the layer writes `main_arg6`: the buffer keeps its contents. -/
theorem layer1_keeps_arg6 (W : Valuation τ sig (Elt F)) :
    after opsL1 W (main_arg6 : DevRef τ sig) = W (main_arg6 : DevRef τ sig) := by
  after_results_simp

/-- No operation of the layer writes `main_arg7`: the buffer keeps its contents. -/
theorem layer1_keeps_arg7 (W : Valuation τ sig (Elt F)) :
    after opsL1 W (main_arg7 : DevRef τ sig) = W (main_arg7 : DevRef τ sig) := by
  after_results_simp

/-- Every operation of the stretch determines its results. -/
theorem opsL1_fresh : ∀ op ∈ (opsL1 : List (HloOp τ sig (Elt F))), op.fresh = ∅ := by
  intro _ h
  repeat (cases h with | head => rfl | tail _ h => ?_)
  exact nomatch h

end Cert.ReferenceIdeal.RefRun

end
-- ==== Proof.RefLayer2.lean ====
/-
  Layer 2 of the reference, from any contents of the buffers.

  From contents `W`, the 63 operations of layer 2 leave the layer's embedding buffer at the layer's function
  of what `W` holds at the three edge arguments, at the old embedding's buffer, and at the four weight
  arguments, and the normalized buffer at its row normalization: each operation's result buffer is read back at
  its function of its operands' buffers, down to buffers no operation of the layer writes. Buffers the layer
  does not write keep what `W` holds there.
-/
import proofs.«180967_j19731079758337_1_alg».proof.Proof.RefOps
import proofs.«180967_j19731079758337_1_alg».proof.Proof.RefDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The layer's embedding. -/
theorem layer2_ego (W : Valuation τ sig (Elt F)) :
    after opsL2 W (main_v76 : DevRef τ sig)
      = layerOf (W (main_arg0 : DevRef τ sig)) (W (main_arg1 : DevRef τ sig)) (W (main_arg2 : DevRef τ sig)) (W (main_v35 : DevRef τ sig))
          (wslice1 (W (main_arg4 : DevRef τ sig))) (bslice1 (W (main_arg5 : DevRef τ sig))) (wslice1 (W (main_arg6 : DevRef τ sig))) (bslice1 (W (main_arg7 : DevRef τ sig))) := by
  after_results_simp
  rfl

set_option maxHeartbeats 4000000 in
/-- The layer's normalized embedding. -/
theorem layer2_norm (W : Valuation τ sig (Elt F)) :
    after opsL2 W (main_v81 : DevRef τ sig)
      = layerNorm (layerOf (W (main_arg0 : DevRef τ sig)) (W (main_arg1 : DevRef τ sig)) (W (main_arg2 : DevRef τ sig)) (W (main_v35 : DevRef τ sig))
          (wslice1 (W (main_arg4 : DevRef τ sig))) (bslice1 (W (main_arg5 : DevRef τ sig))) (wslice1 (W (main_arg6 : DevRef τ sig))) (bslice1 (W (main_arg7 : DevRef τ sig)))) := by
  after_results_simp
  rfl

/-- No operation of the layer writes `main_arg0`: the buffer keeps its contents. -/
theorem layer2_keeps_arg0 (W : Valuation τ sig (Elt F)) :
    after opsL2 W (main_arg0 : DevRef τ sig) = W (main_arg0 : DevRef τ sig) := by
  after_results_simp

/-- No operation of the layer writes `main_arg1`: the buffer keeps its contents. -/
theorem layer2_keeps_arg1 (W : Valuation τ sig (Elt F)) :
    after opsL2 W (main_arg1 : DevRef τ sig) = W (main_arg1 : DevRef τ sig) := by
  after_results_simp

/-- No operation of the layer writes `main_arg2`: the buffer keeps its contents. -/
theorem layer2_keeps_arg2 (W : Valuation τ sig (Elt F)) :
    after opsL2 W (main_arg2 : DevRef τ sig) = W (main_arg2 : DevRef τ sig) := by
  after_results_simp

/-- No operation of the layer writes `main_arg3`: the buffer keeps its contents. -/
theorem layer2_keeps_arg3 (W : Valuation τ sig (Elt F)) :
    after opsL2 W (main_arg3 : DevRef τ sig) = W (main_arg3 : DevRef τ sig) := by
  after_results_simp

/-- No operation of the layer writes `main_arg4`: the buffer keeps its contents. -/
theorem layer2_keeps_arg4 (W : Valuation τ sig (Elt F)) :
    after opsL2 W (main_arg4 : DevRef τ sig) = W (main_arg4 : DevRef τ sig) := by
  after_results_simp

/-- No operation of the layer writes `main_arg5`: the buffer keeps its contents. -/
theorem layer2_keeps_arg5 (W : Valuation τ sig (Elt F)) :
    after opsL2 W (main_arg5 : DevRef τ sig) = W (main_arg5 : DevRef τ sig) := by
  after_results_simp

/-- No operation of the layer writes `main_arg6`: the buffer keeps its contents. -/
theorem layer2_keeps_arg6 (W : Valuation τ sig (Elt F)) :
    after opsL2 W (main_arg6 : DevRef τ sig) = W (main_arg6 : DevRef τ sig) := by
  after_results_simp

/-- No operation of the layer writes `main_arg7`: the buffer keeps its contents. -/
theorem layer2_keeps_arg7 (W : Valuation τ sig (Elt F)) :
    after opsL2 W (main_arg7 : DevRef τ sig) = W (main_arg7 : DevRef τ sig) := by
  after_results_simp

/-- No operation of the layer writes `main_v40`: the buffer keeps its contents. -/
theorem layer2_keeps_v40 (W : Valuation τ sig (Elt F)) :
    after opsL2 W (main_v40 : DevRef τ sig) = W (main_v40 : DevRef τ sig) := by
  after_results_simp

/-- Every operation of the stretch determines its results. -/
theorem opsL2_fresh : ∀ op ∈ (opsL2 : List (HloOp τ sig (Elt F))), op.fresh = ∅ := by
  intro _ h
  repeat (cases h with | head => rfl | tail _ h => ?_)
  exact nomatch h

end Cert.ReferenceIdeal.RefRun

end
-- ==== Proof.RefLayer3.lean ====
/-
  Layer 3 of the reference, from any contents of the buffers.

  From contents `W`, the 63 operations of layer 3 leave the layer's embedding buffer at the layer's function
  of what `W` holds at the three edge arguments, at the old embedding's buffer, and at the four weight
  arguments, and the normalized buffer at its row normalization: each operation's result buffer is read back at
  its function of its operands' buffers, down to buffers no operation of the layer writes. Buffers the layer
  does not write keep what `W` holds there.
-/
import proofs.«180967_j19731079758337_1_alg».proof.Proof.RefOps
import proofs.«180967_j19731079758337_1_alg».proof.Proof.RefDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The layer's embedding. -/
theorem layer3_ego (W : Valuation τ sig (Elt F)) :
    after opsL3 W (main_v117 : DevRef τ sig)
      = layerOf (W (main_arg0 : DevRef τ sig)) (W (main_arg1 : DevRef τ sig)) (W (main_arg2 : DevRef τ sig)) (W (main_v76 : DevRef τ sig))
          (wslice2 (W (main_arg4 : DevRef τ sig))) (bslice2 (W (main_arg5 : DevRef τ sig))) (wslice2 (W (main_arg6 : DevRef τ sig))) (bslice2 (W (main_arg7 : DevRef τ sig))) := by
  after_results_simp
  rfl

set_option maxHeartbeats 4000000 in
/-- The layer's normalized embedding. -/
theorem layer3_norm (W : Valuation τ sig (Elt F)) :
    after opsL3 W (main_v122 : DevRef τ sig)
      = layerNorm (layerOf (W (main_arg0 : DevRef τ sig)) (W (main_arg1 : DevRef τ sig)) (W (main_arg2 : DevRef τ sig)) (W (main_v76 : DevRef τ sig))
          (wslice2 (W (main_arg4 : DevRef τ sig))) (bslice2 (W (main_arg5 : DevRef τ sig))) (wslice2 (W (main_arg6 : DevRef τ sig))) (bslice2 (W (main_arg7 : DevRef τ sig)))) := by
  after_results_simp
  rfl

/-- No operation of the layer writes `main_arg0`: the buffer keeps its contents. -/
theorem layer3_keeps_arg0 (W : Valuation τ sig (Elt F)) :
    after opsL3 W (main_arg0 : DevRef τ sig) = W (main_arg0 : DevRef τ sig) := by
  after_results_simp

/-- No operation of the layer writes `main_arg1`: the buffer keeps its contents. -/
theorem layer3_keeps_arg1 (W : Valuation τ sig (Elt F)) :
    after opsL3 W (main_arg1 : DevRef τ sig) = W (main_arg1 : DevRef τ sig) := by
  after_results_simp

/-- No operation of the layer writes `main_arg2`: the buffer keeps its contents. -/
theorem layer3_keeps_arg2 (W : Valuation τ sig (Elt F)) :
    after opsL3 W (main_arg2 : DevRef τ sig) = W (main_arg2 : DevRef τ sig) := by
  after_results_simp

/-- No operation of the layer writes `main_arg3`: the buffer keeps its contents. -/
theorem layer3_keeps_arg3 (W : Valuation τ sig (Elt F)) :
    after opsL3 W (main_arg3 : DevRef τ sig) = W (main_arg3 : DevRef τ sig) := by
  after_results_simp

/-- No operation of the layer writes `main_arg4`: the buffer keeps its contents. -/
theorem layer3_keeps_arg4 (W : Valuation τ sig (Elt F)) :
    after opsL3 W (main_arg4 : DevRef τ sig) = W (main_arg4 : DevRef τ sig) := by
  after_results_simp

/-- No operation of the layer writes `main_arg5`: the buffer keeps its contents. -/
theorem layer3_keeps_arg5 (W : Valuation τ sig (Elt F)) :
    after opsL3 W (main_arg5 : DevRef τ sig) = W (main_arg5 : DevRef τ sig) := by
  after_results_simp

/-- No operation of the layer writes `main_arg6`: the buffer keeps its contents. -/
theorem layer3_keeps_arg6 (W : Valuation τ sig (Elt F)) :
    after opsL3 W (main_arg6 : DevRef τ sig) = W (main_arg6 : DevRef τ sig) := by
  after_results_simp

/-- No operation of the layer writes `main_arg7`: the buffer keeps its contents. -/
theorem layer3_keeps_arg7 (W : Valuation τ sig (Elt F)) :
    after opsL3 W (main_arg7 : DevRef τ sig) = W (main_arg7 : DevRef τ sig) := by
  after_results_simp

/-- No operation of the layer writes `main_v40`: the buffer keeps its contents. -/
theorem layer3_keeps_v40 (W : Valuation τ sig (Elt F)) :
    after opsL3 W (main_v40 : DevRef τ sig) = W (main_v40 : DevRef τ sig) := by
  after_results_simp

/-- No operation of the layer writes `main_v81`: the buffer keeps its contents. -/
theorem layer3_keeps_v81 (W : Valuation τ sig (Elt F)) :
    after opsL3 W (main_v81 : DevRef τ sig) = W (main_v81 : DevRef τ sig) := by
  after_results_simp

/-- Every operation of the stretch determines its results. -/
theorem opsL3_fresh : ∀ op ∈ (opsL3 : List (HloOp τ sig (Elt F))), op.fresh = ∅ := by
  intro _ h
  repeat (cases h with | head => rfl | tail _ h => ?_)
  exact nomatch h

end Cert.ReferenceIdeal.RefRun

end
-- ==== Proof.RefTail.lean ====
/-
  The reference's last three operations, from any contents of the buffers.

  From contents `W`, the join and the two row slices leave the two result buffers at the first 50000 and the last
  100000 rows of what `W` holds at the input embedding's buffer and at the three normalized embeddings' buffers,
  joined along the columns; the argument buffers keep what `W` holds there.
-/
import proofs.«180967_j19731079758337_1_alg».proof.Proof.RefOps
import proofs.«180967_j19731079758337_1_alg».proof.Proof.RefDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The first result. -/
theorem tail_v124 (W : Valuation τ sig (Elt F)) :
    after opsT W (main_v124 : DevRef τ sig)
      = rows124 (joinOf (W (main_arg3 : DevRef τ sig)) (W (main_v40 : DevRef τ sig)) (W (main_v81 : DevRef τ sig)) (W (main_v122 : DevRef τ sig))) := by
  after_results_simp
  rfl

set_option maxHeartbeats 4000000 in
/-- The second result. -/
theorem tail_v125 (W : Valuation τ sig (Elt F)) :
    after opsT W (main_v125 : DevRef τ sig)
      = rows125 (joinOf (W (main_arg3 : DevRef τ sig)) (W (main_v40 : DevRef τ sig)) (W (main_v81 : DevRef τ sig)) (W (main_v122 : DevRef τ sig))) := by
  after_results_simp
  rfl

/-- No operation of the stretch writes `main_arg0`: the buffer keeps its contents. -/
theorem tail_keeps_arg0 (W : Valuation τ sig (Elt F)) :
    after opsT W (main_arg0 : DevRef τ sig) = W (main_arg0 : DevRef τ sig) := by
  after_results_simp

/-- No operation of the stretch writes `main_arg1`: the buffer keeps its contents. -/
theorem tail_keeps_arg1 (W : Valuation τ sig (Elt F)) :
    after opsT W (main_arg1 : DevRef τ sig) = W (main_arg1 : DevRef τ sig) := by
  after_results_simp

/-- No operation of the stretch writes `main_arg2`: the buffer keeps its contents. -/
theorem tail_keeps_arg2 (W : Valuation τ sig (Elt F)) :
    after opsT W (main_arg2 : DevRef τ sig) = W (main_arg2 : DevRef τ sig) := by
  after_results_simp

/-- No operation of the stretch writes `main_arg3`: the buffer keeps its contents. -/
theorem tail_keeps_arg3 (W : Valuation τ sig (Elt F)) :
    after opsT W (main_arg3 : DevRef τ sig) = W (main_arg3 : DevRef τ sig) := by
  after_results_simp

/-- No operation of the stretch writes `main_arg4`: the buffer keeps its contents. -/
theorem tail_keeps_arg4 (W : Valuation τ sig (Elt F)) :
    after opsT W (main_arg4 : DevRef τ sig) = W (main_arg4 : DevRef τ sig) := by
  after_results_simp

/-- No operation of the stretch writes `main_arg5`: the buffer keeps its contents. -/
theorem tail_keeps_arg5 (W : Valuation τ sig (Elt F)) :
    after opsT W (main_arg5 : DevRef τ sig) = W (main_arg5 : DevRef τ sig) := by
  after_results_simp

/-- No operation of the stretch writes `main_arg6`: the buffer keeps its contents. -/
theorem tail_keeps_arg6 (W : Valuation τ sig (Elt F)) :
    after opsT W (main_arg6 : DevRef τ sig) = W (main_arg6 : DevRef τ sig) := by
  after_results_simp

/-- No operation of the stretch writes `main_arg7`: the buffer keeps its contents. -/
theorem tail_keeps_arg7 (W : Valuation τ sig (Elt F)) :
    after opsT W (main_arg7 : DevRef τ sig) = W (main_arg7 : DevRef τ sig) := by
  after_results_simp

/-- Every operation of the stretch determines its results. -/
theorem opsT_fresh : ∀ op ∈ (opsT : List (HloOp τ sig (Elt F))), op.fresh = ∅ := by
  intro _ h
  repeat (cases h with | head => rfl | tail _ h => ?_)
  exact nomatch h

end Cert.ReferenceIdeal.RefRun

end
-- ==== Proof.LibAfterAppend.lean ====
/-
  The contents after two lines of host operations run one after the other.

  The buffers' contents after a list of operations is a fold: each operation in turn rewrites the buffers it writes. Over a
  list that is one line followed by another, the fold is the second line's fold started from the first line's result. This
  lets a long line be read in stretches, the contents between two stretches named once. It holds over any signature and
  any value type.
-/
import Idealize.ShloMosaic.Lib.StableHlo.Run

noncomputable section

namespace Cert.Lib.AfterAppend

open Idealize.ShloMosaic Idealize.ShloMosaic.StableHlo

variable {τ : Topo} {sig : RefSig} {Val : EltTy → Type}

/-- After `l₁` followed by `l₂`: after `l₂`, from what `l₁` left. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.AfterAppend

end
-- ==== Proof.RefRun.lean ====
/-
  The reference's run: both results as the pure functions of the eight arguments.

  The line of 192 operations is three layers and a tail, so the buffers' contents after it are the tail's from the
  third layer's, from the second's, from the first's, from the launch contents. Read layer by layer: after the first
  layer the embedding buffer holds the first embedding of the arguments and the arguments are as they were; the
  second layer reads them there and leaves the second embedding; the third likewise; the tail joins the input
  embedding with the three normalized embeddings, which no later layer overwrote, and slices the rows. With the
  program's run over the line — every weakly fair execution terminates, each buffer ending at the line's fold over
  the launch contents — this gives the two results, and the arguments unchanged.
-/
import proofs.«180967_j19731079758337_1_alg».proof.Proof.RefOps
import proofs.«180967_j19731079758337_1_alg».proof.Proof.RefDefs
import proofs.«180967_j19731079758337_1_alg».proof.Proof.RefMainEq
import proofs.«180967_j19731079758337_1_alg».proof.Proof.RefLayer1
import proofs.«180967_j19731079758337_1_alg».proof.Proof.RefLayer2
import proofs.«180967_j19731079758337_1_alg».proof.Proof.RefLayer3
import proofs.«180967_j19731079758337_1_alg».proof.Proof.RefTail
import proofs.«180967_j19731079758337_1_alg».proof.Proof.LibAfterAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

open Cert.Lib.AfterAppend

/-- Every operation of the line touches TensorCore references only. -/
theorem ops_sub : (ops : List (HloOp τ sig (Elt F))).Forall fun op => op.bufs ⊆ tcRefs τ sig := by
  rw [List.forall_iff_forall_mem]
  intro op h
  rcases List.mem_append.mp h with h | h
  · exact List.forall_iff_forall_mem.mp opsL1_sub op h
  rcases List.mem_append.mp h with h | h
  · exact List.forall_iff_forall_mem.mp opsL2_sub op h
  rcases List.mem_append.mp h with h | h
  · exact List.forall_iff_forall_mem.mp opsL3_sub op h
  · exact List.forall_iff_forall_mem.mp opsT_sub op h

/-- Every operation of the line determines its results. -/
theorem ops_fresh : ∀ op ∈ (ops : List (HloOp τ sig (Elt F))), op.fresh = ∅ := by
  intro op h
  rcases List.mem_append.mp h with h | h
  · exact opsL1_fresh op h
  rcases List.mem_append.mp h with h | h
  · exact opsL2_fresh op h
  rcases List.mem_append.mp h with h | h
  · exact opsL3_fresh op h
  · exact opsT_fresh op h

/-- The contents after the whole line: the tail's, from the third layer's, from the second's, from the first's. -/
theorem after_ops (V : Valuation τ sig (Elt F)) :
    after ops V = after opsT (after opsL3 (after opsL2 (after opsL1 V))) := by
  rw [show (ops : List (HloOp τ sig (Elt F))) = opsL1 ++ (opsL2 ++ (opsL3 ++ opsT)) from rfl,
    after_append, after_append, after_append]

/-! ### After the first layer -/

theorem at1_emb (V : Valuation τ sig (Elt F)) :
    (after opsL1 V) (main_v35 : DevRef τ sig) = emb1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) :=
  layer1_ego V

theorem at1_norm (V : Valuation τ sig (Elt F)) :
    (after opsL1 V) (main_v40 : DevRef τ sig) = layerNorm (emb1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))) :=
  layer1_norm V

/-! ### After the second layer -/

theorem at2_emb (V : Valuation τ sig (Elt F)) :
    (after opsL2 (after opsL1 V)) (main_v76 : DevRef τ sig) = emb2 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [layer2_ego (after opsL1 V), layer1_keeps_arg0 V, layer1_keeps_arg1 V, layer1_keeps_arg2 V, layer1_keeps_arg4 V, layer1_keeps_arg5 V, layer1_keeps_arg6 V, layer1_keeps_arg7 V, at1_emb V]
  rfl

theorem at2_norm (V : Valuation τ sig (Elt F)) :
    (after opsL2 (after opsL1 V)) (main_v81 : DevRef τ sig) = layerNorm (emb2 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))) := by
  rw [layer2_norm (after opsL1 V), layer1_keeps_arg0 V, layer1_keeps_arg1 V, layer1_keeps_arg2 V, layer1_keeps_arg4 V, layer1_keeps_arg5 V, layer1_keeps_arg6 V, layer1_keeps_arg7 V, at1_emb V]
  rfl

theorem at2_norm1 (V : Valuation τ sig (Elt F)) :
    (after opsL2 (after opsL1 V)) (main_v40 : DevRef τ sig) = layerNorm (emb1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))) := by
  rw [layer2_keeps_v40 (after opsL1 V), at1_norm V]

theorem at2_arg0 (V : Valuation τ sig (Elt F)) :
    (after opsL2 (after opsL1 V)) (main_arg0 : DevRef τ sig) = V (main_arg0 : DevRef τ sig) := by
  rw [layer2_keeps_arg0 (after opsL1 V), layer1_keeps_arg0 V]

theorem at2_arg1 (V : Valuation τ sig (Elt F)) :
    (after opsL2 (after opsL1 V)) (main_arg1 : DevRef τ sig) = V (main_arg1 : DevRef τ sig) := by
  rw [layer2_keeps_arg1 (after opsL1 V), layer1_keeps_arg1 V]

theorem at2_arg2 (V : Valuation τ sig (Elt F)) :
    (after opsL2 (after opsL1 V)) (main_arg2 : DevRef τ sig) = V (main_arg2 : DevRef τ sig) := by
  rw [layer2_keeps_arg2 (after opsL1 V), layer1_keeps_arg2 V]

theorem at2_arg3 (V : Valuation τ sig (Elt F)) :
    (after opsL2 (after opsL1 V)) (main_arg3 : DevRef τ sig) = V (main_arg3 : DevRef τ sig) := by
  rw [layer2_keeps_arg3 (after opsL1 V), layer1_keeps_arg3 V]

theorem at2_arg4 (V : Valuation τ sig (Elt F)) :
    (after opsL2 (after opsL1 V)) (main_arg4 : DevRef τ sig) = V (main_arg4 : DevRef τ sig) := by
  rw [layer2_keeps_arg4 (after opsL1 V), layer1_keeps_arg4 V]

theorem at2_arg5 (V : Valuation τ sig (Elt F)) :
    (after opsL2 (after opsL1 V)) (main_arg5 : DevRef τ sig) = V (main_arg5 : DevRef τ sig) := by
  rw [layer2_keeps_arg5 (after opsL1 V), layer1_keeps_arg5 V]

theorem at2_arg6 (V : Valuation τ sig (Elt F)) :
    (after opsL2 (after opsL1 V)) (main_arg6 : DevRef τ sig) = V (main_arg6 : DevRef τ sig) := by
  rw [layer2_keeps_arg6 (after opsL1 V), layer1_keeps_arg6 V]

theorem at2_arg7 (V : Valuation τ sig (Elt F)) :
    (after opsL2 (after opsL1 V)) (main_arg7 : DevRef τ sig) = V (main_arg7 : DevRef τ sig) := by
  rw [layer2_keeps_arg7 (after opsL1 V), layer1_keeps_arg7 V]

/-! ### After the third layer -/

theorem at3_norm (V : Valuation τ sig (Elt F)) :
    (after opsL3 (after opsL2 (after opsL1 V))) (main_v122 : DevRef τ sig) = layerNorm (emb3 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))) := by
  rw [layer3_norm (after opsL2 (after opsL1 V)), at2_arg0 V, at2_arg1 V, at2_arg2 V, at2_arg4 V, at2_arg5 V, at2_arg6 V, at2_arg7 V, at2_emb V]
  rfl

theorem at3_norm2 (V : Valuation τ sig (Elt F)) :
    (after opsL3 (after opsL2 (after opsL1 V))) (main_v81 : DevRef τ sig) = layerNorm (emb2 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))) := by
  rw [layer3_keeps_v81 (after opsL2 (after opsL1 V)), at2_norm V]

theorem at3_norm1 (V : Valuation τ sig (Elt F)) :
    (after opsL3 (after opsL2 (after opsL1 V))) (main_v40 : DevRef τ sig) = layerNorm (emb1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))) := by
  rw [layer3_keeps_v40 (after opsL2 (after opsL1 V)), at2_norm1 V]

theorem at3_arg0 (V : Valuation τ sig (Elt F)) :
    (after opsL3 (after opsL2 (after opsL1 V))) (main_arg0 : DevRef τ sig) = V (main_arg0 : DevRef τ sig) := by
  rw [layer3_keeps_arg0 (after opsL2 (after opsL1 V)), at2_arg0 V]

theorem at3_arg1 (V : Valuation τ sig (Elt F)) :
    (after opsL3 (after opsL2 (after opsL1 V))) (main_arg1 : DevRef τ sig) = V (main_arg1 : DevRef τ sig) := by
  rw [layer3_keeps_arg1 (after opsL2 (after opsL1 V)), at2_arg1 V]

theorem at3_arg2 (V : Valuation τ sig (Elt F)) :
    (after opsL3 (after opsL2 (after opsL1 V))) (main_arg2 : DevRef τ sig) = V (main_arg2 : DevRef τ sig) := by
  rw [layer3_keeps_arg2 (after opsL2 (after opsL1 V)), at2_arg2 V]

theorem at3_arg3 (V : Valuation τ sig (Elt F)) :
    (after opsL3 (after opsL2 (after opsL1 V))) (main_arg3 : DevRef τ sig) = V (main_arg3 : DevRef τ sig) := by
  rw [layer3_keeps_arg3 (after opsL2 (after opsL1 V)), at2_arg3 V]

theorem at3_arg4 (V : Valuation τ sig (Elt F)) :
    (after opsL3 (after opsL2 (after opsL1 V))) (main_arg4 : DevRef τ sig) = V (main_arg4 : DevRef τ sig) := by
  rw [layer3_keeps_arg4 (after opsL2 (after opsL1 V)), at2_arg4 V]

theorem at3_arg5 (V : Valuation τ sig (Elt F)) :
    (after opsL3 (after opsL2 (after opsL1 V))) (main_arg5 : DevRef τ sig) = V (main_arg5 : DevRef τ sig) := by
  rw [layer3_keeps_arg5 (after opsL2 (after opsL1 V)), at2_arg5 V]

theorem at3_arg6 (V : Valuation τ sig (Elt F)) :
    (after opsL3 (after opsL2 (after opsL1 V))) (main_arg6 : DevRef τ sig) = V (main_arg6 : DevRef τ sig) := by
  rw [layer3_keeps_arg6 (after opsL2 (after opsL1 V)), at2_arg6 V]

theorem at3_arg7 (V : Valuation τ sig (Elt F)) :
    (after opsL3 (after opsL2 (after opsL1 V))) (main_arg7 : DevRef τ sig) = V (main_arg7 : DevRef τ sig) := by
  rw [layer3_keeps_arg7 (after opsL2 (after opsL1 V)), at2_arg7 V]

/-! ### After the whole line -/

/-- The first result buffer after the line: the first result function of the launch contents of the arguments. -/
theorem after_v124 (V : Valuation τ sig (Elt F)) :
    after ops V (main_v124 : DevRef τ sig) = out124 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [after_ops V, tail_v124 (after opsL3 (after opsL2 (after opsL1 V))), at3_arg3 V, at3_norm1 V, at3_norm2 V, at3_norm V]
  rfl

/-- The second result buffer after the line. -/
theorem after_v125 (V : Valuation τ sig (Elt F)) :
    after ops V (main_v125 : DevRef τ sig) = out125 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [after_ops V, tail_v125 (after opsL3 (after opsL2 (after opsL1 V))), at3_arg3 V, at3_norm1 V, at3_norm2 V, at3_norm V]
  rfl

theorem after_arg0 (V : Valuation τ sig (Elt F)) :
    after ops V (main_arg0 : DevRef τ sig) = V (main_arg0 : DevRef τ sig) := by
  rw [after_ops V, tail_keeps_arg0 (after opsL3 (after opsL2 (after opsL1 V))), at3_arg0 V]

theorem after_arg1 (V : Valuation τ sig (Elt F)) :
    after ops V (main_arg1 : DevRef τ sig) = V (main_arg1 : DevRef τ sig) := by
  rw [after_ops V, tail_keeps_arg1 (after opsL3 (after opsL2 (after opsL1 V))), at3_arg1 V]

theorem after_arg2 (V : Valuation τ sig (Elt F)) :
    after ops V (main_arg2 : DevRef τ sig) = V (main_arg2 : DevRef τ sig) := by
  rw [after_ops V, tail_keeps_arg2 (after opsL3 (after opsL2 (after opsL1 V))), at3_arg2 V]

theorem after_arg3 (V : Valuation τ sig (Elt F)) :
    after ops V (main_arg3 : DevRef τ sig) = V (main_arg3 : DevRef τ sig) := by
  rw [after_ops V, tail_keeps_arg3 (after opsL3 (after opsL2 (after opsL1 V))), at3_arg3 V]

theorem after_arg4 (V : Valuation τ sig (Elt F)) :
    after ops V (main_arg4 : DevRef τ sig) = V (main_arg4 : DevRef τ sig) := by
  rw [after_ops V, tail_keeps_arg4 (after opsL3 (after opsL2 (after opsL1 V))), at3_arg4 V]

theorem after_arg5 (V : Valuation τ sig (Elt F)) :
    after ops V (main_arg5 : DevRef τ sig) = V (main_arg5 : DevRef τ sig) := by
  rw [after_ops V, tail_keeps_arg5 (after opsL3 (after opsL2 (after opsL1 V))), at3_arg5 V]

theorem after_arg6 (V : Valuation τ sig (Elt F)) :
    after ops V (main_arg6 : DevRef τ sig) = V (main_arg6 : DevRef τ sig) := by
  rw [after_ops V, tail_keeps_arg6 (after opsL3 (after opsL2 (after opsL1 V))), at3_arg6 V]

theorem after_arg7 (V : Valuation τ sig (Elt F)) :
    after ops V (main_arg7 : DevRef τ sig) = V (main_arg7 : DevRef τ sig) := by
  rw [after_ops V, tail_keeps_arg7 (after opsL3 (after opsL2 (after opsL1 V))), at3_arg7 V]

/-- The program's run over the line: from any memory with zero counters every weakly fair execution of @main
    terminates, each TensorCore buffer ending at the line's fold over the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after ops (launchContents m d) (b : DevRef τ sig) :=
  run_seq scopedRefs_eq scopedSems_eq defs main (fun _ => ops) main_eq (fun _ => ops_sub) m ρ (fun _ => ops_fresh)

/-- On every device, for any float values, from any memory with zero counters: every weakly fair execution of
    @main terminates with the two results at the result functions of the arguments' launch contents and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v124) = out124 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v125) = out125 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := F)) _ _).mono (fun _ h c => ⟨(h c main_v124).trans (after_v124 (launchContents m c)),
      (h c main_v125).trans (after_v125 (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c)),
      (h c main_arg5).trans (after_arg5 (launchContents m c)),
      (h c main_arg6).trans (after_arg6 (launchContents m c)),
      (h c main_arg7).trans (after_arg7 (launchContents m c))⟩)
    (run_after m ρ)

end Cert.ReferenceIdeal.RefRun

end
-- ==== Proof.RefEntryOps.lean ====
/-
  The whole-array operations of one aggregation layer, as the host computes them, read at one element.

  Over a 150000 × 64 array at row r and column q, at the exact values (the extended reals):
    • a scalar repeated over a shape reads the scalar everywhere;
    • a length-a vector laid out as an a × 1 column by repeating along a new trailing axis reads the vector at the row;
    • a dense layer — the product with a 64 × 64 matrix plus a length-64 bias repeated as a row and then down the
      rows — reads the sum over k of array (r, k) · matrix (k, q) plus the bias, the bias seen as a 1 × 64 row;
    • the leaky rectifier as a comparison with the zero scalar and a selection against the slope scalar times the array;
    • a row's Euclidean norm kept as a column: the square root of the row's sum of squares, the sum starting from zero;
    • the quotient by a column repeated across the columns, the column being a maximum of two columns.
  The shape relations each operation carries are propositions, so the statements take them as arbitrary proofs.
-/
import proofs.«180967_j19731079758337_1_alg».proof.Proof.EntrySpec
import proofs.«180967_j19731079758337_1_alg».proof.Proof.LibPlainDot
import proofs.«180967_j19731079758337_1_alg».proof.Proof.LibRowBroadcasts
import Idealize.ShloMosaic.Lib.ValueIdx
import Idealize.ShloMosaic.Lib.Pipeline.Value
import Idealize.ShloMosaic.PureOps.Ideal.Laws

noncomputable section

namespace Cert.RefLayer

open Idealize.ShloMosaic Idealize.ShloMosaic.ValueIdx
open Cert.EntrySpec
open scoped BigOperators

/-- A scalar repeated over a shape reads the scalar at every index: the scalar shape has no axis to place. -/
theorem scalar_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A length-a vector repeated along a new trailing unit axis reads, at (p, ·), the vector at p. -/
theorem dimVecCol_apply {α : Type} {a : Nat} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's square root of an array reads, at an index, the square root of the element. -/
theorem hostSqrt_apply {s : Shape} (x : FVec Ideal s .f32) (i : s.Idx) : Host.sqrt x i = Ideal.sqrt (x i) := rfl

/-- The host's sum along axes reads, at a reduced index, the exact sum from the initial scalar's value. -/
theorem hostReduceAdd_apply {s t u : Shape} {axes : List (Fin s.rank)} (x : FVec Ideal s .f32) (init : u.Idx → Ideal .f32)
    (h : s.ReducesTo axes t) (hu : 0 < u.numel) (j : t.Idx) :
    Host.reduceAdd x init h hu j = Ideal.hostReduceAdd h x (init (Shape.Idx.first hu)) j := rfl

/-- A dense layer at (r, q): the array's row r against the matrix's column q, plus the bias entry q. The bias, a
    length-64 vector repeated as a row, is the same array as that vector cast to a 1 × 64 row. -/
theorem refDense_apply (u : FVec Ideal ⟨2, ![150000, 64]⟩ .f32) (W : FVec Ideal ⟨2, ![64, 64]⟩ .f32)
    (v : FVec Ideal ⟨1, ![64]⟩ .f32)
    (wf : DotDims.WF ⟨2, ![150000, 64]⟩ ⟨2, ![64, 64]⟩ ⟨2, ![150000, 64]⟩ [1] [0] [0] [1] [] [])
    (hb1 : (⟨1, ![64]⟩ : Shape).BroadcastsInDim ⟨2, ![1, 64]⟩ ![1])
    (hb2 : (⟨2, ![1, 64]⟩ : Shape).BroadcastsInDim ⟨2, ![150000, 64]⟩ ![0, 1])
    (hc : (⟨1, ![64]⟩ : Shape).ShapeCasts ⟨2, ![1, 64]⟩) (r : Fin 150000) (q : Fin 64) :
    addf (Host.dotGeneral (Cert.Lib.PlainDot.dims wf) none u W)
         (broadcastInDim ⟨2, ![150000, 64]⟩ ![0, 1] hb2 (broadcastInDim ⟨2, ![1, 64]⟩ ![1] hb1 v)) (ix2 r q)
      = (∑ k : Fin 64, u (ix2 r k) * W (ix2 k q)) + shapeCast ⟨2, ![1, 64]⟩ v hc (ix2 (0 : Fin 1) q) := by
  rw [← Cert.Lib.Rows.castRow_eq_dimRow v hc hb1]
  refine (addf_apply _ _ _).trans ?_
  exact congrArg₂ (· + ·) (Cert.Lib.PlainDot.dotGeneral_apply wf none u W r q)
    (Cert.Lib.Rows.dimRow_apply _ hb2 r q)

/-- The rectifier on an array, at an element: comparing with the repeated zero scalar and selecting between the
    array and the repeated slope scalar times the array is the rectifier of the element. -/
theorem refLeaky_apply (A : FVec Ideal ⟨2, ![150000, 64]⟩ .f32)
    (h : (⟨0, ![]⟩ : Shape).BroadcastsInDim ⟨2, ![150000, 64]⟩ ![]) (i : (⟨2, ![150000, 64]⟩ : Shape).Idx) :
    select (cmpf .oge A (broadcastInDim ⟨2, ![150000, 64]⟩ ![] h (constant (F := Ideal) ⟨0, ![]⟩ .f32 0x00000000#32))) A
        (mulf (broadcastInDim ⟨2, ![150000, 64]⟩ ![] h (id (constant (F := Ideal) ⟨0, ![]⟩ .f32 0x3C23D70A#32))) A) i
      = leaky (A i) := by
  have hz : broadcastInDim ⟨2, ![150000, 64]⟩ ![] h (constant (F := Ideal) ⟨0, ![]⟩ .f32 0x00000000#32) i
      = Ideal.ofBits .f32 0x00000000#32 := scalar_apply _ h _ i
  have hs : broadcastInDim ⟨2, ![150000, 64]⟩ ![] h (id (constant (F := Ideal) ⟨0, ![]⟩ .f32 0x3C23D70A#32)) i
      = Ideal.ofBits .f32 0x3C23D70A#32 := scalar_apply _ h _ i
  show Scalar.select (Ideal.cmp .oge (A i)
        (broadcastInDim ⟨2, ![150000, 64]⟩ ![] h (constant (F := Ideal) ⟨0, ![]⟩ .f32 0x00000000#32) i)) (A i)
      (broadcastInDim ⟨2, ![150000, 64]⟩ ![] h (id (constant (F := Ideal) ⟨0, ![]⟩ .f32 0x3C23D70A#32)) i * A i) = _
  rw [hz, hs]
  exact select_oge_zero (A i)

/-- A row's norm at (r, ·): the square root of the sum over the row's 64 columns of the squared elements. The host's
    sum starts from the zero scalar, which is the number 0; laid out as a column it stays at row r. -/
theorem refRowNorm_apply (e : FVec Ideal ⟨2, ![150000, 64]⟩ .f32)
    (hrt : (⟨2, ![150000, 64]⟩ : Shape).ReducesTo [1] ⟨1, ![150000]⟩) (hu : 0 < (⟨0, ![]⟩ : Shape).numel)
    (hb : (⟨1, ![150000]⟩ : Shape).BroadcastsInDim ⟨2, ![150000, 1]⟩ ![0]) (r : Fin 150000) (u : Fin 1) :
    Host.sqrt (broadcastInDim ⟨2, ![150000, 1]⟩ ![0] hb
        (Host.reduceAdd (mulf e e) (constant (F := Ideal) ⟨0, ![]⟩ .f32 0x00000000#32) hrt hu)) (ix2 r u)
      = Ideal.sqrt (∑ j : Fin 64, e (ix2 r j) * e (ix2 r j)) := by
  refine (hostSqrt_apply _ _).trans (congrArg Ideal.sqrt ?_)
  refine (dimVecCol_apply _ hb r u).trans ?_
  have hr : (⟨2, ![150000, 64]⟩ : Shape).Reduces [1] ⟨1, ![150000]⟩ := by decide
  refine (hostReduceAdd_apply (mulf e e) _ hrt hu (ix1 r)).trans ?_
  refine (Ideal.hostReduceAdd_single hrt hr (mulf e e) _ (ix1 r)).trans ?_
  rw [constant_apply, Ideal.ofBits_zero_f32, zero_add]
  show (∑ k : Fin 64, mulf e e (hr.lift (ix1 r) k)) = _
  refine Finset.sum_congr rfl fun k _ => ?_
  have hk : hr.lift (ix1 r) k = ix2 r k :=
    funext fun c => Fin.ext (by match c with | ⟨0, _⟩ => rfl | ⟨1, _⟩ => rfl)
  rw [hk]
  rfl

/-- The host's quotient by a repeated column at (r, q): the element over the larger of the two columns' entries at
    row r. -/
theorem refNorm_apply (e : FVec Ideal ⟨2, ![150000, 64]⟩ .f32) (n m : FVec Ideal ⟨2, ![150000, 1]⟩ .f32)
    (hb : (⟨2, ![150000, 1]⟩ : Shape).BroadcastsInDim ⟨2, ![150000, 64]⟩ ![0, 1]) (r : Fin 150000) (q : Fin 64) :
    Host.divf e (broadcastInDim ⟨2, ![150000, 64]⟩ ![0, 1] hb (maximumf n m)) (ix2 r q)
      = Ideal.div (e (ix2 r q)) (max (n (ix2 r (0 : Fin 1))) (m (ix2 r (0 : Fin 1)))) := by
  show Ideal.div (e (ix2 r q)) (broadcastInDim ⟨2, ![150000, 64]⟩ ![0, 1] hb (maximumf n m) (ix2 r q)) = _
  exact congrArg (Ideal.div (e (ix2 r q))) (Cert.Lib.Rows.dimCol_apply (maximumf n m) hb r q)

end Cert.RefLayer

end
-- ==== Proof.RefLayer.lean ====
/-
  The reference's layer functions are the entry-by-entry layer functions.

  One layer of the reference, as whole-array operations on the embedding X and its neighbourhood sum S (150000 × 64
  each): two dense layers with transposed 64 × 64 weights and bias rows, of X * S and of X + S, each through the leaky
  rectifier, added; and the row normalisation, each row over the larger of its Euclidean norm and a small constant.
  Read at row r and column q these are the entry functions of row r of X and S, column q of the transposed weights
  and entry q of the biases — the same functions a block of rows computes by itself. The reference adds the two
  rectified branches product first; addition of extended reals commutes. The transposed weight and the bias row are
  taken as the same arrays the launch side names, so neither the transpose nor the casts are opened.
-/
import proofs.«180967_j19731079758337_1_alg».proof.Proof.RefDefs
import proofs.«180967_j19731079758337_1_alg».proof.Proof.AggHost
import proofs.«180967_j19731079758337_1_alg».proof.Proof.LayerSpec
import proofs.«180967_j19731079758337_1_alg».proof.Proof.RefEntryOps

noncomputable section

namespace Cert.RefLayer

open Idealize.ShloMosaic Idealize.ShloMosaic.ValueIdx Idealize.ShloMosaic.TcCoe Idealize.SL.Sem
open Cert.EntrySpec
open scoped BigOperators

/-- The reference's new embedding is, entry by entry, the layer function of the embedding, its neighbourhood sum,
    the two transposed weights and the two bias rows. -/
theorem layerEgo_eq
    (x s : (⟨Cert.ReferenceIdeal.S150000x64, .f32⟩ : BufTy).Contents (Elt Ideal))
    (w1 : (⟨Cert.ReferenceIdeal.S1x64x64, .f32⟩ : BufTy).Contents (Elt Ideal))
    (b1 : (⟨Cert.ReferenceIdeal.S1x64, .f32⟩ : BufTy).Contents (Elt Ideal))
    (w2 : (⟨Cert.ReferenceIdeal.S1x64x64, .f32⟩ : BufTy).Contents (Elt Ideal))
    (b2 : (⟨Cert.ReferenceIdeal.S1x64, .f32⟩ : BufTy).Contents (Elt Ideal)) :
    Cert.ReferenceIdeal.RefRun.layerEgo (F := Ideal) x s w1 b1 w2 b2
      = Cert.LayerSpec.ego x s (Cert.KernelIdeal.Agg.wT (F := Ideal) w1) (Cert.KernelIdeal.Agg.wT (F := Ideal) w2)
          (Cert.KernelIdeal.Agg.bRow (F := Ideal) b1) (Cert.KernelIdeal.Agg.bRow (F := Ideal) b2) := by
  refine funext fun (i : (⟨2, ![150000, 64]⟩ : Shape).Idx) => ?_
  obtain ⟨r, q, rfl⟩ : ∃ (r : Fin 150000) (q : Fin 64), i = ix2 r q := ⟨i 0, i 1, eq_ix2 i⟩
  refine Eq.trans ?_ (Cert.LayerSpec.ego_apply _ _ _ _ _ _ r q).symm
  unfold Cert.ReferenceIdeal.RefRun.layerEgo Cert.ReferenceIdeal.RefRun.leaky Cert.ReferenceIdeal.RefRun.dense egoEntry
  refine (addf_apply _ _ _).trans ?_
  refine (add_comm _ _).trans ?_
  refine congrArg₂ (· + ·) ?_ ?_
  · refine (refLeaky_apply _ _ _).trans (congrArg leaky ?_)
    exact refDense_apply (addf x s) (Cert.KernelIdeal.Agg.wT (F := Ideal) w1) _ _ _ _ _ r q
  · refine (refLeaky_apply _ _ _).trans (congrArg leaky ?_)
    exact refDense_apply (mulf x s) (Cert.KernelIdeal.Agg.wT (F := Ideal) w2) _ _ _ _ _ r q

/-- The reference's normalised embedding is, entry by entry, the normalisation function of the embedding. -/
theorem layerNorm_eq (e : (⟨Cert.ReferenceIdeal.S150000x64, .f32⟩ : BufTy).Contents (Elt Ideal)) :
    Cert.ReferenceIdeal.RefRun.layerNorm (F := Ideal) e = Cert.LayerSpec.nrm e := by
  refine funext fun (i : (⟨2, ![150000, 64]⟩ : Shape).Idx) => ?_
  obtain ⟨r, q, rfl⟩ : ∃ (r : Fin 150000) (q : Fin 64), i = ix2 r q := ⟨i 0, i 1, eq_ix2 i⟩
  refine Eq.trans ?_ (Cert.LayerSpec.nrm_apply _ r q).symm
  unfold Cert.ReferenceIdeal.RefRun.layerNorm Cert.ReferenceIdeal.RefRun.rowNorm normEntry
  refine (refNorm_apply _ _ _ _ r q).trans ?_
  refine congrArg (Ideal.div _) (congrArg₂ max ?_ ?_)
  · exact refRowNorm_apply e _ _ _ r 0
  · exact scalar_apply _ _ _ _

end Cert.RefLayer

end
-- ==== Proof.Bridge.lean ====
/-
  The reference's results and the idealized kernel's results are the same functions of the eight arguments.

  Both programs form the neighbourhood sum with the same host operations (the same function, `side`), slice, reshape and
  transpose the weights with the same operations, and lay out the bias as a 1 × 64 row — the kernel's program by a
  reshape, the reference by a broadcast along a new leading axis: the same row. Given those, one layer of the reference
  (two whole-array products, the rectifier, a sum in the order product branch + sum branch, the row norms) is the
  layer's entry-by-entry function (a sum of extended reals does not depend on the order of its two terms), which is
  what each block of the kernel's region computes. The embeddings after each of the three layers therefore agree, and so
  do the two results, which both programs cut from the same side-by-side array.
-/
import proofs.«180967_j19731079758337_1_alg».proof.Proof.AggChain
import proofs.«180967_j19731079758337_1_alg».proof.Proof.RefDefs
import proofs.«180967_j19731079758337_1_alg».proof.Proof.RefLayer

set_option maxRecDepth 16384

noncomputable section

namespace Cert.Bridge

open Idealize.ShloMosaic

variable (a0 a1 : (⟨Cert.KernelIdeal.S2400000, .i32⟩ : BufTy).Contents (Elt Ideal)) (a2 : (⟨Cert.KernelIdeal.S2400000, .f32⟩ : BufTy).Contents (Elt Ideal)) (a3 : (⟨Cert.KernelIdeal.S150000x64, .f32⟩ : BufTy).Contents (Elt Ideal)) (a4 : (⟨Cert.KernelIdeal.S3x64x64, .f32⟩ : BufTy).Contents (Elt Ideal)) (a5 : (⟨Cert.KernelIdeal.S3x64, .f32⟩ : BufTy).Contents (Elt Ideal)) (a6 : (⟨Cert.KernelIdeal.S3x64x64, .f32⟩ : BufTy).Contents (Elt Ideal)) (a7 : (⟨Cert.KernelIdeal.S3x64, .f32⟩ : BufTy).Contents (Elt Ideal))

/-- After the first layer. -/
theorem emb1_eq : Cert.ReferenceIdeal.RefRun.emb1 (F := Ideal) a0 a1 a2 a3 a4 a5 a6 a7 = Cert.KernelIdeal.Agg.emb1 a0 a1 a2 a3 a4 a5 a6 a7 := by
  unfold Cert.ReferenceIdeal.RefRun.emb1 Cert.ReferenceIdeal.RefRun.layerOf
  rw [Cert.RefLayer.layerEgo_eq]
  rfl

/-- After the second layer. -/
theorem emb2_eq : Cert.ReferenceIdeal.RefRun.emb2 (F := Ideal) a0 a1 a2 a3 a4 a5 a6 a7 = Cert.KernelIdeal.Agg.emb2 a0 a1 a2 a3 a4 a5 a6 a7 := by
  unfold Cert.ReferenceIdeal.RefRun.emb2 Cert.ReferenceIdeal.RefRun.layerOf
  rw [emb1_eq, Cert.RefLayer.layerEgo_eq]
  rfl

/-- After the third layer. -/
theorem emb3_eq : Cert.ReferenceIdeal.RefRun.emb3 (F := Ideal) a0 a1 a2 a3 a4 a5 a6 a7 = Cert.KernelIdeal.Agg.emb3 a0 a1 a2 a3 a4 a5 a6 a7 := by
  unfold Cert.ReferenceIdeal.RefRun.emb3 Cert.ReferenceIdeal.RefRun.layerOf
  rw [emb2_eq, Cert.RefLayer.layerEgo_eq]
  rfl

/-- The first result: the first 50000 rows of the launch embedding beside the three normalized embeddings. -/
theorem out124_eq : Cert.ReferenceIdeal.RefRun.out124 (F := Ideal) a0 a1 a2 a3 a4 a5 a6 a7
    = Cert.KernelIdeal.Agg.users (F := Ideal) a3 (Cert.LayerSpec.nrm (Cert.KernelIdeal.Agg.emb1 a0 a1 a2 a3 a4 a5 a6 a7)) (Cert.LayerSpec.nrm (Cert.KernelIdeal.Agg.emb2 a0 a1 a2 a3 a4 a5 a6 a7)) (Cert.LayerSpec.nrm (Cert.KernelIdeal.Agg.emb3 a0 a1 a2 a3 a4 a5 a6 a7)) := by
  unfold Cert.ReferenceIdeal.RefRun.out124 Cert.ReferenceIdeal.RefRun.joined
  rw [Cert.RefLayer.layerNorm_eq, Cert.RefLayer.layerNorm_eq, Cert.RefLayer.layerNorm_eq, emb1_eq, emb2_eq, emb3_eq]
  rfl

/-- The second result: the remaining 100000 rows. -/
theorem out125_eq : Cert.ReferenceIdeal.RefRun.out125 (F := Ideal) a0 a1 a2 a3 a4 a5 a6 a7
    = Cert.KernelIdeal.Agg.entities (F := Ideal) a3 (Cert.LayerSpec.nrm (Cert.KernelIdeal.Agg.emb1 a0 a1 a2 a3 a4 a5 a6 a7)) (Cert.LayerSpec.nrm (Cert.KernelIdeal.Agg.emb2 a0 a1 a2 a3 a4 a5 a6 a7)) (Cert.LayerSpec.nrm (Cert.KernelIdeal.Agg.emb3 a0 a1 a2 a3 a4 a5 a6 a7)) := by
  unfold Cert.ReferenceIdeal.RefRun.out125 Cert.ReferenceIdeal.RefRun.joined
  rw [Cert.RefLayer.layerNorm_eq, Cert.RefLayer.layerNorm_eq, Cert.RefLayer.layerNorm_eq, emb1_eq, emb2_eq, emb3_eq]
  rfl

end Cert.Bridge

end
-- ==== Proof.lean ====
/-
  Three graph-convolution layers with two dense branches each, computed by a tiled kernel per layer (the word-level
  program and its idealization) and by whole-array operations (the reference), agree at the ideal instance.

  One layer maps the current embedding x (150000 × 64) to
      e = leaky((x + s)·W₁ᵀ + b₁) + leaky((x ⊙ s)·W₂ᵀ + b₂),      s = the neighbourhood sum of x over the edge list,
  and emits e with each row divided by max(‖row‖₂, ε); e is the next layer's x. The results are the first 50000 and the
  remaining 100000 rows of the launch embedding and the three normalized embeddings laid side by side.

  The three runs. Each program's @main is read as a run from the launch memory: the kernel programs as host stretches
  around three tiled regions (a region leaves its inputs as entered and each output with every grid point's block
  written back; a grid point's blocks are the layer's function of its 3000 rows), the reference as one line of host
  operations. Each run ends with the arguments as launched, which is the three frame claims. The preservation claim, as stated,
  lists no rewrite of the idealization to justify: it is the proposition `True`.

  The equality. An entry of e depends only on its own row of x and s, and an entry of the normalized embedding only on
  its own row of e: so the rows a grid point computes from its blocks are the rows the whole-array operations compute,
  a product of a row block with the transposed weights being the same finite sums of products, a sum of extended reals
  not depending on the order of its two terms, and a change of float format being the identity at the ideal instance.
  Both programs compute s by the same host operations. Hence the embeddings agree layer by layer and so do the results.
  No step uses that an input is finite: the two sides are the same function of the same extended reals.
-/
import proofs.«180967_j19731079758337_1_alg».proof.Defs
import proofs.«180967_j19731079758337_1_alg».proof.Proof.WordRun
import proofs.«180967_j19731079758337_1_alg».proof.Proof.AggChain
import proofs.«180967_j19731079758337_1_alg».proof.Proof.RefRun
import proofs.«180967_j19731079758337_1_alg».proof.Proof.Bridge
import proofs.«180967_j19731079758337_1_alg».proof.Proof.Gen.Kernel
import proofs.«180967_j19731079758337_1_alg».proof.Proof.Gen.KernelIdeal
import proofs.«180967_j19731079758337_1_alg».proof.Proof.Gen.ReferenceIdeal
import proofs.«180967_j19731079758337_1_alg».proof.Proof.Gen.Pre_finite_inputs
import Idealize.ShloMosaic.Adequacy
import Idealize.ShloMosaic.Init

noncomputable section

namespace Cert.Proof

open Idealize.ShloMosaic Idealize.SL.Sem

/-- The word-level program runs and keeps its arguments: its run with the results dropped. -/
theorem frame_word : Cert.frame_Kernel := fun m ρ _ =>
  (θ_run Cert.Kernel.defs _ _).mono (fun _ h c => (h c).2.2) (Cert.Kernel.Agg.run (F := Bits) m ρ)

/-- The idealized program runs and keeps its arguments. -/
theorem frame_ideal : Cert.frame_KernelIdeal := fun m ρ _ =>
  (θ_run Cert.KernelIdeal.defs _ _).mono (fun _ h c => (h c).2.2) (Cert.KernelIdeal.Agg.run (F := Ideal) m ρ)

/-- The reference runs and keeps its arguments. -/
theorem frame_reference : Cert.frame_ReferenceIdeal := fun m ρ _ =>
  (θ_run Cert.ReferenceIdeal.defs _ _).mono (fun _ h c => (h c).2.2) (Cert.ReferenceIdeal.RefRun.run (F := Ideal) m ρ)

/-- The preservation claim as stated lists no rewrite: it is `True`. -/
theorem preserves : Cert.preserves_Kernel_KernelIdeal := trivial

/-- From memories agreeing on the arguments both idealized programs end with the same two results: the side-by-side
    array of the launch embedding and the three normalized embeddings, cut into its two row ranges. -/
theorem algebraic : Cert.algebraic_KernelIdeal_ReferenceIdeal := by
  intro m ρ m' ρ' _ hagree
  refine ⟨fun c => Cert.KernelIdeal.Agg.users (F := Ideal) (m ((c.tc : Thread Cert.KernelIdeal.nD Cert.KernelIdeal.τ).loc Cert.KernelIdeal.main_arg3)) (Cert.LayerSpec.nrm (Cert.KernelIdeal.Agg.emb1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))) (Cert.LayerSpec.nrm (Cert.KernelIdeal.Agg.emb2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))) (Cert.LayerSpec.nrm (Cert.KernelIdeal.Agg.emb3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))),
    fun c => Cert.KernelIdeal.Agg.entities (F := Ideal) (m ((c.tc : Thread Cert.KernelIdeal.nD Cert.KernelIdeal.τ).loc Cert.KernelIdeal.main_arg3)) (Cert.LayerSpec.nrm (Cert.KernelIdeal.Agg.emb1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))) (Cert.LayerSpec.nrm (Cert.KernelIdeal.Agg.emb2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))) (Cert.LayerSpec.nrm (Cert.KernelIdeal.Agg.emb3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))), ?_, ?_⟩
  · exact (θ_run (Cert.KernelIdeal.defs (F := Ideal)) _ _).mono
      (fun r h c => ⟨(h c).1.trans (Cert.KernelIdeal.Agg.W7_users m ρ c), (h c).2.1.trans (Cert.KernelIdeal.Agg.W7_entities m ρ c), (h c).2.2⟩)
      (Cert.KernelIdeal.Agg.run (F := Ideal) m ρ)
  · refine (θ_run (Cert.ReferenceIdeal.defs (F := Ideal)) _ _).mono (fun r h c => ⟨(h c).1.trans ?_, (h c).2.1.trans ?_, (h c).2.2⟩)
      (Cert.ReferenceIdeal.RefRun.run (F := Ideal) m' ρ')
    · obtain ⟨h0, h1, h2, h3, h4, h5, h6, h7⟩ := hagree c
      rw [h0, h1, h2, h3, h4, h5, h6, h7]
      exact Cert.Bridge.out124_eq _ _ _ _ _ _ _ _
    · obtain ⟨h0, h1, h2, h3, h4, h5, h6, h7⟩ := hagree c
      rw [h0, h1, h2, h3, h4, h5, h6, h7]
      exact Cert.Bridge.out125_eq _ _ _ _ _ _ _ _

theorem claim : Cert.Claim := ⟨Cert.Kernel.Gen.facts, Cert.KernelIdeal.Gen.facts, Cert.ReferenceIdeal.Gen.facts, Cert.Pre_finite_inputs.Gen.facts,
  frame_word, frame_ideal, frame_reference, preserves, algebraic⟩

end Cert.Proof

end
